-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x800000 32) (main_arg2 : FVec F S128x64 .f32) (main_arg3 : FVec F S64 .f32) (main_arg4 : FVec F S64x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x128 : Shape := ⟨2, ![100000, 128]⟩
abbrev S2x800000 : Shape := ⟨2, ![2, 800000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S100000x64 : Shape := ⟨2, ![100000, 64]⟩
abbrev S10000x128 : Shape := ⟨2, ![10000, 128]⟩
abbrev S10000x64 : Shape := ⟨2, ![10000, 64]⟩
abbrev S900000x64 : Shape := ⟨2, ![900000, 64]⟩
abbrev S100000x40 : Shape := ⟨2, ![100000, 40]⟩
abbrev S10000x40 : Shape := ⟨2, ![10000, 40]⟩
abbrev S1x64 : Shape := ⟨2, ![1, 64]⟩
abbrev S900000x40 : Shape := ⟨2, ![900000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 80
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S900000, .i32⟩
  | .hbm, ⟨12, _⟩ => ⟨S900000, .i32⟩
  | .hbm, ⟨13, _⟩ => ⟨S_, .f32⟩
  | .hbm, ⟨14, _⟩ => ⟨S900000, .f32⟩
  | .hbm, ⟨15, _⟩ => ⟨S_, .f32⟩
  | .hbm, ⟨16, _⟩ => ⟨S100000, .f32⟩
  | .hbm, ⟨17, _⟩ => ⟨S900000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S900000, .i32⟩
  | .hbm, ⟨28, _⟩ => ⟨S900000, .i1⟩
  | .hbm, ⟨29, _⟩ => ⟨S_, .i32⟩
  | .hbm, ⟨30, _⟩ => ⟨S900000, .i32⟩
  | .hbm, ⟨31, _⟩ => ⟨S900000, .i32⟩
  | .hbm, ⟨32, _⟩ => ⟨S900000, .i32⟩
  | .hbm, ⟨33, _⟩ => ⟨S900000x1, .i32⟩
  | .hbm, ⟨34, _⟩ => ⟨S900000, .f32⟩
  | .hbm, ⟨35, _⟩ => ⟨S_, .i32⟩
  | .hbm, ⟨36, _⟩ => ⟨S900000, .i32⟩
  | .hbm, ⟨37, _⟩ => ⟨S900000, .i1⟩
  | .hbm, ⟨38, _⟩ => ⟨S_, .i32⟩
  | .hbm, ⟨39, _⟩ => ⟨S900000, .i32⟩
  | .hbm, ⟨40, _⟩ => ⟨S900000, .i32⟩
  | .hbm, ⟨41, _⟩ => ⟨S900000, .i32⟩
  | .hbm, ⟨42, _⟩ => ⟨S900000x1, .i32⟩
  | .hbm, ⟨43, _⟩ => ⟨S900000, .f32⟩
  | .hbm, ⟨44, _⟩ => ⟨S900000, .f32⟩
  | .hbm, ⟨45, _⟩ => ⟨S100000x64, .f32⟩
  | .hbm, ⟨46, _⟩ => ⟨S_, .i32⟩
  | .hbm, ⟨47, _⟩ => ⟨S900000, .i32⟩
  | .hbm, ⟨48, _⟩ => ⟨S900000, .i1⟩
  | .hbm, ⟨49, _⟩ => ⟨S_, .i32⟩
  | .hbm, ⟨50, _⟩ => ⟨S900000, .i32⟩
  | .hbm, ⟨51, _⟩ => ⟨S900000, .i32⟩
  | .hbm, ⟨52, _⟩ => ⟨S900000, .i32⟩
  | .hbm, ⟨53, _⟩ => ⟨S900000x1, .i32⟩
  | .hbm, ⟨54, _⟩ => ⟨S900000x64, .f32⟩
  | .hbm, ⟨55, _⟩ => ⟨S900000x1, .f32⟩
  | .hbm, ⟨56, _⟩ => ⟨S900000x64, .f32⟩
  | .hbm, ⟨57, _⟩ => ⟨S900000x64, .f32⟩
  | .hbm, ⟨58, _⟩ => ⟨S_, .f32⟩
  | .hbm, ⟨59, _⟩ => ⟨S100000x64, .f32⟩
  | .hbm, ⟨60, _⟩ => ⟨S900000x1, .i32⟩
  | .hbm, ⟨61, _⟩ => ⟨S100000x64, .f32⟩
  | .hbm, ⟨62, _⟩ => ⟨S100000x40, .f32⟩
  | .hbm, ⟨63, _⟩ => ⟨S_, .i32⟩
  | .hbm, ⟨64, _⟩ => ⟨S900000, .i32⟩
  | .hbm, ⟨65, _⟩ => ⟨S900000, .i1⟩
  | .hbm, ⟨66, _⟩ => ⟨S_, .i32⟩
  | .hbm, ⟨67, _⟩ => ⟨S900000, .i32⟩
  | .hbm, ⟨68, _⟩ => ⟨S900000, .i32⟩
  | .hbm, ⟨69, _⟩ => ⟨S900000, .i32⟩
  | .hbm, ⟨70, _⟩ => ⟨S900000x1, .i32⟩
  | .hbm, ⟨71, _⟩ => ⟨S900000x40, .f32⟩
  | .hbm, ⟨72, _⟩ => ⟨S900000x1, .f32⟩
  | .hbm, ⟨73, _⟩ => ⟨S900000x40, .f32⟩
  | .hbm, ⟨74, _⟩ => ⟨S900000x40, .f32⟩
  | .hbm, ⟨75, _⟩ => ⟨S_, .f32⟩
  | .hbm, ⟨76, _⟩ => ⟨S100000x40, .f32⟩
  | .hbm, ⟨77, _⟩ => ⟨S900000x1, .i32⟩
  | .hbm, ⟨78, _⟩ => ⟨S100000x40, .f32⟩
  | .hbm, ⟨79, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64, .f32⟩
  | .local _ .vmem, ⟨8, _⟩ => ⟨S64x40, .f32⟩
  | .local _ .vmem, ⟨9, _⟩ => ⟨S10000x40, .f32⟩
  | .local _ .vmem, ⟨10, _⟩ => ⟨S10000x40, .f32⟩
  | .local _ .vmem, ⟨11, _⟩ => ⟨S10000x40, .f32⟩
  | .local _ .vmem, ⟨12, _⟩ => ⟨S10000x40, .f32⟩
  | .local _ .vmem, ⟨13, _⟩ => ⟨S40, .f32⟩
  | .local _ .vmem, ⟨14, _⟩ => ⟨S10000x40, .f32⟩
  | .local _ .vmem, ⟨15, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_c_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  bcast_S900000x1_S900000x40_0_1 : S900000x1.BroadcastsInDim S900000x40 (![0, 1] : Fin 2 → Fin S900000x40.rank)
  bcast_S_S100000x40 : S_.BroadcastsInDim S100000x40 (![] : Fin 0 → Fin S100000x40.rank)
  shapeCasts_S10000x40_S10000x40 : S10000x40.ShapeCasts S10000x40
  inb_S40_S40_0 : ∀ a, (![0] : Fin 1 → Nat) a + S40.size a ≤ S40.size a
  h_S40 : 0 < S40.numel
  shapeCasts_S40_S1x40 : S40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S10000x128_S128x64_S10000x64_1_0_0_1_n_n_wf : DotDims.WF S10000x128 S128x64 S10000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  dot_S10000x64_S64x40_S10000x40_1_0_0_1_n_n_wf : DotDims.WF S10000x64 S64x40 S10000x40 [1] [0] [0] [1] [] []
  gather_S100000x40_S900000x1_S900000x40_1_0_n_n_0_1_140_wf : GatherDims.WF S100000x40 S900000x1 S900000x40 [1] [0] [] [0] [] 1 ![1, 40]
  scatter_S100000x40_S900000x1_S900000x40_1_0_0_1_wf : ScatterDims.WF S100000x40 S900000x1 S900000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x40.size a ≤ S100000x40.size a
  hwx1_3 : ∀ i : grid1.Coords, EltTy.bits .f32 = 32 ∨ (Rect.block (s := S100000x40) S10000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x40.size a ≤ S100000x40.size a
  hwx2_0 : ∀ i : grid2.Coords, EltTy.bits .f32 = 32 ∨ (Rect.block (s := S100000x40) S10000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S40.size a ≤ S40.size a
  hwx2_1 : ∀ i : grid2.Coords, EltTy.bits .f32 = 32 ∨ (Rect.block (s := S40) S40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S900000x1_S900000x40_1_0_n_n_0_1_140 : GatherDims S100000x40 S900000x1 S900000x40 where
  offsetDims := [1]
  collapsedSliceDims := [0]
  operandBatchingDims := []
  startIndicesBatchingDims := []
  startIndexMap := [0]
  indexVectorDim := 1
  sliceSizes := ![1, 40]
  wf := gather_S100000x40_S900000x1_S900000x40_1_0_n_n_0_1_140_wf
def scatter_S100000x40_S900000x1_S900000x40_1_0_0_1 : ScatterDims S100000x40 S900000x1 S900000x40 where
  updateWindowDims := [1]
  insertedWindowDims := [0]
  scatterDimsToOperandDims := [0]
  indexVectorDim := 1
  wf := scatter_S100000x40_S900000x1_S900000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x128 : Shape := ⟨2, ![900000, 128]⟩
abbrev S100000x64 : Shape := ⟨2, ![100000, 64]⟩
abbrev S1x64 : Shape := ⟨2, ![1, 64]⟩
abbrev S900000x64 : Shape := ⟨2, ![900000, 64]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S2x800000, .i32⟩
  | 2 => ⟨S128x64, .f32⟩
  | 3 => ⟨S64, .f32⟩
  | 4 => ⟨S64x40, .f32⟩
  | 5 => ⟨S40, .f32⟩
  | 6 => ⟨S100000, .i32⟩
  | 7 => ⟨S1x800000, .i32⟩
  | 8 => ⟨S800000, .i32⟩
  | 9 => ⟨S900000, .i32⟩
  | 10 => ⟨S1x800000, .i32⟩
  | 11 => ⟨S800000, .i32⟩
  | 12 => ⟨S900000, .i32⟩
  | 13 => ⟨S_, .f32⟩
  | 14 => ⟨S900000, .f32⟩
  | 15 => ⟨S_, .f32⟩
  | 16 => ⟨S100000, .f32⟩
  | 17 => ⟨S900000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S100000, .f32⟩
  | 25 => ⟨S100000, .f32⟩
  | 26 => ⟨S_, .i32⟩
  | 27 => ⟨S900000, .i32⟩
  | 28 => ⟨S900000, .i1⟩
  | 29 => ⟨S_, .i32⟩
  | 30 => ⟨S900000, .i32⟩
  | 31 => ⟨S900000, .i32⟩
  | 32 => ⟨S900000, .i32⟩
  | 33 => ⟨S900000x1, .i32⟩
  | 34 => ⟨S900000, .f32⟩
  | 35 => ⟨S_, .i32⟩
  | 36 => ⟨S900000, .i32⟩
  | 37 => ⟨S900000, .i1⟩
  | 38 => ⟨S_, .i32⟩
  | 39 => ⟨S900000, .i32⟩
  | 40 => ⟨S900000, .i32⟩
  | 41 => ⟨S900000, .i32⟩
  | 42 => ⟨S900000x1, .i32⟩
  | 43 => ⟨S900000, .f32⟩
  | 44 => ⟨S900000, .f32⟩
  | 45 => ⟨S_, .i32⟩
  | 46 => ⟨S900000, .i32⟩
  | 47 => ⟨S900000, .i1⟩
  | 48 => ⟨S_, .i32⟩
  | 49 => ⟨S900000, .i32⟩
  | 50 => ⟨S900000, .i32⟩
  | 51 => ⟨S900000, .i32⟩
  | 52 => ⟨S900000x1, .i32⟩
  | 53 => ⟨S900000x128, .f32⟩
  | 54 => ⟨S900000x1, .f32⟩
  | 55 => ⟨S900000x128, .f32⟩
  | 56 => ⟨S900000x128, .f32⟩
  | 57 => ⟨S_, .f32⟩
  | 58 => ⟨S100000x128, .f32⟩
  | 59 => ⟨S900000x1, .i32⟩
  | 60 => ⟨S100000x128, .f32⟩
  | 61 => ⟨S100000x64, .f32⟩
  | 62 => ⟨S1x64, .f32⟩
  | 63 => ⟨S100000x64, .f32⟩
  | 64 => ⟨S100000x64, .f32⟩
  | 65 => ⟨S_, .f32⟩
  | 66 => ⟨S100000x64, .f32⟩
  | 67 => ⟨S100000x64, .f32⟩
  | 68 => ⟨S_, .f32⟩
  | 69 => ⟨S900000, .f32⟩
  | 70 => ⟨S_, .f32⟩
  | 71 => ⟨S100000, .f32⟩
  | 72 => ⟨S900000x1, .i32⟩
  | 73 => ⟨S100000, .f32⟩
  | 74 => ⟨S_, .f32⟩
  | 75 => ⟨S100000, .f32⟩
  | 76 => ⟨S100000, .i1⟩
  | 77 => ⟨S100000, .f32⟩
  | 78 => ⟨S_, .f32⟩
  | 79 => ⟨S100000, .f32⟩
  | 80 => ⟨S100000, .f32⟩
  | 81 => ⟨S_, .i32⟩
  | 82 => ⟨S900000, .i32⟩
  | 83 => ⟨S900000, .i1⟩
  | 84 => ⟨S_, .i32⟩
  | 85 => ⟨S900000, .i32⟩
  | 86 => ⟨S900000, .i32⟩
  | 87 => ⟨S900000, .i32⟩
  | 88 => ⟨S900000x1, .i32⟩
  | 89 => ⟨S900000, .f32⟩
  | 90 => ⟨S_, .i32⟩
  | 91 => ⟨S900000, .i32⟩
  | 92 => ⟨S900000, .i1⟩
  | 93 => ⟨S_, .i32⟩
  | 94 => ⟨S900000, .i32⟩
  | 95 => ⟨S900000, .i32⟩
  | 96 => ⟨S900000, .i32⟩
  | 97 => ⟨S900000x1, .i32⟩
  | 98 => ⟨S900000, .f32⟩
  | 99 => ⟨S900000, .f32⟩
  | 100 => ⟨S_, .i32⟩
  | 101 => ⟨S900000, .i32⟩
  | 102 => ⟨S900000, .i1⟩
  | 103 => ⟨S_, .i32⟩
  | 104 => ⟨S900000, .i32⟩
  | 105 => ⟨S900000, .i32⟩
  | 106 => ⟨S900000, .i32⟩
  | 107 => ⟨S900000x1, .i32⟩
  | 108 => ⟨S900000x64, .f32⟩
  | 109 => ⟨S900000x1, .f32⟩
  | 110 => ⟨S900000x64, .f32⟩
  | 111 => ⟨S900000x64, .f32⟩
  | 112 => ⟨S_, .f32⟩
  | 113 => ⟨S100000x64, .f32⟩
  | 114 => ⟨S900000x1, .i32⟩
  | 115 => ⟨S100000x64, .f32⟩
  | 116 => ⟨S100000x40, .f32⟩
  | 117 => ⟨S1x40, .f32⟩
  | 118 => ⟨S100000x40, .f32⟩
  | 119 => ⟨S100000x40, .f32⟩
  | 120 => ⟨S_, .f32⟩
  | 121 => ⟨S100000, .f32⟩
  | 122 => ⟨S_, .f32⟩
  | 123 => ⟨S100000, .f32⟩
  | 124 => ⟨S100000, .f32⟩
  | 125 => ⟨S100000x1, .f32⟩
  | 126 => ⟨S100000x40, .f32⟩
  | 127 => ⟨S100000x40, .f32⟩
  | _ => ⟨S100000x128, .f32⟩

abbrev hbmTy0_1 (i : Nat) : BufTy := match i % 128 with
  | 0 => ⟨S100000x40, .f32⟩
  | 1 => ⟨S_, .f32⟩
  | 2 => ⟨S100000, .f32⟩
  | 3 => ⟨S100000x1, .f32⟩
  | 4 => ⟨S100000x1, .f32⟩
  | 5 => ⟨S100000x40, .f32⟩
  | 6 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_c_13 : Ref sig .tc := ⟨.hbm, 81, rfl⟩
abbrev main_v58 : Ref sig .tc := ⟨.hbm, 82, rfl⟩
abbrev main_v59 : Ref sig .tc := ⟨.hbm, 83, rfl⟩
abbrev main_c_14 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_15 : Ref sig .tc := ⟨.hbm, 90, rfl⟩
abbrev main_v65 : Ref sig .tc := ⟨.hbm, 91, rfl⟩
abbrev main_v66 : Ref sig .tc := ⟨.hbm, 92, rfl⟩
abbrev main_c_16 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_17 : Ref sig .tc := ⟨.hbm, 100, rfl⟩
abbrev main_v73 : Ref sig .tc := ⟨.hbm, 101, rfl⟩
abbrev main_v74 : Ref sig .tc := ⟨.hbm, 102, rfl⟩
abbrev main_c_18 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_19 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_call3_cst : Ref sig .tc := ⟨.hbm, 120, rfl⟩
abbrev main_call3_v0 : Ref sig .tc := ⟨.hbm, 121, rfl⟩
abbrev main_call3_cst_0 : Ref sig .tc := ⟨.hbm, 122, rfl⟩
abbrev main_call3_v1 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_call3_v5 : Ref sig .tc := ⟨.hbm, 127, rfl⟩
abbrev main_call3_v6 : Ref sig .tc := ⟨.hbm, 128, rfl⟩
abbrev main_call3_cst_1 : Ref sig .tc := ⟨.hbm, 129, rfl⟩
abbrev main_call3_v7 : Ref sig .tc := ⟨.hbm, 130, rfl⟩
abbrev main_call3_v8 : Ref sig .tc := ⟨.hbm, 131, rfl⟩
abbrev main_call3_v9 : Ref sig .tc := ⟨.hbm, 132, rfl⟩
abbrev main_call3_v10 : Ref sig .tc := ⟨.hbm, 133, rfl⟩
abbrev main_v90 : Ref sig .tc := ⟨.hbm, 134, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S900000x1_S900000x64_0_1 : S900000x1.BroadcastsInDim S900000x64 (![0, 1] : Fin 2 → Fin S900000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S100000x128_S128x64_S100000x64_1_0_0_1_n_n_wf : DotDims.WF S100000x128 S128x64 S100000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  dot_S100000x64_S64x40_S100000x40_1_0_0_1_n_n_wf : DotDims.WF S100000x64 S64x40 S100000x40 [1] [0] [0] [1] [] []

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.RunNamed.lean ====
/-
  The kernel program's run with its result array named. The program is three pipelined regions among stretches of host
  operations; its buffer contents at the boundaries are a fold from the launch memory, and after the last region every
  unscoped buffer holds the last boundary's contents. So the run ends with the result array at the last boundary's
  contents and every argument array as launched.
-/
import proofs.«152553_j71683004171209_2_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable [Cert.KernelIdeal.Facts]
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result array at the last boundary's contents and the arguments as
    launched. -/
theorem run_named : θ_run defs (onTc (τ := τ) (main (F := F))) ⟨m, fun _ => 0, ρ⟩ (fun r => ∀ c : Dev nD,
      r.2.mem ((c.tc : Thread nD τ).loc main_v59) = W8 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v59 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunNamed

end
-- ==== Proof.KGraph.lean ====
/-
  The graph both layers pass messages over, as the kernel program's host operations build it from the edge list: the
  source and target positions (the given edges followed by one self-loop per node), a column of each, and the
  symmetric-normalisation weight of every edge (the product of the reciprocal square roots of the two end nodes' in-degrees).
  After the three host stretches before the first region, the buffers that later stretches read hold exactly these.
-/
import proofs.«152553_j71683004171209_2_alg».proof.Proof.Gen.KernelIdeal.Frame
import Idealize.ShloMosaic.Lib.StableHlo.Run
import Idealize.ShloMosaic.PureOps.Ideal

set_option maxRecDepth 16384

noncomputable section

namespace Cert.KernelIdeal.Graph

open Cert.KernelIdeal Idealize.ShloMosaic Idealize.ShloMosaic.TcCoe Idealize.SL.Sem Idealize.ShloMosaic.StableHlo
open Facts₀ Facts
open Cert.KernelIdeal.Gen (W0 W1 W2 W3 hostOps0 hostOps0_1 hostOps0_2)

variable [Cert.KernelIdeal.Facts]

/-- Row `k` of the edge list followed by the node numbers (one self-loop per node). -/
def endVec (k : Fin 2 → Nat) (hk : S2x800000.Slices k S1x800000) (ei : IVec S2x800000 32) : IVec S900000 32 :=
  concatenate S900000 0 [⟨S800000, shapeCast S800000 (extractStridedSlice S1x800000 k ei hk) shapeCasts_S1x800000_S800000⟩,
    ⟨S100000, iotaInDim S100000 32 0⟩] concatenates_S800000_S100000_S900000_d0

/-- The edges' source positions. -/
def srcVec (ei : IVec S2x800000 32) : IVec S900000 32 := endVec ![0, 0] slices_S2x800000_S1x800000_0_0 ei
/-- The edges' target positions. -/
def tgtVec (ei : IVec S2x800000 32) : IVec S900000 32 := endVec ![1, 0] slices_S2x800000_S1x800000_1_0 ei

/-- A negative position counted from the end of the node range. -/
def wrapNeg (v : IVec S900000 32) : IVec S900000 32 :=
  select (cmpi .slt v (broadcastInDim S900000 ![] bcast_S_S900000 (constantI S_ 32 0#32)))
    (addi v (broadcastInDim S900000 ![] bcast_S_S900000 (constantI S_ 32 100000#32))) v

/-- A vector of positions kept as a column. -/
def col (v : IVec S900000 32) : IVec S900000x1 32 := broadcastInDim S900000x1 ![0] bcast_S900000_S900000x1_0 v

/-- The column the messages are added in at, and the column the rows are looked up at. -/
def scatCol (ei : IVec S2x800000 32) : IVec S900000x1 32 := col (tgtVec ei)
def gathCol (ei : IVec S2x800000 32) : IVec S900000x1 32 := col (wrapNeg (srcVec ei))

/-- The all-zero vector over the nodes. -/
def zeroN : FVec Ideal S100000 .f32 := broadcastInDim S100000 ![] bcast_S_S100000 (constant (F := Ideal) S_ .f32 0x00000000#32)

/-- Every node's in-degree: one added per edge at its target. -/
def degVec (ei : IVec S2x800000 32) : FVec Ideal S100000 .f32 :=
  Host.scatterAdd scatter_S100000_S900000x1_S900000_n_0_0_1 zeroN (col (tgtVec ei))
    (broadcastInDim S900000 ![] bcast_S_S900000 (constant (F := Ideal) S_ .f32 0x3F800000#32))

/-- The reciprocal square root of the in-degree where it is positive, zero elsewhere. -/
def dinvVec (ei : IVec S2x800000 32) : FVec Ideal S100000 .f32 :=
  select (cmpf (F := Ideal) .ogt (degVec ei) zeroN) (Host.rsqrt (degVec ei)) zeroN

/-- Every edge's weight. -/
def wgtVec (ei : IVec S2x800000 32) : FVec Ideal S900000 .f32 :=
  mulf (Host.gather gather_S100000_S900000x1_S900000_n_0_n_n_0_1_1 (dinvVec ei) (col (wrapNeg (srcVec ei))))
    (Host.gather gather_S100000_S900000x1_S900000_n_0_n_n_0_1_1 (dinvVec ei) (col (wrapNeg (tgtVec ei))))

/-- The selection of the reciprocal square roots by the positivity flags. -/
def dinvOf (flag : IVec S100000 1) (rs z : FVec Ideal S100000 .f32) : FVec Ideal S100000 .f32 := select flag rs z

/-- The weights from the per-node factors and the two position vectors. -/
def wgtOf (dinv : FVec Ideal S100000 .f32) (s t : IVec S900000 32) : FVec Ideal S900000 .f32 :=
  mulf (Host.gather gather_S100000_S900000x1_S900000_n_0_n_n_0_1_1 dinv (col (wrapNeg s)))
    (Host.gather gather_S100000_S900000x1_S900000_n_0_n_n_0_1_1 dinv (col (wrapNeg t)))

variable (m : (ℓ : Loc nD τ sig) → Buf (Elt Ideal) ℓ) (ρ : Dev nD → PrngReg)

set_option maxHeartbeats 4000000 in
/-- At the first region's entry the source positions' buffer holds them. -/
theorem W3_src (c : Dev nD) : W3 m ρ c (Proc.devRef .tc main_v5) = srcVec (m ((c.tc : Thread nD τ).loc main_arg1)) := by
  show StableHlo.after hostOps0_2 (StableHlo.after hostOps0_1 (StableHlo.after hostOps0 (W0 m ρ c))) (Proc.devRef .tc main_v5) = _
  after_results_simp <;> rfl

set_option maxHeartbeats 4000000 in
/-- … the target positions' buffer them, -/
theorem W3_tgt (c : Dev nD) : W3 m ρ c (Proc.devRef .tc main_v6) = tgtVec (m ((c.tc : Thread nD τ).loc main_arg1)) := by
  show StableHlo.after hostOps0_2 (StableHlo.after hostOps0_1 (StableHlo.after hostOps0 (W0 m ρ c))) (Proc.devRef .tc main_v6) = _
  after_results_simp <;> rfl

/-! The weights, stretch by stretch: the in-degree's comparison, reciprocal square root and the zero vector after the first
    stretch, the selection after the second, the two lookups and their product after the third. -/

set_option maxHeartbeats 4000000 in
theorem W1_flag (c : Dev nD) : W1 m ρ c (Proc.devRef .tc main_v12) = cmpf (F := Ideal) .ogt (degVec (m ((c.tc : Thread nD τ).loc main_arg1))) zeroN := by
  show StableHlo.after hostOps0 (W0 m ρ c) (Proc.devRef .tc main_v12) = _
  after_results_simp <;> rfl
set_option maxHeartbeats 4000000 in
theorem W1_rsqrt (c : Dev nD) : W1 m ρ c (Proc.devRef .tc main_v13) = Host.rsqrt (degVec (m ((c.tc : Thread nD τ).loc main_arg1))) := by
  show StableHlo.after hostOps0 (W0 m ρ c) (Proc.devRef .tc main_v13) = _
  after_results_simp <;> rfl
set_option maxHeartbeats 4000000 in
theorem W1_zero (c : Dev nD) : W1 m ρ c (Proc.devRef .tc main_v14) = zeroN := by
  show StableHlo.after hostOps0 (W0 m ρ c) (Proc.devRef .tc main_v14) = _
  after_results_simp <;> rfl
set_option maxHeartbeats 4000000 in
theorem W1_src (c : Dev nD) : W1 m ρ c (Proc.devRef .tc main_v5) = srcVec (m ((c.tc : Thread nD τ).loc main_arg1)) := by
  show StableHlo.after hostOps0 (W0 m ρ c) (Proc.devRef .tc main_v5) = _
  after_results_simp <;> rfl
set_option maxHeartbeats 4000000 in
theorem W1_tgt (c : Dev nD) : W1 m ρ c (Proc.devRef .tc main_v6) = tgtVec (m ((c.tc : Thread nD τ).loc main_arg1)) := by
  show StableHlo.after hostOps0 (W0 m ρ c) (Proc.devRef .tc main_v6) = _
  after_results_simp <;> rfl

set_option maxHeartbeats 4000000 in
theorem W2_dinv_raw (c : Dev nD) : W2 m ρ c (Proc.devRef .tc main_v15)
    = dinvOf (W1 m ρ c (Proc.devRef .tc main_v12)) (W1 m ρ c (Proc.devRef .tc main_v13)) (W1 m ρ c (Proc.devRef .tc main_v14)) := by
  show StableHlo.after hostOps0_1 (W1 m ρ c) (Proc.devRef .tc main_v15) = _
  generalize W1 m ρ c = W'
  after_results_simp <;> rfl
set_option maxHeartbeats 4000000 in
theorem W2_keep (c : Dev nD) (b : Ref sig .tc) (hb : b = main_v5 ∨ b = main_v6) :
    W2 m ρ c (Proc.devRef .tc b) = W1 m ρ c (Proc.devRef .tc b) := by
  show StableHlo.after hostOps0_1 (W1 m ρ c) (Proc.devRef .tc b) = _
  generalize W1 m ρ c = W'
  rcases hb with rfl | rfl <;> (after_results_simp <;> rfl)

set_option maxHeartbeats 4000000 in
theorem W3_wgt_raw (c : Dev nD) : W3 m ρ c (Proc.devRef .tc main_v30)
    = wgtOf (W2 m ρ c (Proc.devRef .tc main_v15)) (W2 m ρ c (Proc.devRef .tc main_v5)) (W2 m ρ c (Proc.devRef .tc main_v6)) := by
  show StableHlo.after hostOps0_2 (W2 m ρ c) (Proc.devRef .tc main_v30) = _
  generalize W2 m ρ c = W'
  after_results_simp <;> rfl

/-- … and the weights' buffer the weights. -/
theorem W3_wgt (c : Dev nD) : W3 m ρ c (Proc.devRef .tc main_v30) = wgtVec (m ((c.tc : Thread nD τ).loc main_arg1)) := by
  rw [W3_wgt_raw, W2_dinv_raw, W2_keep m ρ c main_v5 (Or.inl rfl), W2_keep m ρ c main_v6 (Or.inr rfl), W1_flag, W1_rsqrt, W1_zero, W1_src, W1_tgt]
  rfl

end Cert.KernelIdeal.Graph

end
-- ==== Proof.LibScatterAddRows.lean ====
/-
  Rows added into a table at the rows a column of positions names, read at an entry, for any sizes.

  The updates are an `E × C` array, one row per position; the positions are an `E × 1` column of integers; the operand is
  an `N × C` table. Update row `e` is added into the table's row `idx[e, 0]`, read as a signed integer and NOT clamped: a
  position outside `[0, N)` adds nothing. Over the extended reals the result at `(r, p)` is therefore the operand's
  entry plus the sum, over the positions `e` whose start is exactly `r`, of the update's entry `(e, p)`: the column
  coordinate passes through untouched, which is why the same accumulation done on a wider table restricts to it
  column by column.
-/
import Idealize.ShloMosaic.Lib.ValueIdx
import Idealize.ShloMosaic.PureOps.Ideal

noncomputable section

open scoped BigOperators

namespace Cert.Lib.ScatterAddRows

open Idealize.ShloMosaic Idealize.ShloMosaic.ValueIdx

/-- The dimension numbers of a row accumulation: operand `[N, C]`, positions `[E, 1]` (the unit axis holds the one
    component of a start index, which addresses the operand's rows), updates `[E, C]`; each update window is one whole
    row. -/
abbrev rowsScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat} (wf : ScatterDims.WF ⟨2, ![N, C]⟩ ⟨2, ![E, 1]⟩ ⟨2, ![E, C]⟩ [1] [0] [0] 1)
  (idx : IVec ⟨2, ![E, 1]⟩ w) (e : Fin E) (q : Fin C)

/-- On the row axis the window of update `(e, q)` starts at the position `idx[e, 0]`, read signed. -/
theorem start_row : (rowsScatter N E C wf).start (ix2 e q) idx 0 = (idx (ix2 e ⟨0, Nat.one_pos⟩)).toInt := by
  unfold ScatterDims.start
  rw [dif_pos (show (0 : Fin 2) ∈ (rowsScatter N E C wf).scatterDimsToOperandDims from List.mem_singleton.mpr rfl)]
  have hsi : (rowsScatter N E C wf).siIdx (ix2 e q) ⟨List.idxOf (0 : Fin 2) (rowsScatter N E C wf).scatterDimsToOperandDims,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On the column axis it starts at zero: no position component addresses the columns. -/
theorem start_col : (rowsScatter N E C wf).start (ix2 e q) idx 1 = 0 := by
  unfold ScatterDims.start
  have h10 : ¬ (1 : Fin 2) ∈ ([0] : List (Fin 2)) := by decide
  rw [dif_neg (show ¬ (1 : Fin 2) ∈ (rowsScatter N E C wf).scatterDimsToOperandDims from h10)]

/-- The row axis is inserted: the window has no extent along it. -/
theorem window_row : (rowsScatter N E C wf).window (ix2 e q) 0 = 0 := by
  unfold ScatterDims.window
  have h0 : ¬ (0 : Fin 2) ∈ (rowsScatter N E C wf).sKept := by
    simp [ScatterDims.sKept, Shape.kept, List.mem_filter]
  rw [dif_neg h0]

/-- Along the columns the window coordinate of update `(e, q)` is `q`. -/
theorem window_col : (rowsScatter N E C wf).window (ix2 e q) 1 = q.val := by
  unfold ScatterDims.window
  have h1 : (1 : Fin 2) ∈ (rowsScatter N E C wf).sKept := by
    simp [ScatterDims.sKept, Shape.kept, List.mem_filter, List.mem_finRange]
  rw [dif_pos h1]
  have key : ∀ (k : Nat) (hk : k < ([1] : List (Fin 2)).length), (ix2 e q (([1] : List (Fin 2))[k]'hk)).val = q.val := by
    intro k hk
    have hk0 : k = 0 := by
      have : k < 1 := hk
      omega
    subst hk0; rfl
  exact key _ _

/-- WHERE AN UPDATE LANDS: update `(e, q)` lands on `(r, p)` exactly when its position is `r` and its column is `p`. -/
theorem resultIdx?_eq_some_iff (r : Fin N) (p : Fin C) :
    (rowsScatter N E C wf).resultIdx? (ix2 e q) idx = some (ix2 r p)
      ↔ (idx (ix2 e ⟨0, Nat.one_pos⟩)).toInt = (r.val : Int) ∧ q = p := by
  have hN : (⟨2, ![N, C]⟩ : Shape).size 0 = N := rfl
  have hC : (⟨2, ![N, C]⟩ : Shape).size 1 = C := rfl
  have hr := r.isLt
  have hq := q.isLt
  unfold ScatterDims.resultIdx?
  split
  · rename_i h
    rw [Option.some.injEq]
    constructor
    · intro hf
      have h0 := congrArg (fun f => (f 0).val) hf
      have h1 := congrArg (fun f => (f 1).val) hf
      simp only [start_row, start_col, window_row, window_col] at h0 h1
      have hh := (h 0).1
      rw [start_row, window_row] at hh
      have e0 : ((ix2 r p : (⟨2, ![N, C]⟩ : Shape).Idx) 0).val = r.val := rfl
      have e1 : ((ix2 r p : (⟨2, ![N, C]⟩ : Shape).Idx) 1).val = p.val := rfl
      rw [e0] at h0
      rw [e1] at h1
      refine ⟨by omega, Fin.ext (by omega)⟩
    · rintro ⟨hs, rfl⟩
      funext a
      refine Fin.ext ?_
      match a with
      | ⟨0, _⟩ =>
        show ((rowsScatter N E C wf).start (ix2 e q) idx 0 + ((rowsScatter N E C wf).window (ix2 e q) 0 : Nat)).toNat = r.val
        rw [start_row, window_row, hs]; omega
      | ⟨1, _⟩ =>
        show ((rowsScatter N E C wf).start (ix2 e q) idx 1 + ((rowsScatter N E C wf).window (ix2 e q) 1 : Nat)).toNat = q.val
        rw [start_col, window_col]; omega
  · rename_i h
    constructor
    · intro hf; exact absurd hf (by simp)
    · rintro ⟨hs, rfl⟩
      refine absurd (fun a => ?_) h
      match a with
      | ⟨0, _⟩ =>
        show 0 ≤ (rowsScatter N E C wf).start (ix2 e q) idx 0 + ((rowsScatter N E C wf).window (ix2 e q) 0 : Nat)
          ∧ (rowsScatter N E C wf).start (ix2 e q) idx 0 + ((rowsScatter N E C wf).window (ix2 e q) 0 : Nat) < ((⟨2, ![N, C]⟩ : Shape).size 0 : Nat)
        rw [start_row, window_row, hs, hN]; omega
      | ⟨1, _⟩ =>
        show 0 ≤ (rowsScatter N E C wf).start (ix2 e q) idx 1 + ((rowsScatter N E C wf).window (ix2 e q) 1 : Nat)
          ∧ (rowsScatter N E C wf).start (ix2 e q) idx 1 + ((rowsScatter N E C wf).window (ix2 e q) 1 : Nat) < ((⟨2, ![N, C]⟩ : Shape).size 1 : Nat)
        rw [start_col, window_col, hC]; omega

end

/-- THE ACCUMULATION READ AT `(r, p)`: the operand's entry plus the sum, over the positions that name row `r`, of the
    update's entry in column `p`. -/
theorem scatterAdd_rows_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (r : Fin N) (p : Fin C) :
    Host.scatterAdd (rowsScatter N E C wf) x idx upd (ix2 r p)
      = x (ix2 r p) + ∑ e : Fin E, if (idx (ix2 e ⟨0, Nat.one_pos⟩)).toInt = (r.val : Int) then upd (ix2 e p) else 0 := by
  show Ideal.hostScatterAdd (rowsScatter N E C wf) x idx upd (ix2 r p) = _
  unfold Ideal.hostScatterAdd
  congr 1
  rw [Finset.sum_filter, sum_idx2]
  refine Finset.sum_congr rfl fun e _ => ?_
  simp only [resultIdx?_eq_some_iff]
  by_cases hs : (idx (ix2 e ⟨0, Nat.one_pos⟩)).toInt = (r.val : Int)
  · simp only [hs, true_and, if_true]
    rw [Finset.sum_ite_eq' Finset.univ p (fun q => upd (ix2 e q))]
    simp
  · simp only [hs, false_and, if_false, Finset.sum_const_zero]

end Cert.Lib.ScatterAddRows

end
-- ==== Proof.LibTakeRows.lean ====
/-
  Looking rows up in a table: two operations read at an entry, for any sizes.

  A lookup of rows of an `N × C` table at a column of `R` start positions gives an `R × C` array whose row `r` is the
  table's row at position `r`'s start index, that index read as a signed integer and clamped into `[0, N − 1]`. And a
  conjunction taken along some axes of an array of one-bit flags, started from the flag one, is one wherever every flag
  is one.
-/
import Idealize.ShloMosaic.Lib.ValueIdx
import Idealize.ShloMosaic.Lib.ReduceAll

noncomputable section

namespace Cert.Lib.TakeRows

open Idealize.ShloMosaic Idealize.ShloMosaic.ValueIdx

/-! ## A conjunction of flags that are all one -/

/-- A left fold of the conjunction over flags that are all one, started from one, is one. -/
theorem foldl_andi_all_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_all_one f l fun n hn => h n (List.mem_cons_of_mem _ hn)

/-- A conjunction along any axes of an array of flags that are all one, started from one, is one at every result
    index. -/
theorem reduce_andi_all_one {s t u : Shape} {axes : List (Fin s.rank)} (x : s.Idx → BitVec 1) (init : u.Idx → BitVec 1)
    (h : s.ReducesTo axes t) (hu : 0 < u.numel) (j : t.Idx) (hx : ∀ i, x i = 1#1) (hinit : init (Shape.Idx.first hu) = 1#1) :
    Host.reduce IntOp.andi x init h hu j = 1#1 := by
  rw [Host.reduce_eq_foldl, hinit]
  exact foldl_andi_all_one x _ fun i _ => hx i

/-! ## Rows of a table at a column of start positions -/

section Rows
variable {α : Type}

/-- The dimension numbers of a row lookup: operand `[N, C]`, start positions `[R, 1]` (the unit axis holds the one
    component of a start index, which addresses the operand's rows), result `[R, C]`; each slice is one whole row. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE LOOKUP READ AT `(r, p)`: the table at the row `idx[r, 0]` names — read signed and clamped into `[0, N − 1]` —
    and column `p`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (p : Fin C) :
    Host.gather (rowsDims N R C wf) x idx (ix2 r p)
      = x (ix2 ⟨min (idx (ix2 r ⟨0, Nat.one_pos⟩)).toInt.toNat (N - 1), by omega⟩ p) := by
  unfold Host.gather
  congr 1
  funext a
  refine Fin.ext ?_
  match a with
  | ⟨0, _⟩ =>
    show (rowsDims N R C wf).start (ix2 r p) idx 0 + (rowsDims N R C wf).batchCoord (ix2 r p) 0
      + (rowsDims N R C wf).offCoord (ix2 r p) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx (ix2 r p) ⟨List.idxOf (0 : Fin 2) (rowsDims N R C wf).startIndexMap,
        List.idxOf_lt_length_iff.2 (List.mem_singleton.mpr rfl)⟩ = ix2 r ⟨0, Nat.one_pos⟩ := by
      funext b; refine Fin.ext ?_
      match b with
      | ⟨0, _⟩ => rfl
      | ⟨1, _⟩ => rfl
    rw [hsi]
    rfl
  | ⟨1, _⟩ =>
    show (rowsDims N R C wf).start (ix2 r p) idx 1 + (rowsDims N R C wf).batchCoord (ix2 r p) 1
      + (rowsDims N R C wf).offCoord (ix2 r p) 1 = p.val
    rw [GatherDims.batchCoord_eq_zero _ _ _ List.not_mem_nil]
    unfold GatherDims.start
    have h10 : ¬ (1 : Fin 2) ∈ ([0] : List (Fin 2)) := by decide
    rw [dif_neg (show ¬ (1 : Fin 2) ∈ (rowsDims N R C wf).startIndexMap from h10)]
    unfold GatherDims.offCoord
    rw [dif_pos (show (1 : Fin 2) ∈ (rowsDims N R C wf).sKept from
      (GatherDims.mem_sKept _ _).mpr ⟨h10, List.not_mem_nil⟩)]
    have key : ∀ (q : Nat) (hq : q < ([1] : List (Fin 2)).length), (ix2 r p (([1] : List (Fin 2))[q]'hq)).val = p.val := by
      intro q hq
      have hq0 : q = 0 := by
        have : q < 1 := hq
        omega
      subst hq0; rfl
    simp only [Nat.zero_add]
    exact key _ _

end Rows

end Cert.Lib.TakeRows

end
-- ==== Proof.LibHostForms.lean ====
/-
  Readings, at an entry, of host operations that spread a vector over a matrix or multiply two matrices, for any
  sizes.

  * A length-`a` vector laid out as an `a × 1` column (a broadcast along a new unit axis) and then spread over `b`
    columns reads, at `(p, q)`, the vector at `p`.
  * A length-`b` vector laid out as a `1 × b` row and then spread over `a` rows reads, at `(p, q)`, the vector at `q`.
  * The two steps of the first one at a time; the host's logarithm at an entry; the zero word added to a sum.
  * A scalar spread over any shape reads the scalar at every entry.
  * The host's matrix product of an `M × K` table with a `K × N` matrix, for any dimension numbers that contract the
    left columns with the right rows and batch nothing, reads at `(p, q)` the sum over `c` of
    `A (p, c) * B (c, q)` over the extended reals.
-/
import Idealize.ShloMosaic.Lib.Pipeline.Value
import Idealize.ShloMosaic.Lib.ValueIdx
import Idealize.ShloMosaic.PureOps.Ideal.Laws

noncomputable section

open scoped BigOperators

namespace Cert.Lib.HostForms

open Idealize.ShloMosaic Idealize.ShloMosaic.ValueIdx

variable {α : Type}

/-- A vector kept as a column and spread along the rows reads, at `(p, q)`, the vector at `p`. -/
theorem bcast_col_chain_apply {a b : ℕ} (d : (⟨1, ![a]⟩ : Shape).Idx → α)
    (h1 : (⟨1, ![a]⟩ : Shape).BroadcastsInDim ⟨2, ![a, 1]⟩ (![0] : Fin 1 → Fin (⟨2, ![a, 1]⟩ : Shape).rank))
    (h2 : (⟨2, ![a, 1]⟩ : Shape).BroadcastsInDim ⟨2, ![a, b]⟩ (![0, 1] : Fin 2 → Fin (⟨2, ![a, b]⟩ : Shape).rank))
    (p : Fin a) (q : Fin b) :
    broadcastInDim ⟨2, ![a, b]⟩ ![0, 1] h2 (broadcastInDim ⟨2, ![a, 1]⟩ ![0] h1 d) (ix2 p q) = d (ix1 p) := by
  refine (broadcastInDim_apply ![0, 1] h2 _ (ix2 p q) (ix2 p (0 : Fin 1)) fun ax => ?_).trans
    (broadcastInDim_apply ![0] h1 d (ix2 p (0 : Fin 1)) (ix1 p) fun ax => ?_)
  · match ax with
    | ⟨0, _⟩ =>
      show p.val = if a = 1 then 0 else p.val
      split
      · have := p.isLt; omega
      · rfl
    | ⟨1, _⟩ =>
      show (0 : ℕ) = if (1 : ℕ) = 1 then 0 else q.val
      rw [if_pos rfl]
  · match ax with
    | ⟨0, _⟩ =>
      show p.val = if a = 1 then 0 else p.val
      split
      · have := p.isLt; omega
      · rfl

/-- A vector kept as a row and spread down the rows reads, at `(p, q)`, the vector at `q`. -/
theorem bcast_row_chain_apply {a b : ℕ} (v : (⟨1, ![b]⟩ : Shape).Idx → α)
    (h1 : (⟨1, ![b]⟩ : Shape).BroadcastsInDim ⟨2, ![1, b]⟩ (![1] : Fin 1 → Fin (⟨2, ![1, b]⟩ : Shape).rank))
    (h2 : (⟨2, ![1, b]⟩ : Shape).BroadcastsInDim ⟨2, ![a, b]⟩ (![0, 1] : Fin 2 → Fin (⟨2, ![a, b]⟩ : Shape).rank))
    (p : Fin a) (q : Fin b) :
    broadcastInDim ⟨2, ![a, b]⟩ ![0, 1] h2 (broadcastInDim ⟨2, ![1, b]⟩ ![1] h1 v) (ix2 p q) = v (ix1 q) := by
  refine (broadcastInDim_apply ![0, 1] h2 _ (ix2 p q) (ix2 (0 : Fin 1) q) fun ax => ?_).trans
    (broadcastInDim_apply ![1] h1 v (ix2 (0 : Fin 1) q) (ix1 q) fun ax => ?_)
  · match ax with
    | ⟨0, _⟩ =>
      show (0 : ℕ) = if (1 : ℕ) = 1 then 0 else p.val
      rw [if_pos rfl]
    | ⟨1, _⟩ =>
      show q.val = if b = 1 then 0 else q.val
      split
      · have := q.isLt; omega
      · rfl
  · match ax with
    | ⟨0, _⟩ =>
      show q.val = if b = 1 then 0 else q.val
      split
      · have := q.isLt; omega
      · rfl

/-- An `a × 1` column spread over `b` columns reads, at `(p, q)`, the column's entry of row `p`. -/
theorem bcast_col_spread_apply {a b : ℕ} (v : (⟨2, ![a, 1]⟩ : Shape).Idx → α)
    (h2 : (⟨2, ![a, 1]⟩ : Shape).BroadcastsInDim ⟨2, ![a, b]⟩ (![0, 1] : Fin 2 → Fin (⟨2, ![a, b]⟩ : Shape).rank))
    (p : Fin a) (q : Fin b) :
    broadcastInDim ⟨2, ![a, b]⟩ ![0, 1] h2 v (ix2 p q) = v (ix2 p (0 : Fin 1)) := by
  refine broadcastInDim_apply ![0, 1] h2 v (ix2 p q) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

/-- A length-`a` vector kept as an `a × 1` column reads, at `(p, u)`, the vector at `p`. -/
theorem bcast_vec_col_apply {a : ℕ} (d : (⟨1, ![a]⟩ : Shape).Idx → α)
    (h1 : (⟨1, ![a]⟩ : Shape).BroadcastsInDim ⟨2, ![a, 1]⟩ (![0] : Fin 1 → Fin (⟨2, ![a, 1]⟩ : Shape).rank))
    (p : Fin a) (u : Fin 1) :
    broadcastInDim ⟨2, ![a, 1]⟩ ![0] h1 d (ix2 p u) = d (ix1 p) := by
  refine broadcastInDim_apply ![0] h1 d (ix2 p u) (ix1 p) fun ax => ?_
  match ax with
  | ⟨0, _⟩ =>
    show p.val = if a = 1 then 0 else p.val
    split
    · have := p.isLt; omega
    · rfl

/-- The host's logarithm of a vector read at an entry. -/
theorem hostLog_apply {s : Shape} {φ : FTy} (x : FVec Ideal s φ) (i : s.Idx) : Host.log x i = Ideal.log (x i) := rfl

/-- The zero word in front of a sum adds nothing. -/
theorem zero_word_add (v : FVec Ideal ⟨0, ![]⟩ .f32) (hv : v = constant (F := Ideal) ⟨0, ![]⟩ .f32 0x00000000#32)
    (j : (⟨0, ![]⟩ : Shape).Idx) (s : EReal) : v j + s = s := by
  subst hv
  show Ideal.ofBits .f32 0x00000000#32 + s = s
  rw [Ideal.ofBits_zero_f32, zero_add]

/-- A scalar spread over any shape reads, at every entry, the scalar. -/
theorem bcast_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply ![] h x j ix0 fun ax => ax.elim0

/-- The host's product of an `M × K` table with a `K × N` matrix reads, at `(p, q)`, the sum over the shared axis. -/
theorem plain_dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    Host.dotGeneral D prec A B (ix2 p q) = ∑ c : Fin K, A (ix2 p c) * B (ix2 c q) := by
  subst hD
  show FloatOps.dotGeneral (DotDims.plain M K N) prec .single A B (ix2 p q) = _
  rw [Ideal.dotGeneral_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

end Cert.Lib.HostForms

end
-- ==== Proof.LibConcatCols.lean ====
/-
  Two matrices with the same number of rows set side by side, read at an entry, for any sizes.

  The concatenation of an `a × b₁` matrix and an `a × b₂` matrix along the columns is an `a × n` matrix with
  `n = b₁ + b₂`. Its entry `(i, j)` is the first matrix's entry `(i, j)` when `j < b₁`, and the second matrix's
  entry `(i, j - b₁)` otherwise. The two lemmas below say so with the caller naming the piece's column `k`.
-/
import Idealize.ShloMosaic.Lib.Pipeline.Value
import Idealize.ShloMosaic.Lib.ValueIdx

noncomputable section

namespace Cert.Lib.ConcatCols

open Idealize.ShloMosaic Idealize.ShloMosaic.ValueIdx

variable {α : Type}

/-- A column of the left piece: the concatenation at `(i, j)` with `j = k < b₁` is the left piece at `(i, k)`. -/
theorem concat_cols_left {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1)
    (i : Fin a) (j : Fin n) (k : Fin b₁) (hk : k.val = j.val) :
    concatenate ⟨2, ![a, n]⟩ 1 [⟨⟨2, ![a, b₁]⟩, x₁⟩, ⟨⟨2, ![a, b₂]⟩, x₂⟩] h (ix2 i j) = x₁ (ix2 i k) :=
  concatenate_pair_apply_left (t := ⟨2, ![a, n]⟩) 1 x₁ x₂ h (ix2 i j) rfl (ix2 i k) (fun b => by
    match b with
    | ⟨0, _⟩ => rfl
    | ⟨1, _⟩ => exact hk)

/-- A column of the right piece: the concatenation at `(i, j)` with `j = b₁ + k` is the right piece at `(i, k)`. -/
theorem concat_cols_right {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1)
    (i : Fin a) (j : Fin n) (k : Fin b₂) (hk : b₁ + k.val = j.val) :
    concatenate ⟨2, ![a, n]⟩ 1 [⟨⟨2, ![a, b₁]⟩, x₁⟩, ⟨⟨2, ![a, b₂]⟩, x₂⟩] h (ix2 i j) = x₂ (ix2 i k) :=
  concatenate_pair_apply_right (t := ⟨2, ![a, n]⟩) 1 x₁ x₂ h (ix2 i j) rfl rfl (ix2 i k) (fun b hb => by
    match b with
    | ⟨0, _⟩ => rfl
    | ⟨1, _⟩ => exact absurd rfl hb) (by
    show k.val + b₁ = j.val
    omega)

end Cert.Lib.ConcatCols

end
-- ==== Proof.LibEdgePass.lean ====
/-
  One step of weighted message passing over an edge list, read at an entry, for any sizes.

  A graph is given as `E` edges: a column of source positions, a column of destination positions and a weight per
  edge. One step sends a table `p` of `N` rows to the table whose row `r` is, column by column, a starting value plus
  the sum over the edges whose source position is exactly `r` (read signed; an edge whose source lies outside
  `[0, N)` adds nothing) of `p`'s row at the edge's destination (read signed and clamped into `[0, N − 1]`) times the
  edge's weight. The host spells it as a row lookup, a product with the weights spread along the columns, and an
  accumulation of the rows into a constant table. Each column of the result depends on the same column of `p` only,
  so a step on a table whose columns are those of two tables set side by side is the two steps set side by side.
-/
import Idealize.ShloMosaic.Lib.ValueIdx
import Idealize.ShloMosaic.PureOps.Ideal
import proofs.«152553_j71683004171209_2_alg».proof.Proof.LibScatterAddRows
import proofs.«152553_j71683004171209_2_alg».proof.Proof.LibTakeRows
import proofs.«152553_j71683004171209_2_alg».proof.Proof.LibHostForms
import proofs.«152553_j71683004171209_2_alg».proof.Proof.LibConcatCols

noncomputable section

open scoped BigOperators

namespace Cert.Lib.EdgePass

open Idealize.ShloMosaic Idealize.ShloMosaic.ValueIdx
open Cert.Lib.ScatterAddRows Cert.Lib.TakeRows Cert.Lib.HostForms Cert.Lib.ConcatCols

/-- The row of an `N`-row table a position word names: the word read signed and clamped into `[0, N − 1]`. -/
def rowOf {w : Nat} (N : Nat) (hN : 0 < N) (b : BitVec w) : Fin N := ⟨min b.toInt.toNat (N - 1), by omega⟩

/-- ONE STEP: from the starting value `z`, row `r` collects, over the edges `e` whose source position is `r`, the
    destination's row of `p` times the edge's weight. -/
def propagate {N E C w : Nat} (hN : 0 < N) (src dst : IVec ⟨2, ![E, 1]⟩ w) (wgt : (⟨1, ![E]⟩ : Shape).Idx → EReal) (z : EReal)
    (p : (⟨2, ![N, C]⟩ : Shape).Idx → EReal) : (⟨2, ![N, C]⟩ : Shape).Idx → EReal :=
  fun i => z + ∑ e : Fin E, if (src (ix2 e ⟨0, Nat.one_pos⟩)).toInt = ((i 0).val : Int)
    then p (ix2 (rowOf N hN (dst (ix2 e ⟨0, Nat.one_pos⟩))) (i 1)) * wgt (ix1 e) else 0

/-- A step reads one column of its table: tables that agree on column `q'` of one and `q` of the other give steps that
    agree there. -/
theorem propagate_congr_col {N E C C' w : Nat} (hN : 0 < N) (src dst : IVec ⟨2, ![E, 1]⟩ w)
    (wgt : (⟨1, ![E]⟩ : Shape).Idx → EReal) (z : EReal)
    (p : (⟨2, ![N, C]⟩ : Shape).Idx → EReal) (p' : (⟨2, ![N, C']⟩ : Shape).Idx → EReal) (q : Fin C) (q' : Fin C')
    (h : ∀ i : Fin N, p (ix2 i q) = p' (ix2 i q')) (r : Fin N) :
    propagate hN src dst wgt z p (ix2 r q) = propagate hN src dst wgt z p' (ix2 r q') := by
  unfold propagate
  refine congrArg (z + ·) (Finset.sum_congr rfl fun e _ => ?_)
  show (if _ then p (ix2 _ q) * _ else 0) = (if _ then p' (ix2 _ q') * _ else 0)
  rw [h]
  rfl

/-- THE HOST'S SPELLING IS THE STEP: the rows of `p` looked up at the destination column, times the weights kept as a
    column and spread along the row, added into the table that holds `z` everywhere at the rows the source column
    names. -/
theorem edge_pass_eq {N E C w : Nat} {φ : FTy} (hN : 0 < N)
    (gwf : GatherDims.WF ⟨2, ![N, C]⟩ ⟨2, ![E, 1]⟩ ⟨2, ![E, C]⟩ [1] [0] [] [0] [] 1 ![1, C])
    (swf : ScatterDims.WF ⟨2, ![N, C]⟩ ⟨2, ![E, 1]⟩ ⟨2, ![E, C]⟩ [1] [0] [0] 1)
    (h0 : (⟨0, ![]⟩ : Shape).BroadcastsInDim ⟨2, ![N, C]⟩ (![] : Fin 0 → Fin (⟨2, ![N, C]⟩ : Shape).rank))
    (h1 : (⟨1, ![E]⟩ : Shape).BroadcastsInDim ⟨2, ![E, 1]⟩ (![0] : Fin 1 → Fin (⟨2, ![E, 1]⟩ : Shape).rank))
    (h2 : (⟨2, ![E, 1]⟩ : Shape).BroadcastsInDim ⟨2, ![E, C]⟩ (![0, 1] : Fin 2 → Fin (⟨2, ![E, C]⟩ : Shape).rank))
    (z : FVec Ideal ⟨0, ![]⟩ φ) (src dst : IVec ⟨2, ![E, 1]⟩ w) (wgt : FVec Ideal ⟨1, ![E]⟩ φ) (p : FVec Ideal ⟨2, ![N, C]⟩ φ) :
    Host.scatterAdd (rowsScatter N E C swf) (broadcastInDim ⟨2, ![N, C]⟩ ![] h0 z) src
        (mulf (Host.gather (rowsDims N E C gwf) p dst)
          (broadcastInDim ⟨2, ![E, C]⟩ ![0, 1] h2 (broadcastInDim ⟨2, ![E, 1]⟩ ![0] h1 wgt)))
      = propagate hN src dst wgt (z ix0) p := by
  funext i
  obtain ⟨r, q, rfl⟩ : ∃ (r : Fin N) (q : Fin C), i = ix2 r q := ⟨i 0, i 1, eq_ix2 i⟩
  rw [scatterAdd_rows_apply, bcast_scalar_apply]
  unfold propagate
  refine congrArg (z ix0 + ·) (Finset.sum_congr rfl fun e _ => ?_)
  show (if _ then mulf _ _ (ix2 e q) else 0) = _
  rw [mulf_apply, gather_rows_apply hN, bcast_col_chain_apply]
  rfl

/-! ## A step applied to a matrix product: one layer -/

/-- The product of an `M × K` table with a `K × N` matrix over the extended reals. -/
def mm {M K N : Nat} (A : (⟨2, ![M, K]⟩ : Shape).Idx → EReal) (B : (⟨2, ![K, N]⟩ : Shape).Idx → EReal) :
    (⟨2, ![M, N]⟩ : Shape).Idx → EReal :=
  fun i => ∑ c : Fin K, A (ix2 (i 0) c) * B (ix2 c (i 1))

/-- The host's plain matrix product is that product. -/
theorem dot_eq_mm {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) :
    (Host.dotGeneral D prec A B : (⟨2, ![M, N]⟩ : Shape).Idx → EReal) = mm A B := by
  funext i
  obtain ⟨p, q, rfl⟩ : ∃ (p : Fin M) (q : Fin N), i = ix2 p q := ⟨i 0, i 1, eq_ix2 i⟩
  exact plain_dotGeneral_apply D hD prec A B p q

/-- A product with two matrices set side by side reads, in a column of the left piece, the product with the left
    piece … -/
theorem mm_concat_left {M K b₁ b₂ n : Nat} (A : (⟨2, ![M, K]⟩ : Shape).Idx → EReal)
    (B₁ : (⟨2, ![K, b₁]⟩ : Shape).Idx → EReal) (B₂ : (⟨2, ![K, b₂]⟩ : Shape).Idx → EReal)
    (h : Shape.Concatenates [⟨2, ![K, b₁]⟩, ⟨2, ![K, b₂]⟩] ⟨2, ![K, n]⟩ 1)
    (r : Fin M) (j : Fin n) (k : Fin b₁) (hk : k.val = j.val) :
    mm A (concatenate ⟨2, ![K, n]⟩ 1 [⟨⟨2, ![K, b₁]⟩, B₁⟩, ⟨⟨2, ![K, b₂]⟩, B₂⟩] h) (ix2 r j) = mm A B₁ (ix2 r k) := by
  unfold mm
  refine Finset.sum_congr rfl fun c _ => ?_
  exact congrArg (A (ix2 r c) * ·) (concat_cols_left B₁ B₂ h c j k hk)

/-- … and, in a column of the right piece, the product with the right piece. -/
theorem mm_concat_right {M K b₁ b₂ n : Nat} (A : (⟨2, ![M, K]⟩ : Shape).Idx → EReal)
    (B₁ : (⟨2, ![K, b₁]⟩ : Shape).Idx → EReal) (B₂ : (⟨2, ![K, b₂]⟩ : Shape).Idx → EReal)
    (h : Shape.Concatenates [⟨2, ![K, b₁]⟩, ⟨2, ![K, b₂]⟩] ⟨2, ![K, n]⟩ 1)
    (r : Fin M) (j : Fin n) (k : Fin b₂) (hk : b₁ + k.val = j.val) :
    mm A (concatenate ⟨2, ![K, n]⟩ 1 [⟨⟨2, ![K, b₁]⟩, B₁⟩, ⟨⟨2, ![K, b₂]⟩, B₂⟩] h) (ix2 r j) = mm A B₂ (ix2 r k) := by
  unfold mm
  refine Finset.sum_congr rfl fun c _ => ?_
  exact congrArg (A (ix2 r c) * ·) (concat_cols_right B₁ B₂ h c j k hk)

/-- ONE LAYER as the host spells it — the product `A · B`, its rows looked up at the destinations, scaled, and added
    in at the sources — is a step applied to the product. -/
theorem layer_eq {N K E C w : Nat} {φ : FTy} (hN : 0 < N)
    (D : DotDims ⟨2, ![N, K]⟩ ⟨2, ![K, C]⟩ ⟨2, ![N, C]⟩) (hD : D = DotDims.plain N K C) (prec : Option ContractPrecision)
    (gwf : GatherDims.WF ⟨2, ![N, C]⟩ ⟨2, ![E, 1]⟩ ⟨2, ![E, C]⟩ [1] [0] [] [0] [] 1 ![1, C])
    (swf : ScatterDims.WF ⟨2, ![N, C]⟩ ⟨2, ![E, 1]⟩ ⟨2, ![E, C]⟩ [1] [0] [0] 1)
    (h0 : (⟨0, ![]⟩ : Shape).BroadcastsInDim ⟨2, ![N, C]⟩ (![] : Fin 0 → Fin (⟨2, ![N, C]⟩ : Shape).rank))
    (h1 : (⟨1, ![E]⟩ : Shape).BroadcastsInDim ⟨2, ![E, 1]⟩ (![0] : Fin 1 → Fin (⟨2, ![E, 1]⟩ : Shape).rank))
    (h2 : (⟨2, ![E, 1]⟩ : Shape).BroadcastsInDim ⟨2, ![E, C]⟩ (![0, 1] : Fin 2 → Fin (⟨2, ![E, C]⟩ : Shape).rank))
    (z : FVec Ideal ⟨0, ![]⟩ φ) (src dst : IVec ⟨2, ![E, 1]⟩ w) (wgt : FVec Ideal ⟨1, ![E]⟩ φ)
    (A : FVec Ideal ⟨2, ![N, K]⟩ φ) (B : FVec Ideal ⟨2, ![K, C]⟩ φ) :
    Host.scatterAdd (rowsScatter N E C swf) (broadcastInDim ⟨2, ![N, C]⟩ ![] h0 z) src
        (mulf (Host.gather (rowsDims N E C gwf) (Host.dotGeneral D prec A B) dst)
          (broadcastInDim ⟨2, ![E, C]⟩ ![0, 1] h2 (broadcastInDim ⟨2, ![E, 1]⟩ ![0] h1 wgt)))
      = propagate hN src dst wgt (z ix0) (mm A B) :=
  (edge_pass_eq hN gwf swf h0 h1 h2 z src dst wgt _).trans (congrArg (propagate hN src dst wgt (z ix0)) (dot_eq_mm D hD prec A B))

end Cert.Lib.EdgePass

end
-- ==== Proof.Spec.lean ====
/-
  The two-layer graph network both programs compute, as functions of tables over the extended reals.

  A layer sends a table through one weighted message-passing step `P` (row `r` collects, over the edges whose target is
  `r`, the source's row times the edge's weight) and a dense matrix `W`. The step is linear, so on real data it
  commutes with the product: `P (X · W) = (P X) · W`. One program multiplies first and passes messages second, the
  other the other way round; after the second layer both add a bias row and take a row-wise log-softmax.
-/
import Idealize.ShloMosaic.Lib.ValueIdx
import Idealize.ShloMosaic.PureOps.Ideal
import proofs.«152553_j71683004171209_2_alg».proof.Proof.LibEdgePass

noncomputable section

open scoped BigOperators

namespace Cert.Spec

open Idealize.ShloMosaic Idealize.ShloMosaic.ValueIdx Cert.Lib.EdgePass

/-- A bias vector added to every row of a table. -/
def addRow {N C : Nat} (A : (⟨2, ![N, C]⟩ : Shape).Idx → EReal) (b : (⟨1, ![C]⟩ : Shape).Idx → EReal) :
    (⟨2, ![N, C]⟩ : Shape).Idx → EReal :=
  fun i => A i + b (ix1 (i 1))

/-- The rectifier, entry by entry. -/
def relu0 {N C : Nat} (A : (⟨2, ![N, C]⟩ : Shape).Idx → EReal) : (⟨2, ![N, C]⟩ : Shape).Idx → EReal :=
  fun i => max (A i) 0

/-- The largest entry of row `r` (the fold of `max` from `-∞`). -/
def rowTop {N C : Nat} (A : (⟨2, ![N, C]⟩ : Shape).Idx → EReal) (r : Fin N) : EReal :=
  (Finset.univ : Finset (Fin C)).fold max (⊥ : EReal) (fun c => A (ix2 r c))

/-- The row-wise log-softmax: `(a − top) − log Σ exp (a − top)`. -/
def logSoftmax {N C : Nat} (A : (⟨2, ![N, C]⟩ : Shape).Idx → EReal) : (⟨2, ![N, C]⟩ : Shape).Idx → EReal :=
  fun i => (A i - rowTop A (i 0)) - Ideal.log (∑ c : Fin C, Ideal.exp (A (ix2 (i 0) c) - rowTop A (i 0)))

section
variable {N E K H C w : Nat} (hN : 0 < N) (src dst : IVec ⟨2, ![E, 1]⟩ w) (wgt : (⟨1, ![E]⟩ : Shape).Idx → EReal)
  (x : (⟨2, ![N, K]⟩ : Shape).Idx → EReal) (W1 : (⟨2, ![K, H]⟩ : Shape).Idx → EReal) (b1 : (⟨1, ![H]⟩ : Shape).Idx → EReal)
  (W2 : (⟨2, ![H, C]⟩ : Shape).Idx → EReal) (b2 : (⟨1, ![C]⟩ : Shape).Idx → EReal)

/-- Multiply first, pass messages second, in both layers. -/
def netMulFirst : (⟨2, ![N, C]⟩ : Shape).Idx → EReal :=
  logSoftmax (addRow (propagate hN src dst wgt 0 (mm (relu0 (addRow (propagate hN src dst wgt 0 (mm x W1)) b1)) W2)) b2)

/-- Pass messages first, multiply second, in both layers. -/
def netPassFirst : (⟨2, ![N, C]⟩ : Shape).Idx → EReal :=
  logSoftmax (addRow (mm (propagate hN src dst wgt 0 (relu0 (addRow (mm (propagate hN src dst wgt 0 x) W1) b1))) W2) b2)

end

end Cert.Spec

end
-- ==== Proof.KValue.lean ====
/-
  The kernel program's result array as ONE function of its argument arrays: the two-layer network that multiplies by a
  layer's matrix first and passes messages second. Each region's output array is a function of the arrays the region
  finds (a matrix product; a bias row, a rectifier and a matrix product; a bias row and a row-wise log-softmax); each host
  stretch between two regions is one message-passing step (rows looked up, scaled by the edge weights, added in at the
  targets); the buffers holding the graph are written before the first region and never again.
-/
import proofs.«152553_j71683004171209_2_alg».proof.Proof.KGraph
import proofs.«152553_j71683004171209_2_alg».proof.Proof.Spec
import proofs.«152553_j71683004171209_2_alg».proof.Proof.LibEdgePass

set_option maxRecDepth 16384

noncomputable section

namespace Cert.KernelIdeal.KValue

open Cert.KernelIdeal Idealize.ShloMosaic Idealize.ShloMosaic.TcCoe Idealize.SL.Sem Idealize.ShloMosaic.StableHlo
open Idealize.ShloMosaic.ValueIdx
open Facts₀ Facts
open Cert.KernelIdeal.Gen (W0 W1 W2 W3 W4 W5 W6 W7 W8 V3 V5 V7 hostOps0 hostOps0_1 hostOps0_2 hostOps1 hostOps2 dat0 dat1 dat2
  W4_arr W4_of_ne W6_arr W6_of_ne W8_arr W8_of_ne)
open Cert.KernelIdeal.Graph Cert.Spec Cert.Lib.EdgePass

variable [Cert.KernelIdeal.Facts]
variable (m : (ℓ : Loc nD τ sig) → Buf (Elt Ideal) ℓ) (ρ : Dev nD → PrngReg)

theorem hN : 0 < 100000 := by decide

/-- The zero word is the real zero. -/
theorem zero_const : (constant (F := Ideal) S_ .f32 0x00000000#32 : S_.Idx → EReal) ix0 = 0 := by
  show Ideal.ofBits .f32 0x00000000#32 = 0
  exact Ideal.ofBits_zero_f32

/-- One message-passing step as the host stretches spell it, over any table of `C` columns. -/
theorem pass_eq {C : Nat}
    (gwf : GatherDims.WF ⟨2, ![100000, C]⟩ ⟨2, ![900000, 1]⟩ ⟨2, ![900000, C]⟩ [1] [0] [] [0] [] 1 ![1, C])
    (swf : ScatterDims.WF ⟨2, ![100000, C]⟩ ⟨2, ![900000, 1]⟩ ⟨2, ![900000, C]⟩ [1] [0] [0] 1)
    (h0 : (⟨0, ![]⟩ : Shape).BroadcastsInDim ⟨2, ![100000, C]⟩ (![] : Fin 0 → Fin (⟨2, ![100000, C]⟩ : Shape).rank))
    (h2 : (⟨2, ![900000, 1]⟩ : Shape).BroadcastsInDim ⟨2, ![900000, C]⟩ (![0, 1] : Fin 2 → Fin (⟨2, ![900000, C]⟩ : Shape).rank))
    (sc gc : IVec ⟨2, ![900000, 1]⟩ 32) (wgt : FVec Ideal ⟨1, ![900000]⟩ .f32) (p : FVec Ideal ⟨2, ![100000, C]⟩ .f32) :
    Host.scatterAdd (Cert.Lib.ScatterAddRows.rowsScatter 100000 900000 C swf)
        (broadcastInDim ⟨2, ![100000, C]⟩ ![] h0 (constant (F := Ideal) S_ .f32 0x00000000#32)) sc
        (mulf (Host.gather (Cert.Lib.TakeRows.rowsDims 100000 900000 C gwf) p gc)
          (broadcastInDim ⟨2, ![900000, C]⟩ ![0, 1] h2 (broadcastInDim ⟨2, ![900000, 1]⟩ ![0] bcast_S900000_S900000x1_0 wgt)))
      = propagate hN sc gc wgt 0 p :=
  (edge_pass_eq hN gwf swf h0 bcast_S900000_S900000x1_0 h2 _ sc gc wgt p).trans (by rw [zero_const])

/-- A host stretch's step on a 64-column table, over the buffers it reads. -/
def pass64 (t : IVec S900000 32) (p : FVec Ideal S100000x64 .f32) (s : IVec S900000 32) (w : FVec Ideal S900000 .f32) : FVec Ideal S100000x64 .f32 :=
  Host.scatterAdd scatter_S100000x64_S900000x1_S900000x64_1_0_0_1
    (broadcastInDim S100000x64 ![] bcast_S_S100000x64 (constant (F := Ideal) S_ .f32 0x00000000#32)) (col t)
    (mulf (Host.gather gather_S100000x64_S900000x1_S900000x64_1_0_n_n_0_1_164 p (col (wrapNeg s)))
      (broadcastInDim S900000x64 ![0, 1] bcast_S900000x1_S900000x64_0_1 (broadcastInDim S900000x1 ![0] bcast_S900000_S900000x1_0 w)))

/-- A host stretch's step on a 40-column table, over the buffers it reads. -/
def pass40 (t : IVec S900000 32) (p : FVec Ideal S100000x40 .f32) (s : IVec S900000 32) (w : FVec Ideal S900000 .f32) : FVec Ideal S100000x40 .f32 :=
  Host.scatterAdd scatter_S100000x40_S900000x1_S900000x40_1_0_0_1
    (broadcastInDim S100000x40 ![] bcast_S_S100000x40 (constant (F := Ideal) S_ .f32 0x00000000#32)) (col t)
    (mulf (Host.gather gather_S100000x40_S900000x1_S900000x40_1_0_n_n_0_1_140 p (col (wrapNeg s)))
      (broadcastInDim S900000x40 ![0, 1] bcast_S900000x1_S900000x40_0_1 (broadcastInDim S900000x1 ![0] bcast_S900000_S900000x1_0 w)))

section Walk
variable (c : Dev nD)

/-! ### The argument arrays at every boundary are the launch contents -/

set_option maxHeartbeats 4000000 in
theorem W3_arg0 : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results_simp <;> rfl
set_option maxHeartbeats 4000000 in
theorem W3_arg2 : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results_simp <;> rfl
set_option maxHeartbeats 4000000 in
theorem W3_arg3 : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results_simp <;> rfl
set_option maxHeartbeats 4000000 in
theorem W3_arg4 : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results_simp <;> rfl
set_option maxHeartbeats 4000000 in
theorem W3_arg5 : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  after_results_simp <;> rfl

/-! ### After the first region -/

theorem W4_src : W4 m ρ c (Proc.devRef .tc main_v5) = srcVec (m ((c.tc : Thread nD τ).loc main_arg1)) :=
  (W4_of_ne m ρ c main_v5 (by decide)).trans (W3_src m ρ c)
theorem W4_tgt : W4 m ρ c (Proc.devRef .tc main_v6) = tgtVec (m ((c.tc : Thread nD τ).loc main_arg1)) :=
  (W4_of_ne m ρ c main_v6 (by decide)).trans (W3_tgt m ρ c)
theorem W4_wgt : W4 m ρ c (Proc.devRef .tc main_v30) = wgtVec (m ((c.tc : Thread nD τ).loc main_arg1)) :=
  (W4_of_ne m ρ c main_v30 (by decide)).trans (W3_wgt m ρ c)
theorem W4_arg3 : W4 m ρ c (Proc.devRef .tc main_arg3) = m ((c.tc : Thread nD τ).loc main_arg3) :=
  (W4_of_ne m ρ c main_arg3 (by decide)).trans (W3_arg3 m ρ c)
theorem W4_arg4 : W4 m ρ c (Proc.devRef .tc main_arg4) = m ((c.tc : Thread nD τ).loc main_arg4) :=
  (W4_of_ne m ρ c main_arg4 (by decide)).trans (W3_arg4 m ρ c)
theorem W4_arg5 : W4 m ρ c (Proc.devRef .tc main_arg5) = m ((c.tc : Thread nD τ).loc main_arg5) :=
  (W4_of_ne m ρ c main_arg5 (by decide)).trans (W3_arg5 m ρ c)

/-! ### The second host stretch: one step on the first region's product -/

set_option maxHeartbeats 4000000 in
theorem W5_v44_raw : W5 m ρ c (Proc.devRef .tc main_v44)
    = pass64 (W4 m ρ c (Proc.devRef .tc main_v6)) (W4 m ρ c (Proc.devRef .tc main_v31)) (W4 m ρ c (Proc.devRef .tc main_v5)) (W4 m ρ c (Proc.devRef .tc main_v30)) := by
  show StableHlo.after hostOps1 (W4 m ρ c) (Proc.devRef .tc main_v44) = _
  after_results_simp <;> rfl

set_option maxHeartbeats 4000000 in
theorem W5_keep (b : Ref sig .tc) (hb : b = main_v5 ∨ b = main_v6 ∨ b = main_v30 ∨ b = main_arg3 ∨ b = main_arg4 ∨ b = main_arg5) :
    W5 m ρ c (Proc.devRef .tc b) = W4 m ρ c (Proc.devRef .tc b) := by
  show StableHlo.after hostOps1 (W4 m ρ c) (Proc.devRef .tc b) = _
  rcases hb with rfl | rfl | rfl | rfl | rfl | rfl <;> (after_results_simp <;> rfl)

/-! ### The third host stretch: one step on the second region's product -/

set_option maxHeartbeats 4000000 in
theorem W7_v58_raw : W7 m ρ c (Proc.devRef .tc main_v58)
    = pass40 (W6 m ρ c (Proc.devRef .tc main_v6)) (W6 m ρ c (Proc.devRef .tc main_v45)) (W6 m ρ c (Proc.devRef .tc main_v5)) (W6 m ρ c (Proc.devRef .tc main_v30)) := by
  show StableHlo.after hostOps2 (W6 m ρ c) (Proc.devRef .tc main_v58) = _
  after_results_simp <;> rfl

set_option maxHeartbeats 4000000 in
theorem W7_arg5 : W7 m ρ c (Proc.devRef .tc main_arg5) = W6 m ρ c (Proc.devRef .tc main_arg5) := by
  show StableHlo.after hostOps2 (W6 m ρ c) (Proc.devRef .tc main_arg5) = _
  after_results_simp <;> rfl

end Walk

/-! ### The whole value, from the three regions' values -/

/-- The result array after the run, given each region's output array as a function of the arrays it finds. -/
theorem value
    (hR0 : ∀ (V : (c : Dev nD) → (b : Ref sig .tc) → Buf (Elt Ideal) ((c : Thread nD τ).loc b)) (c : Dev nD),
      (dat0 (F := Ideal) V c).arrAt 2 cfg0.N = mm (V c main_arg0 : S100000x128.Idx → EReal) (V c main_arg2 : S128x64.Idx → EReal))
    (hR1 : ∀ (V : (c : Dev nD) → (b : Ref sig .tc) → Buf (Elt Ideal) ((c : Thread nD τ).loc b)) (c : Dev nD),
      (dat1 (F := Ideal) V c).arrAt 3 cfg1.N
        = mm (relu0 (addRow (V c main_v44 : S100000x64.Idx → EReal) (V c main_arg3 : S64.Idx → EReal))) (V c main_arg4 : S64x40.Idx → EReal))
    (hR2 : ∀ (V : (c : Dev nD) → (b : Ref sig .tc) → Buf (Elt Ideal) ((c : Thread nD τ).loc b)) (c : Dev nD),
      (dat2 (F := Ideal) V c).arrAt 2 cfg2.N
        = logSoftmax (addRow (V c main_v58 : S100000x40.Idx → EReal) (V c main_arg5 : S40.Idx → EReal)))
    (c : Dev nD) :
    (W8 m ρ c (Proc.devRef .tc main_v59) : S100000x40.Idx → EReal)
      = netMulFirst hN (scatCol (m ((c.tc : Thread nD τ).loc main_arg1))) (gathCol (m ((c.tc : Thread nD τ).loc main_arg1)))
          (wgtVec (m ((c.tc : Thread nD τ).loc main_arg1)))
          (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) := by
  -- the first region's product
  have e31 : (W4 m ρ c (Proc.devRef .tc main_v31) : S100000x64.Idx → EReal)
      = mm (m ((c.tc : Thread nD τ).loc main_arg0)) (m ((c.tc : Thread nD τ).loc main_arg2)) := by
    refine (W4_arr m ρ c 2).trans ((hR0 (V3 m ρ) c).trans ?_)
    show mm (W3 m ρ c (Proc.devRef .tc main_arg0)) (W3 m ρ c (Proc.devRef .tc main_arg2)) = _
    rw [W3_arg0, W3_arg2]
  -- one step on it
  have e44 : (W5 m ρ c (Proc.devRef .tc main_v44) : S100000x64.Idx → EReal)
      = propagate hN (scatCol (m ((c.tc : Thread nD τ).loc main_arg1))) (gathCol (m ((c.tc : Thread nD τ).loc main_arg1)))
          (wgtVec (m ((c.tc : Thread nD τ).loc main_arg1))) 0
          (mm (m ((c.tc : Thread nD τ).loc main_arg0)) (m ((c.tc : Thread nD τ).loc main_arg2))) := by
    rw [W5_v44_raw, W4_tgt, W4_src, W4_wgt, e31]
    exact pass_eq gather_S100000x64_S900000x1_S900000x64_1_0_n_n_0_1_164_wf scatter_S100000x64_S900000x1_S900000x64_1_0_0_1_wf
      bcast_S_S100000x64 bcast_S900000x1_S900000x64_0_1 _ _ _ _
  -- the second region's product
  have e45 : (W6 m ρ c (Proc.devRef .tc main_v45) : S100000x40.Idx → EReal)
      = mm (relu0 (addRow (propagate hN (scatCol (m ((c.tc : Thread nD τ).loc main_arg1))) (gathCol (m ((c.tc : Thread nD τ).loc main_arg1)))
          (wgtVec (m ((c.tc : Thread nD τ).loc main_arg1))) 0
          (mm (m ((c.tc : Thread nD τ).loc main_arg0)) (m ((c.tc : Thread nD τ).loc main_arg2))))
          (m ((c.tc : Thread nD τ).loc main_arg3)))) (m ((c.tc : Thread nD τ).loc main_arg4)) := by
    refine (W6_arr m ρ c 3).trans ((hR1 (V5 m ρ) c).trans ?_)
    show mm (relu0 (addRow (W5 m ρ c (Proc.devRef .tc main_v44)) (W5 m ρ c (Proc.devRef .tc main_arg3)))) (W5 m ρ c (Proc.devRef .tc main_arg4)) = _
    rw [e44, W5_keep m ρ c main_arg3 (by simp), W5_keep m ρ c main_arg4 (by simp), W4_arg3, W4_arg4]
  -- the graph's buffers after the second region
  have k5 : W6 m ρ c (Proc.devRef .tc main_v5) = srcVec (m ((c.tc : Thread nD τ).loc main_arg1)) :=
    (W6_of_ne m ρ c main_v5 (by decide)).trans ((W5_keep m ρ c main_v5 (by simp)).trans (W4_src m ρ c))
  have k6 : W6 m ρ c (Proc.devRef .tc main_v6) = tgtVec (m ((c.tc : Thread nD τ).loc main_arg1)) :=
    (W6_of_ne m ρ c main_v6 (by decide)).trans ((W5_keep m ρ c main_v6 (by simp)).trans (W4_tgt m ρ c))
  have k30 : W6 m ρ c (Proc.devRef .tc main_v30) = wgtVec (m ((c.tc : Thread nD τ).loc main_arg1)) :=
    (W6_of_ne m ρ c main_v30 (by decide)).trans ((W5_keep m ρ c main_v30 (by simp)).trans (W4_wgt m ρ c))
  have ka5 : W7 m ρ c (Proc.devRef .tc main_arg5) = m ((c.tc : Thread nD τ).loc main_arg5) :=
    (W7_arg5 m ρ c).trans ((W6_of_ne m ρ c main_arg5 (by decide)).trans ((W5_keep m ρ c main_arg5 (by simp)).trans (W4_arg5 m ρ c)))
  -- one step on the second product
  have e58 : (W7 m ρ c (Proc.devRef .tc main_v58) : S100000x40.Idx → EReal)
      = propagate hN (scatCol (m ((c.tc : Thread nD τ).loc main_arg1))) (gathCol (m ((c.tc : Thread nD τ).loc main_arg1)))
          (wgtVec (m ((c.tc : Thread nD τ).loc main_arg1))) 0
          (mm (relu0 (addRow (propagate hN (scatCol (m ((c.tc : Thread nD τ).loc main_arg1))) (gathCol (m ((c.tc : Thread nD τ).loc main_arg1)))
            (wgtVec (m ((c.tc : Thread nD τ).loc main_arg1))) 0
            (mm (m ((c.tc : Thread nD τ).loc main_arg0)) (m ((c.tc : Thread nD τ).loc main_arg2))))
            (m ((c.tc : Thread nD τ).loc main_arg3)))) (m ((c.tc : Thread nD τ).loc main_arg4))) := by
    rw [W7_v58_raw, k6, k5, k30, e45]
    exact pass_eq gather_S100000x40_S900000x1_S900000x40_1_0_n_n_0_1_140_wf scatter_S100000x40_S900000x1_S900000x40_1_0_0_1_wf
      bcast_S_S100000x40 bcast_S900000x1_S900000x40_0_1 _ _ _ _
  -- the third region
  refine (W8_arr m ρ c 2).trans ((hR2 (V7 m ρ) c).trans ?_)
  show logSoftmax (addRow (W7 m ρ c (Proc.devRef .tc main_v58)) (W7 m ρ c (Proc.devRef .tc main_arg5))) = _
  rw [e58, ka5]
  rfl

end Cert.KernelIdeal.KValue

end
-- ==== Proof.LibScatterAddPoints.lean ====
/-
  Points added into a vector at the positions a column of integers names, read at an entry, for any sizes.

  The updates are a vector of `E` numbers, one per position; the positions are an `E × 1` column of integers; the operand
  is a vector of `N` numbers. Update `e` is added into the operand's entry `idx[e, 0]`, read as a signed integer and NOT
  clamped: a position outside `[0, N)` adds nothing. Over the extended reals the result at `r` is therefore the operand's
  entry plus the sum, over the positions `e` whose start is exactly `r`, of the update `e`.
-/
import Idealize.ShloMosaic.Lib.ValueIdx
import Idealize.ShloMosaic.PureOps.Ideal

noncomputable section

open scoped BigOperators

namespace Cert.Lib.ScatterAddPoints

open Idealize.ShloMosaic Idealize.ShloMosaic.ValueIdx

/-- The dimension numbers of a pointwise accumulation: operand `[N]`, positions `[E, 1]` (the unit axis holds the one
    component of a start index, which addresses the operand's only axis), updates `[E]`; each update window is a
    single entry, so the updates have no window axis and the operand's axis is inserted. -/
abbrev pointsScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## A sum over a rank-1 index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Where an update lands -/

section
variable {N E w : Nat} (wf : ScatterDims.WF ⟨1, ![N]⟩ ⟨2, ![E, 1]⟩ ⟨1, ![E]⟩ [] [0] [0] 1)
  (idx : IVec ⟨2, ![E, 1]⟩ w) (e : Fin E)

/-- The window of update `e` starts at the position `idx[e, 0]`, read signed. -/
theorem start_pt : (pointsScatter N E wf).start (ix1 e) idx 0 = (idx (ix2 e ⟨0, Nat.one_pos⟩)).toInt := by
  unfold ScatterDims.start
  rw [dif_pos (show (0 : Fin 1) ∈ (pointsScatter N E wf).scatterDimsToOperandDims from List.mem_singleton.mpr rfl)]
  have hsi : (pointsScatter N E wf).siIdx (ix1 e) ⟨List.idxOf (0 : Fin 1) (pointsScatter N E wf).scatterDimsToOperandDims,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- The operand's axis is inserted: the window has no extent along it. -/
theorem window_pt : (pointsScatter N E wf).window (ix1 e) 0 = 0 := by
  unfold ScatterDims.window
  have h0 : ¬ (0 : Fin 1) ∈ (pointsScatter N E wf).sKept := by
    simp [ScatterDims.sKept, Shape.kept, List.mem_filter]
  rw [dif_neg h0]

/-- WHERE AN UPDATE LANDS: update `e` lands on entry `r` exactly when its position, read signed, is `r`. -/
theorem resultIdx?_eq_some_iff (r : Fin N) :
    (pointsScatter N E wf).resultIdx? (ix1 e) idx = some (ix1 r)
      ↔ (idx (ix2 e ⟨0, Nat.one_pos⟩)).toInt = (r.val : Int) := by
  have hN : (⟨1, ![N]⟩ : Shape).size 0 = N := rfl
  have hr := r.isLt
  unfold ScatterDims.resultIdx?
  split
  · rename_i h
    rw [Option.some.injEq]
    constructor
    · intro hf
      have h0 := congrArg (fun f => (f 0).val) hf
      simp only [start_pt, window_pt] at h0
      have hh := (h 0).1
      rw [start_pt, window_pt] at hh
      have e0 : ((ix1 r : (⟨1, ![N]⟩ : Shape).Idx) 0).val = r.val := rfl
      rw [e0] at h0
      omega
    · intro hs
      funext a
      refine Fin.ext ?_
      match a with
      | ⟨0, _⟩ =>
        show ((pointsScatter N E wf).start (ix1 e) idx 0 + ((pointsScatter N E wf).window (ix1 e) 0 : Nat)).toNat = r.val
        rw [start_pt, window_pt, hs]; omega
  · rename_i h
    constructor
    · intro hf; exact absurd hf (by simp)
    · intro hs
      refine absurd (fun a => ?_) h
      match a with
      | ⟨0, _⟩ =>
        show 0 ≤ (pointsScatter N E wf).start (ix1 e) idx 0 + ((pointsScatter N E wf).window (ix1 e) 0 : Nat)
          ∧ (pointsScatter N E wf).start (ix1 e) idx 0 + ((pointsScatter N E wf).window (ix1 e) 0 : Nat) < ((⟨1, ![N]⟩ : Shape).size 0 : Nat)
        rw [start_pt, window_pt, hs, hN]; omega

end

/-- THE ACCUMULATION READ AT `r`: the operand's entry plus the sum, over the positions that name `r`, of the updates. -/
theorem scatterAdd_points_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (r : Fin N) :
    Host.scatterAdd (pointsScatter N E wf) x idx upd (ix1 r)
      = x (ix1 r) + ∑ e : Fin E, if (idx (ix2 e ⟨0, Nat.one_pos⟩)).toInt = (r.val : Int) then upd (ix1 e) else 0 := by
  show Ideal.hostScatterAdd (pointsScatter N E wf) x idx upd (ix1 r) = _
  unfold Ideal.hostScatterAdd
  congr 1
  rw [Finset.sum_filter, sum_idx1]
  refine Finset.sum_congr rfl fun e _ => ?_
  simp only [resultIdx?_eq_some_iff]

end Cert.Lib.ScatterAddPoints

end
-- ==== Proof.LibGatherPoints.lean ====
/-
  Entries of a vector looked up at a column of positions, read at an entry, for any sizes.

  A lookup of entries of a vector of `N` numbers at an `R × 1` column of start positions gives a vector of `R` numbers
  whose entry `r` is the operand's entry at position `r`'s start index, that index read as a signed integer and clamped
  into `[0, N − 1]`: a negative index reads entry `0`, an index past the end reads the last entry.
-/
import Idealize.ShloMosaic.Lib.ValueIdx
import Idealize.ShloMosaic.PureOps.Ideal

noncomputable section

namespace Cert.Lib.GatherPoints

open Idealize.ShloMosaic Idealize.ShloMosaic.ValueIdx

section Points
variable {α : Type}

/-- The dimension numbers of an entry lookup: operand `[N]`, start positions `[R, 1]` (the unit axis holds the one
    component of a start index, which addresses the operand's only axis), result `[R]`; each slice is a single entry,
    its one axis collapsed, so the result has no offset axis. -/
abbrev pointsDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE LOOKUP READ AT `r`: the operand at the entry `idx[r, 0]` names — read signed and clamped into `[0, N − 1]`. -/
theorem gather_points_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (pointsDims N R wf) x idx (ix1 r)
      = x (ix1 ⟨min (idx (ix2 r ⟨0, Nat.one_pos⟩)).toInt.toNat (N - 1), by omega⟩) := by
  unfold Host.gather
  congr 1
  funext a
  refine Fin.ext ?_
  match a with
  | ⟨0, _⟩ =>
    show (pointsDims N R wf).start (ix1 r) idx 0 + (pointsDims N R wf).batchCoord (ix1 r) 0
      + (pointsDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (pointsDims N R wf).startIndexMap from List.mem_singleton.mpr rfl)]
    have hsi : (pointsDims N R wf).siIdx (ix1 r) ⟨List.idxOf (0 : Fin 1) (pointsDims N R wf).startIndexMap,
        List.idxOf_lt_length_iff.2 (List.mem_singleton.mpr rfl)⟩ = ix2 r ⟨0, Nat.one_pos⟩ := by
      funext b; refine Fin.ext ?_
      match b with
      | ⟨0, _⟩ => rfl
      | ⟨1, _⟩ => rfl
    rw [hsi]
    rfl

end Points

end Cert.Lib.GatherPoints

end
-- ==== Proof.LibSymNorm.lean ====
/-
  The symmetric-normalisation edge weights of a graph are real numbers, for any sizes.

  A graph's edges name target positions; the degree of node `r` is the number of edges whose target is exactly `r`
  (accumulated as a sum of ones into a vector of zeros, so a nonnegative real). The inverse square-root degree is
  `1 / √deg` where the degree is positive and `0` elsewhere: a real number in both cases, since the reciprocal square
  root of a positive real is real. An edge's weight is the product of the inverse square-root degrees looked up at two
  columns of positions, hence again a real number.
-/
import Idealize.ShloMosaic.Lib.ValueIdx
import Idealize.ShloMosaic.Lib.Pipeline.Value
import Idealize.ShloMosaic.PureOps.Ideal
import Idealize.ShloMosaic.PureOps.Ideal.Laws
import proofs.«152553_j71683004171209_2_alg».proof.Proof.LibScatterAddPoints
import proofs.«152553_j71683004171209_2_alg».proof.Proof.LibGatherPoints

noncomputable section

open scoped BigOperators

namespace Cert.Lib.SymNorm

open Idealize.ShloMosaic Idealize.ShloMosaic.ValueIdx Cert.Lib.ScatterAddPoints Cert.Lib.GatherPoints

/-! ## The two constant words -/

/-- The word `0x3F800000` denotes `1`. -/
theorem ofBits_one_f32 : Ideal.ofBits .f32 0x3F800000#32 = 1 := by
  simp [Ideal.ofBits, Ideal.ieee, -EReal.coe_mul]; norm_num

/-- A scalar spread over any shape reads, at every index, the scalar. -/
theorem bcast0_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply ![] h x j ix0 fun ax => ax.elim0

/-! ## Degrees and inverse square-root degrees -/

section
variable {N E w : Nat}
  (swf : ScatterDims.WF ⟨1, ![N]⟩ ⟨2, ![E, 1]⟩ ⟨1, ![E]⟩ [] [0] [0] 1)
  (hbN : (⟨0, ![]⟩ : Shape).BroadcastsInDim ⟨1, ![N]⟩ (![] : Fin 0 → Fin (⟨1, ![N]⟩ : Shape).rank))
  (hbE : (⟨0, ![]⟩ : Shape).BroadcastsInDim ⟨1, ![E]⟩ (![] : Fin 0 → Fin (⟨1, ![E]⟩ : Shape).rank))
  (tgt : IVec ⟨2, ![E, 1]⟩ w)

/-- The degree vector: a one added, for every edge, into a vector of zeros at the edge's target position. -/
def degOf : FVec Ideal ⟨1, ![N]⟩ .f32 :=
  Host.scatterAdd (pointsScatter N E swf)
    (broadcastInDim ⟨1, ![N]⟩ ![] hbN (constant (F := Ideal) ⟨0, ![]⟩ .f32 0x00000000#32)) tgt
    (broadcastInDim ⟨1, ![E]⟩ ![] hbE (constant (F := Ideal) ⟨0, ![]⟩ .f32 0x3F800000#32))

/-- The inverse square-root degree: `1 / √deg` where the degree is positive, `0` elsewhere. -/
def dinvOf : FVec Ideal ⟨1, ![N]⟩ .f32 :=
  select (cmpf (F := Ideal) .ogt (degOf swf hbN hbE tgt)
      (broadcastInDim ⟨1, ![N]⟩ ![] hbN (constant (F := Ideal) ⟨0, ![]⟩ .f32 0x00000000#32)))
    (Host.rsqrt (degOf swf hbN hbE tgt))
    (broadcastInDim ⟨1, ![N]⟩ ![] hbN (constant (F := Ideal) ⟨0, ![]⟩ .f32 0x00000000#32))

/-- The vector of zeros reads `0` at every index. -/
theorem zeroN_apply (i : (⟨1, ![N]⟩ : Shape).Idx) :
    broadcastInDim ⟨1, ![N]⟩ ![] hbN (constant (F := Ideal) ⟨0, ![]⟩ .f32 0x00000000#32) i = (0 : EReal) := by
  rw [bcast0_apply, constant_apply]
  exact Ideal.ofBits_zero_f32

/-- The vector of ones reads `1` at every index. -/
theorem oneE_apply (i : (⟨1, ![E]⟩ : Shape).Idx) :
    broadcastInDim ⟨1, ![E]⟩ ![] hbE (constant (F := Ideal) ⟨0, ![]⟩ .f32 0x3F800000#32) i = (1 : EReal) := by
  rw [bcast0_apply, constant_apply]
  exact ofBits_one_f32

/-- A count — a finite sum of ones and zeros — is a nonnegative real. -/
theorem count_real {ι : Type} (s : Finset ι) (c : ι → Prop) [DecidablePred c] :
    ∃ r : ℝ, 0 ≤ r ∧ (∑ e ∈ s, if c e then (1 : EReal) else 0) = (r : EReal) := by
  classical
  refine Finset.induction_on s ⟨0, le_refl _, by simp⟩ fun a s ha ih => ?_
  obtain ⟨r, hr, h⟩ := ih
  rw [Finset.sum_insert ha, h]
  by_cases hc : c a
  · refine ⟨1 + r, by linarith, ?_⟩
    rw [if_pos hc, EReal.coe_add]; rfl
  · exact ⟨r, hr, by rw [if_neg hc, zero_add]⟩

/-- THE DEGREE IS A NONNEGATIVE REAL: at node `r`, the number of edges whose target is exactly `r`. -/
theorem deg_real (r : Fin N) : ∃ d : ℝ, 0 ≤ d ∧ degOf swf hbN hbE tgt (ix1 r) = (d : EReal) := by
  obtain ⟨d, hd, h⟩ := count_real (Finset.univ : Finset (Fin E))
    (fun e => (tgt (ix2 e ⟨0, Nat.one_pos⟩)).toInt = (r.val : Int))
  refine ⟨d, hd, ?_⟩
  unfold degOf
  rw [scatterAdd_points_apply, zeroN_apply, zero_add, ← h]
  refine Finset.sum_congr rfl fun e _ => ?_
  rw [oneE_apply]

/-- THE INVERSE SQUARE-ROOT DEGREE IS REAL. -/
theorem dinv_real (i : (⟨1, ![N]⟩ : Shape).Idx) : ∃ x : ℝ, dinvOf swf hbN hbE tgt i = (x : EReal) := by
  obtain ⟨r, rfl⟩ : ∃ r : Fin N, i = ix1 r := ⟨i 0, eq_ix1 i⟩
  obtain ⟨d, hd, hdeg⟩ := deg_real swf hbN hbE tgt r
  have hz := zeroN_apply (N := N) hbN (ix1 r)
  show ∃ x : ℝ, Scalar.select (Ideal.cmp .ogt (degOf swf hbN hbE tgt (ix1 r))
      (broadcastInDim ⟨1, ![N]⟩ ![] hbN (constant (F := Ideal) ⟨0, ![]⟩ .f32 0x00000000#32) (ix1 r)))
    (Ideal.rsqrt (degOf swf hbN hbE tgt (ix1 r)))
    (broadcastInDim ⟨1, ![N]⟩ ![] hbN (constant (F := Ideal) ⟨0, ![]⟩ .f32 0x00000000#32) (ix1 r)) = (x : EReal)
  rw [hz, hdeg]
  unfold Scalar.select
  split
  · rename_i hc
    have hpos : 0 < d := by
      by_contra hn
      have hlt : ¬ ((0 : EReal) < (d : EReal)) := fun h => hn (EReal.coe_pos.mp h)
      simp [Ideal.cmp, hlt] at hc
    refine ⟨(Real.sqrt d)⁻¹, ?_⟩
    rw [Ideal.rsqrt_coe, if_neg (not_lt.mpr hd), if_neg hpos.ne']
  · exact ⟨0, rfl⟩

/-- THE EDGE WEIGHTS ARE REAL: the product of the inverse square-root degrees looked up at two columns of positions. -/
theorem symNorm_real (hN : 0 < N)
    (gwf : GatherDims.WF ⟨1, ![N]⟩ ⟨2, ![E, 1]⟩ ⟨1, ![E]⟩ [] [0] [] [0] [] 1 ![1])
    (c1 c2 : IVec ⟨2, ![E, 1]⟩ w) (e : (⟨1, ![E]⟩ : Shape).Idx) :
    ∃ r : ℝ, mulf (Host.gather (pointsDims N E gwf) (dinvOf swf hbN hbE tgt) c1)
      (Host.gather (pointsDims N E gwf) (dinvOf swf hbN hbE tgt) c2) e = (r : EReal) := by
  obtain ⟨e, rfl⟩ : ∃ e' : Fin E, e = ix1 e' := ⟨e 0, eq_ix1 e⟩
  rw [mulf_apply, gather_points_apply hN, gather_points_apply hN]
  obtain ⟨a, ha⟩ := dinv_real swf hbN hbE tgt (ix1 ⟨min (c1 (ix2 e ⟨0, Nat.one_pos⟩)).toInt.toNat (N - 1), by omega⟩)
  obtain ⟨b, hb⟩ := dinv_real swf hbN hbE tgt (ix1 ⟨min (c2 (ix2 e ⟨0, Nat.one_pos⟩)).toInt.toNat (N - 1), by omega⟩)
  exact ⟨a * b, by rw [ha, hb, EReal.coe_mul]⟩

end

end Cert.Lib.SymNorm

end
-- ==== Proof.KWeights.lean ====
/-
  Every edge weight of the graph is a real number: an in-degree is a count, its reciprocal square root is taken only
  where the count is positive, and a weight is the product of two such factors.
-/
import proofs.«152553_j71683004171209_2_alg».proof.Proof.KGraph
import proofs.«152553_j71683004171209_2_alg».proof.Proof.LibSymNorm

noncomputable section

namespace Cert.KernelIdeal.Graph

open Cert.KernelIdeal Idealize.ShloMosaic Idealize.ShloMosaic.ValueIdx
open Facts₀ Facts

/-- The weights are real. -/
theorem wgt_real (ei : IVec S2x800000 32) (e : S900000.Idx) : ∃ r : ℝ, wgtVec ei e = (r : EReal) :=
  Cert.Lib.SymNorm.symNorm_real scatter_S100000_S900000x1_S900000_n_0_0_1_wf bcast_S_S100000 bcast_S_S900000 (col (tgtVec ei))
    (by decide : 0 < 100000) gather_S100000_S900000x1_S900000_n_0_n_n_0_1_1_wf (col (wrapNeg (srcVec ei))) (col (wrapNeg (tgtVec ei))) e

end Cert.KernelIdeal.Graph

end
-- ==== Proof.LibGram.lean ====
/-
  Readings, at an entry, of the operations a table of distances between the rows of two arrays is built from, for any
  sizes.

  The squared distance between row `a` of one array and row `b` of another is the sum of the two rows' squared norms
  minus twice their inner product. A kernel keeps the first array's squared norms as a column (a length-`a` vector cast
  to `a × 1`), and takes the inner products by a matrix product that contracts one axis of each operand. The lemmas
  below read these two operations at an entry; the last one is the law by which halving a negated number is multiplying
  the number by minus one half, on every extended real.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.Gram

open Idealize.ShloMosaic Idealize.ShloMosaic.ValueIdx

variable {α : Type}

/-- A length-`a` vector cast to an `a × 1` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix product accumulated into zero whose dimension numbers contract ONE axis, of extent `k`, reads at an
    output entry `j` the sum over that axis's coordinate `c` of the products of the two operands at the entries
    `li c` and `ri c` the dimension numbers pair with `j` and `c`. -/
theorem matmul_zero_single_apply {sl sr so : Shape} {φ₁ φ₂ : FTy} (D : DotDims sl sr so) (k : ℕ)
    (hrank : D.contr.rank = 1) (hsize : D.contr.size ⟨0, by omega⟩ = k) (prec : Option ContractPrecision)
    (A : FVec Ideal sl φ₁) (B : FVec Ideal sr φ₂) (j : so.Idx) (li : Fin k → sl.Idx) (ri : Fin k → sr.Idx)
    (hl : ∀ c, D.lhsIdx j ((contrEquiv1 D k hrank hsize).symm c) = li c)
    (hr : ∀ c, D.rhsIdx j ((contrEquiv1 D k hrank hsize).symm c) = ri c) :
    matmul D prec A B (constant so .f32 0x00000000#32) j = ∑ c : Fin k, A (li c) * B (ri c) := by
  show FloatOps.matmul D prec A B _ j = _
  rw [Ideal.matmul_constant_zero_apply, ← Equiv.sum_comp (contrEquiv1 D k hrank hsize).symm]
  exact Finset.sum_congr rfl fun c _ => by rw [hl c, hr c]

/-- Halving the negation of an extended real is multiplying it by minus one half: division by the real `2` is the
    product with `1/2`, and a sign moves freely across a product — also at the two infinities. -/
theorem div_neg_two (d : EReal) : Ideal.div (-d) ((2 : ℝ) : EReal) = d * ((-(1 / 2) : ℝ) : EReal) := by
  rw [Ideal.div_coe (by norm_num : (2 : ℝ) ≠ 0), EReal.coe_neg, mul_neg, neg_mul]

end Cert.Lib.Gram

end
-- ==== Proof.Region0.lean ====
/-
  The first pipelined product, as one function of its two argument arrays.

  A table of 100000 rows and 128 columns is cut into ten blocks of 10000 rows; at grid point `t` the program multiplies
  block `t` by the whole 128 × 64 weight matrix (a matrix product accumulated into zero) and writes the result to block
  `t` of the 100000 × 64 result. Read at an entry, each block's product is the sum over the shared axis; the blocks
  are rows `10000 t … 10000 t + 9999` of the table and tile the result, so the result array ends holding the product of
  the whole table with the weight matrix.
-/
import proofs.«152553_j71683004171209_2_alg».proof.Proof.Gen.KernelIdeal.Frame
import proofs.«152553_j71683004171209_2_alg».proof.Proof.Spec
import proofs.«152553_j71683004171209_2_alg».proof.Proof.LibEdgePass
import proofs.«152553_j71683004171209_2_alg».proof.Proof.LibGram
import proofs.«152553_j71683004171209_2_alg».proof.Proof.LibHostForms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open Facts₀ Facts

variable (V : (c : Dev nD) → (b : Ref sig .tc) → Buf (Elt Ideal) ((c : Thread nD τ).loc b))

theorem zero_off2 : (![0, 0] : Fin 2 → Nat) = fun _ => 0 := funext fun a => by fin_cases a <;> rfl

/-- The first kernel's product at an entry: the sum over the shared axis. -/
theorem k0_pay1_apply (x0 : Vec Ideal S10000x128 .f32) (x1 : Vec Ideal S128x64 .f32) (p : Fin 10000) (q : Fin 64) :
    k0_pay1 x0 x1 (ix2 p q) = ∑ c : Fin 128, x0 (ix2 p c) * x1 (ix2 c q) := by
  unfold k0_pay1
  refine Cert.Lib.Gram.matmul_zero_single_apply dot_S10000x128_S128x64_S10000x64_1_0_0_1_n_n 128 rfl rfl none x0 x1
    (ix2 p q) (fun c => ix2 p c) (fun c => ix2 c q) (fun c => ?_) (fun c => ?_)
  · have hk := contrEquiv1_symm_val dot_S10000x128_S128x64_S10000x64_1_0_0_1_n_n 128 rfl rfl c
    exact funext fun ax => Fin.ext (by
      match ax with
      | ⟨0, _⟩ => rfl
      | ⟨1, _⟩ => exact (dot_S10000x128_S128x64_S10000x64_1_0_0_1_n_n.lhsIdx_val_of_single rfl (ix2 p q) _).trans hk)
  · have hk := contrEquiv1_symm_val dot_S10000x128_S128x64_S10000x64_1_0_0_1_n_n 128 rfl rfl c
    exact funext fun ax => Fin.ext (by
      match ax with
      | ⟨0, _⟩ => exact (dot_S10000x128_S128x64_S10000x64_1_0_0_1_n_n.rhsIdx_val_of_single rfl (ix2 p q) _).trans hk
      | ⟨1, _⟩ => rfl)

/-- The product at an entry of a block whose rows are rows of a table `A` and whose weight block is `B` is the
    product of `A` and `B` at the table's row. -/
theorem k0_pay1_eq_mm (x0 : Vec Ideal S10000x128 .f32) (x1 : Vec Ideal S128x64 .f32)
    (A : S100000x128.Idx → EReal) (B : S128x64.Idx → EReal) (p : Fin 10000) (q : Fin 64) (r : Fin 100000)
    (h0 : ∀ k, x0 (ix2 p k) = A (ix2 r k)) (h1 : ∀ k, x1 (ix2 k q) = B (ix2 k q)) :
    k0_pay1 x0 x1 (ix2 p q) = Cert.Lib.EdgePass.mm A B (ix2 r q) := by
  refine (k0_pay1_apply x0 x1 p q).trans ?_
  show _ = ∑ k : Fin 128, A (ix2 r k) * B (ix2 k q)
  exact Finset.sum_congr rfl fun k _ => by rw [h0 k, h1 k]

/-- The block indices of the three windows at each of the ten grid points: the row-blocked windows sit at block
    `t` of the rows and block 0 of the columns, the weight window at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- Block `t` of the table is its rows `10000 t … 10000 t + 9999`. -/
theorem iblk0_0_apply (c : Dev nD) (t : Fin cfg0.N) (p : Fin 10000) (k : Fin 128) (h : 10000 * t.val + p.val < 100000) :
    (iblk0 V c 0 t : Vec Ideal S10000x128 .f32) (ix2 p k)
      = (V c main_arg0 : S100000x128.Idx → EReal) (ix2 ⟨10000 * t.val + p.val, h⟩ k) := by
  obtain ⟨e0, e1, -⟩ := idx_facts0 t
  show V c main_arg0 (((cfg0.win 0).blk t).view.emb (ix2 p k)) = _
  refine congrArg (V c main_arg0) (funext fun a => Fin.ext ?_)
  match a with
  | ⟨0, _⟩ => show win0_0.index t (0 : Fin 2) * 10000 + 1 * p.val = 10000 * t.val + p.val; rw [e0]; omega
  | ⟨1, _⟩ => show win0_0.index t (1 : Fin 2) * 128 + 1 * k.val = k.val; rw [e1]; omega

/-- The weight window's block is the whole matrix at every point. -/
theorem iblk0_1_apply (c : Dev nD) (t : Fin cfg0.N) (k : Fin 128) (q : Fin 64) :
    (iblk0 V c 1 t : Vec Ideal S128x64 .f32) (ix2 k q) = (V c main_arg2 : S128x64.Idx → EReal) (ix2 k q) := by
  obtain ⟨-, -, e0, e1, -⟩ := idx_facts0 t
  show V c main_arg2 (((cfg0.win 1).blk t).view.emb (ix2 k q)) = _
  refine congrArg (V c main_arg2) (funext fun a => Fin.ext ?_)
  match a with
  | ⟨0, _⟩ => show win0_1.index t (0 : Fin 2) * 128 + 1 * k.val = k.val; rw [e0]; omega
  | ⟨1, _⟩ => show win0_1.index t (1 : Fin 2) * 64 + 1 * q.val = q.val; rw [e1]; omega

/-- An entry of the result's block `t` sits in the result at row `10000 t + p`. -/
theorem oblk0_emb (t : Fin cfg0.N) (p : Fin 10000) (q : Fin 64) (h : 10000 * t.val + p.val < 100000) :
    (((cfg0.win 2).blk t).view.emb (ix2 p q) : S100000x64.Idx) = ix2 ⟨10000 * t.val + p.val, h⟩ q := by
  obtain ⟨-, -, -, -, e0, e1, -⟩ := idx_facts0 t
  refine funext fun a => Fin.ext ?_
  match a with
  | ⟨0, _⟩ => show win0_2.index t (0 : Fin 2) * 10000 + 1 * p.val = 10000 * t.val + p.val; rw [e0]; omega
  | ⟨1, _⟩ => show win0_2.index t (1 : Fin 2) * 64 + 1 * q.val = q.val; rw [e1]; omega

/-- What point `t` writes back is block `t` of the product of the two argument arrays. -/
theorem flushed0_eq (c : Dev nD) (t : Fin cfg0.N) :
    (dat0 (F := Ideal) V c).flushed 2 t = ((cfg0.win 2).blk t).view.read (Elt Ideal)
      (Cert.Lib.EdgePass.mm (V c main_arg0 : S100000x128.Idx → EReal) (V c main_arg2 : S128x64.Idx → EReal)) := by
  show (cfg0.win 2).cut (grid0.coords t) ((dat0 V c).after 2 t) = _
  rw [after0_2]
  unfold out0_2
  rw [View.canon_unit_zero zero_off2]
  simp only [View.ld_unit_zero (S := S10000x128) zero_off2, View.ld_unit_zero (S := S128x64) zero_off2]
  refine funext fun (j : S10000x64.Idx) => ?_
  obtain ⟨p, q, rfl⟩ : ∃ (p : Fin 10000) (q : Fin 64), j = ix2 p q := ⟨j 0, j 1, eq_ix2 j⟩
  have ht : t.val < 10 := (idx_facts0 t).2.2.2.2.2.2
  have hp : p.val < 10000 := p.isLt
  have h : 10000 * t.val + p.val < 100000 := by omega
  show k0_pay1 (iblk0 V c 0 t) (iblk0 V c 1 t) (ix2 p q)
    = Cert.Lib.EdgePass.mm (V c main_arg0 : S100000x128.Idx → EReal) (V c main_arg2 : S128x64.Idx → EReal)
        (((cfg0.win 2).blk t).view.emb (ix2 p q))
  rw [oblk0_emb t p q h]
  exact k0_pay1_eq_mm _ _ _ _ p q ⟨_, h⟩ (fun k => iblk0_0_apply V c t p k h) (fun k => iblk0_1_apply V c t k q)

/-- An index of the result lies in point `t`'s block iff each coordinate lies in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v31).slice (win0_2.rect t)).set ↔ _
  rw [View.set_slice_whole, Rect.mem_set_unit]
  exact Iff.rfl

/-- Row `r` of the result lies in the block of point `r / 10000`. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨-, -, -, -, e0, e1, -⟩ := idx_facts0 t
  have e0' : win0_2.index t (0 : Fin 2) = (i 0).val / 10000 := e0
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; rw [e0']; omega
  | ⟨1, _⟩ => show win0_2.index t (1 : Fin 2) * 64 ≤ (i 1).val ∧ (i 1).val < win0_2.index t (1 : Fin 2) * 64 + 64; rw [e1]; omega

/-- REGION 0: the result array ends holding the product of the table and the first weight matrix. -/
theorem region0 (c : Dev nD) :
    (dat0 (F := Ideal) V c).arrAt 2 cfg0.N
      = Cert.Lib.EdgePass.mm (V c main_arg0 : S100000x128.Idx → EReal) (V c main_arg2 : S128x64.Idx → EReal) :=
  (dat0 (F := Ideal) V c).arrAt_eq_of_cover 2 _ (fun t _ => flushed0_eq V c t) cover0

end Cert.KernelIdeal.RegionValue

end
-- ==== Proof.Region1.lean ====
/-
  The second pipelined product, as one function of its three argument arrays.

  A table of 100000 rows and 64 columns is cut into ten blocks of 10000 rows; at grid point `t` the program adds a bias
  row to every row of block `t`, rectifies entry by entry, multiplies by the whole 64 × 40 weight matrix (a matrix
  product accumulated into zero) and writes the result to block `t` of the 100000 × 40 result. Read at an entry, each
  block's result is the sum over the shared axis of the rectified biased entries times the weights; the blocks are rows
  `10000 t … 10000 t + 9999` of the table and tile the result, so the result array ends holding the product of the
  rectified biased table with the weight matrix.
-/
import proofs.«152553_j71683004171209_2_alg».proof.Proof.Gen.KernelIdeal.Frame
import proofs.«152553_j71683004171209_2_alg».proof.Proof.Spec
import proofs.«152553_j71683004171209_2_alg».proof.Proof.LibEdgePass
import proofs.«152553_j71683004171209_2_alg».proof.Proof.LibGram
import proofs.«152553_j71683004171209_2_alg».proof.Proof.LibHostForms
import proofs.«152553_j71683004171209_2_alg».proof.Proof.Region0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open Facts₀ Facts

variable (V : (c : Dev nD) → (b : Ref sig .tc) → Buf (Elt Ideal) ((c : Thread nD τ).loc b))

theorem zero_off1 : (![0] : Fin 1 → Nat) = fun _ => 0 := funext fun a => by fin_cases a; rfl

/-- The second kernel's result at an entry: the block plus the bias row, rectified, times the weight matrix — the sum
    over the shared axis. -/
theorem k1_pay1_apply (x0 : Vec Ideal S10000x64 .f32) (x1 : Vec Ideal S64 .f32) (x2 : Vec Ideal S64x40 .f32)
    (p : Fin 10000) (q : Fin 40) :
    k1_pay1 x0 x1 x2 (ix2 p q) = ∑ c : Fin 64, max (x0 (ix2 p c) + x1 (ix1 c)) 0 * x2 (ix2 c q) := by
  unfold k1_pay1
  refine (Cert.Lib.Gram.matmul_zero_single_apply dot_S10000x64_S64x40_S10000x40_1_0_0_1_n_n 64 rfl rfl none _ x2
    (ix2 p q) (fun c => ix2 p c) (fun c => ix2 c q) (fun c => ?_) (fun c => ?_)).trans ?_
  · have hk := contrEquiv1_symm_val dot_S10000x64_S64x40_S10000x40_1_0_0_1_n_n 64 rfl rfl c
    exact funext fun ax => Fin.ext (by
      match ax with
      | ⟨0, _⟩ => rfl
      | ⟨1, _⟩ => exact (dot_S10000x64_S64x40_S10000x40_1_0_0_1_n_n.lhsIdx_val_of_single rfl (ix2 p q) _).trans hk)
  · have hk := contrEquiv1_symm_val dot_S10000x64_S64x40_S10000x40_1_0_0_1_n_n 64 rfl rfl c
    exact funext fun ax => Fin.ext (by
      match ax with
      | ⟨0, _⟩ => exact (dot_S10000x64_S64x40_S10000x40_1_0_0_1_n_n.rhsIdx_val_of_single rfl (ix2 p q) _).trans hk
      | ⟨1, _⟩ => rfl)
  · refine Finset.sum_congr rfl fun c _ => ?_
    refine congrArg (· * x2 (ix2 c q)) ?_
    show max (shapeCast S10000x64 x0 Facts₀.shapeCasts_S10000x64_S10000x64 (ix2 p c)
        + broadcastTo S10000x64 (shapeCast S1x64 x1 Facts₀.shapeCasts_S64_S1x64) Facts₀.broadcasts_S1x64_S10000x64 (ix2 p c))
        (Ideal.ofBits .f32 0x00000000#32) = _
    rw [shapeCast_self, broadcastTo_1b_ab_apply, shapeCast_a_1a_apply, Ideal.ofBits_zero_f32]

/-- The result at an entry of a block whose rows are rows of a table `A`, with bias `b` and weight matrix `W`, is the
    product of the rectified biased table with `W` at the table's row. -/
theorem k1_pay1_eq_mm (x0 : Vec Ideal S10000x64 .f32) (x1 : Vec Ideal S64 .f32) (x2 : Vec Ideal S64x40 .f32)
    (A : S100000x64.Idx → EReal) (b : S64.Idx → EReal) (W : S64x40.Idx → EReal) (p : Fin 10000) (q : Fin 40) (r : Fin 100000)
    (h0 : ∀ k, x0 (ix2 p k) = A (ix2 r k)) (h1 : ∀ k, x1 (ix1 k) = b (ix1 k)) (h2 : ∀ k, x2 (ix2 k q) = W (ix2 k q)) :
    k1_pay1 x0 x1 x2 (ix2 p q) = Cert.Lib.EdgePass.mm (Cert.Spec.relu0 (Cert.Spec.addRow A b)) W (ix2 r q) := by
  refine (k1_pay1_apply x0 x1 x2 p q).trans ?_
  show _ = ∑ k : Fin 64, max (A (ix2 r k) + b (ix1 k)) 0 * W (ix2 k q)
  exact Finset.sum_congr rfl fun k _ => by rw [h0 k, h1 k, h2 k]

/-- The block indices of the four windows at each of the ten grid points: the row-blocked windows sit at block `t` of
    the rows and block 0 of the columns, the bias and weight windows at block 0. -/
theorem idx_facts1 : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 ∧ t.val < 10 :=
  (by decide +kernel : ∀ t : Fin grid1.N, _)

/-- Block `t` of the table is its rows `10000 t … 10000 t + 9999`. -/
theorem iblk1_0_apply (c : Dev nD) (t : Fin cfg1.N) (p : Fin 10000) (k : Fin 64) (h : 10000 * t.val + p.val < 100000) :
    (iblk1 V c 0 t : Vec Ideal S10000x64 .f32) (ix2 p k)
      = (V c main_v44 : S100000x64.Idx → EReal) (ix2 ⟨10000 * t.val + p.val, h⟩ k) := by
  obtain ⟨e0, e1, -⟩ := idx_facts1 t
  show V c main_v44 (((cfg1.win 0).blk t).view.emb (ix2 p k)) = _
  refine congrArg (V c main_v44) (funext fun a => Fin.ext ?_)
  match a with
  | ⟨0, _⟩ => show win1_0.index t (0 : Fin 2) * 10000 + 1 * p.val = 10000 * t.val + p.val; rw [e0]; omega
  | ⟨1, _⟩ => show win1_0.index t (1 : Fin 2) * 64 + 1 * k.val = k.val; rw [e1]; omega

/-- The bias window's block is the whole vector at every point. -/
theorem iblk1_1_apply (c : Dev nD) (t : Fin cfg1.N) (k : Fin 64) :
    (iblk1 V c 1 t : Vec Ideal S64 .f32) (ix1 k) = (V c main_arg3 : S64.Idx → EReal) (ix1 k) := by
  obtain ⟨-, -, e0, -⟩ := idx_facts1 t
  show V c main_arg3 (((cfg1.win 1).blk t).view.emb (ix1 k)) = _
  refine congrArg (V c main_arg3) (funext fun a => Fin.ext ?_)
  match a with
  | ⟨0, _⟩ => show win1_1.index t (0 : Fin 1) * 64 + 1 * k.val = k.val; rw [e0]; omega

/-- The weight window's block is the whole matrix at every point. -/
theorem iblk1_2_apply (c : Dev nD) (t : Fin cfg1.N) (k : Fin 64) (q : Fin 40) :
    (iblk1 V c 2 t : Vec Ideal S64x40 .f32) (ix2 k q) = (V c main_arg4 : S64x40.Idx → EReal) (ix2 k q) := by
  obtain ⟨-, -, -, e0, e1, -⟩ := idx_facts1 t
  show V c main_arg4 (((cfg1.win 2).blk t).view.emb (ix2 k q)) = _
  refine congrArg (V c main_arg4) (funext fun a => Fin.ext ?_)
  match a with
  | ⟨0, _⟩ => show win1_2.index t (0 : Fin 2) * 64 + 1 * k.val = k.val; rw [e0]; omega
  | ⟨1, _⟩ => show win1_2.index t (1 : Fin 2) * 40 + 1 * q.val = q.val; rw [e1]; omega

/-- An entry of the result's block `t` sits in the result at row `10000 t + p`. -/
theorem oblk1_emb (t : Fin cfg1.N) (p : Fin 10000) (q : Fin 40) (h : 10000 * t.val + p.val < 100000) :
    (((cfg1.win 3).blk t).view.emb (ix2 p q) : S100000x40.Idx) = ix2 ⟨10000 * t.val + p.val, h⟩ q := by
  obtain ⟨-, -, -, -, -, e0, e1, -⟩ := idx_facts1 t
  refine funext fun a => Fin.ext ?_
  match a with
  | ⟨0, _⟩ => show win1_3.index t (0 : Fin 2) * 10000 + 1 * p.val = 10000 * t.val + p.val; rw [e0]; omega
  | ⟨1, _⟩ => show win1_3.index t (1 : Fin 2) * 40 + 1 * q.val = q.val; rw [e1]; omega

/-- What point `t` writes back is block `t` of the product of the rectified biased table with the weight matrix. -/
theorem flushed1_eq (c : Dev nD) (t : Fin cfg1.N) :
    (dat1 (F := Ideal) V c).flushed 3 t = ((cfg1.win 3).blk t).view.read (Elt Ideal)
      (Cert.Lib.EdgePass.mm (Cert.Spec.relu0 (Cert.Spec.addRow (V c main_v44 : S100000x64.Idx → EReal)
        (V c main_arg3 : S64.Idx → EReal))) (V c main_arg4 : S64x40.Idx → EReal)) := by
  show (cfg1.win 3).cut (grid1.coords t) ((dat1 V c).after 3 t) = _
  rw [after1_3]
  unfold out1_3
  rw [View.canon_unit_zero zero_off2]
  simp only [View.ld_unit_zero (S := S10000x64) zero_off2, View.ld_unit_zero (S := S64) zero_off1,
    View.ld_unit_zero (S := S64x40) zero_off2]
  refine funext fun (j : S10000x40.Idx) => ?_
  obtain ⟨p, q, rfl⟩ : ∃ (p : Fin 10000) (q : Fin 40), j = ix2 p q := ⟨j 0, j 1, eq_ix2 j⟩
  have ht : t.val < 10 := (idx_facts1 t).2.2.2.2.2.2.2
  have hp : p.val < 10000 := p.isLt
  have h : 10000 * t.val + p.val < 100000 := by omega
  show k1_pay1 (iblk1 V c 0 t) (iblk1 V c 1 t) (iblk1 V c 2 t) (ix2 p q)
    = Cert.Lib.EdgePass.mm (Cert.Spec.relu0 (Cert.Spec.addRow (V c main_v44 : S100000x64.Idx → EReal)
        (V c main_arg3 : S64.Idx → EReal))) (V c main_arg4 : S64x40.Idx → EReal)
        (((cfg1.win 3).blk t).view.emb (ix2 p q))
  rw [oblk1_emb t p q h]
  exact k1_pay1_eq_mm _ _ _ _ _ _ p q ⟨_, h⟩ (fun k => iblk1_0_apply V c t p k h) (fun k => iblk1_1_apply V c t k)
    (fun k => iblk1_2_apply V c t k q)

/-- An index of the result lies in point `t`'s block iff each coordinate lies in the block's range on its axis. -/
theorem mem_blk1 (t : Fin cfg1.N) (i : S100000x40.Idx) :
    i ∈ ((cfg1.win 3).blk t).view.set ↔ ∀ a : Fin 2, win1_3.index t a * S10000x40.size a ≤ (i a).val ∧ (i a).val < win1_3.index t a * S10000x40.size a + S10000x40.size a := by
  show i ∈ ((View.whole main_v45).slice (win1_3.rect t)).set ↔ _
  rw [View.set_slice_whole, Rect.mem_set_unit]
  exact Iff.rfl

/-- Row `r` of the result lies in the block of point `r / 10000`. -/
theorem cover1 (i : S100000x40.Idx) : ∃ t : Fin cfg1.N, (cfg1.win 3).flush t = true ∧ i ∈ ((cfg1.win 3).blk t).view.set := by
  have hi0 : (i 0).val < 100000 := (i 0).isLt
  have hi1 : (i 1).val < 40 := (i 1).isLt
  have hN : cfg1.N = 10 := N_1
  let t : Fin cfg1.N := ⟨(i 0).val / 10000, by rw [hN]; omega⟩
  obtain ⟨-, -, -, -, -, e0, e1, -⟩ := idx_facts1 t
  have e0' : win1_3.index t (0 : Fin 2) = (i 0).val / 10000 := e0
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; rw [e0']; omega
  | ⟨1, _⟩ => show win1_3.index t (1 : Fin 2) * 40 ≤ (i 1).val ∧ (i 1).val < win1_3.index t (1 : Fin 2) * 40 + 40; rw [e1]; omega

/-- REGION 1: the result array ends holding the rectified biased table times the second weight matrix. -/
theorem region1 (c : Dev nD) :
    (dat1 (F := Ideal) V c).arrAt 3 cfg1.N
      = Cert.Lib.EdgePass.mm (Cert.Spec.relu0 (Cert.Spec.addRow (V c main_v44 : S100000x64.Idx → EReal)
          (V c main_arg3 : S64.Idx → EReal))) (V c main_arg4 : S64x40.Idx → EReal) :=
  (dat1 (F := Ideal) V c).arrAt_eq_of_cover 3 _ (fun t _ => flushed1_eq V c t) cover1

end Cert.KernelIdeal.RegionValue

end
-- ==== Proof.LibRowMax.lean ====
/-
  General lemmas about a row-wise maximum over the extended reals.
-/
import Idealize.ShloMosaic.Lib.Pipeline.Value
import Idealize.ShloMosaic.Lib.ValueIdx
import Idealize.ShloMosaic.PureOps.Ideal.Laws

noncomputable section

namespace Cert.Lib.RowMax

open Idealize.ShloMosaic Idealize.ShloMosaic.ValueIdx

/-- A maximum along the lanes of an `n × k` array taken from the word of `-∞` reads, at row `r`, the fold of `max` from
    that word over the row's `k` entries (in any order: `max` commutes and associates). -/
theorem laneMax_apply {n k : ℕ} (src : FVec Ideal ⟨2, ![n, k]⟩ .f32) (h : (⟨2, ![n, k]⟩ : Shape).Reduces [1] ⟨1, ![n]⟩)
    (hφ : FKind.Formats .f32) (hacc : (0xFF800000#32 : BitVec 32) = 0xFF800000#32) (r : Fin n) :
    multiReduction .maximumf [1] ⟨1, ![n]⟩ src 0xFF800000#32 h hφ hacc (ix1 r)
      = (Finset.univ : Finset (Fin k)).fold max (Ideal.ofBits .f32 0xFF800000#32) (fun c => src (ix2 r c)) := by
  refine (Ideal.multiReduction_maximumf_single src 0xFF800000#32 h hφ hacc (ix1 r)).trans ?_
  refine congrArg (fun f => (Finset.univ : Finset (Fin k)).fold max (Ideal.ofBits .f32 0xFF800000#32) f) (funext fun c => ?_)
  exact congrArg src (funext fun ax => Fin.ext (by
    match ax with
    | ⟨0, _⟩ => rfl
    | ⟨1, _⟩ => rfl))

/-- The exponential of a vector read at an entry. -/
theorem exp_apply {s : Shape} {φ : FTy} (x : FVec Ideal s φ) (i : s.Idx) : exp x i = Ideal.exp (x i) := rfl

/-- The host's exponential of a vector read at an entry: the same function. -/
theorem hostExp_apply {s : Shape} {φ : FTy} (x : FVec Ideal s φ) (i : s.Idx) : Host.exp x i = Ideal.exp (x i) := rfl

/-- The word `0xFF800000` is the bottom of the extended reals, so a maximum against it is the other operand. -/
theorem max_negInf (y : EReal) : max (Ideal.ofBits .f32 0xFF800000#32) y = y := by
  have h : Ideal.ofBits .f32 0xFF800000#32 = (⊥ : EReal) := by simp [Ideal.ofBits, Ideal.ieee]
  rw [h, max_eq_right bot_le]

end Cert.Lib.RowMax

end
-- ==== Proof.LibRowOps.lean ====
/-
  Two readings, at an entry, of operations on the rows of a matrix, for any sizes.

  A sum along the lanes of an `n × k` array gives one number per row: at row `r` it is the sum of that row's `k`
  entries.  An `a × 1` column spread over `b` lanes repeats each row's one entry along the row: at `(p, c)` it reads
  the column's entry of row `p`, whatever the lane `c` (also when `a = 1`).
-/
import Idealize.ShloMosaic.Lib.Pipeline.Value
import Idealize.ShloMosaic.Lib.ValueIdx
import Idealize.ShloMosaic.PureOps.Ideal.Laws

noncomputable section

open scoped BigOperators

namespace Cert.Lib.RowOps

open Idealize.ShloMosaic Idealize.ShloMosaic.ValueIdx

/-- A sum along the lanes of an `n × k` array from the zero word reads, at row `r`, the sum of that row's entries. -/
theorem laneSum_apply {n k : ℕ} (src : FVec Ideal ⟨2, ![n, k]⟩ .f32) (h : (⟨2, ![n, k]⟩ : Shape).Reduces [1] ⟨1, ![n]⟩)
    (hφ : FKind.Formats .f32) (hacc : (0x00000000#32 : BitVec 32) = 0x00000000#32) (r : Fin n) :
    multiReduction .add [1] ⟨1, ![n]⟩ src 0x00000000#32 h hφ hacc (ix1 r) = ∑ c : Fin k, src (ix2 r c) := by
  refine (Ideal.multiReduction_add_single src 0x00000000#32 h hφ hacc (ix1 r)).trans ?_
  exact Finset.sum_congr rfl fun c _ => congrArg src (funext fun ax => Fin.ext (by
    match ax with
    | ⟨0, _⟩ => rfl
    | ⟨1, _⟩ => rfl))

/-- An `a × 1` column spread over `b` lanes reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.RowOps

end
-- ==== Proof.Region2.lean ====
/-
  The value of the third region's output table: every grid point writes back a block of 10000 rows of the
  row-wise log-softmax of the entry table plus the bias row, and the ten blocks tile the table.
-/
import proofs.«152553_j71683004171209_2_alg».proof.Proof.Gen.KernelIdeal.Frame
import proofs.«152553_j71683004171209_2_alg».proof.Proof.Spec
import proofs.«152553_j71683004171209_2_alg».proof.Proof.LibRowMax
import proofs.«152553_j71683004171209_2_alg».proof.Proof.LibRowOps
import proofs.«152553_j71683004171209_2_alg».proof.Proof.LibGram
import proofs.«152553_j71683004171209_2_alg».proof.Proof.LibHostForms
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Idealize.ShloMosaic Idealize.ShloMosaic.ValueIdx Idealize.ShloMosaic.TcCoe Idealize.SL.Sem
open Idealize.ShloMosaic.Pipeline (Dat)
open Cert.KernelIdeal Cert.KernelIdeal.Gen

/-- The word 0xFF800000 denotes −∞. -/
theorem ofBits_negInf : Ideal.ofBits .f32 0xFF800000#32 = (⊥ : EReal) := by
  simp [Ideal.ofBits, Ideal.ieee]

/-- A row-wise log-softmax of an n × k block, read at (p, q): with r the block's row p and top a value every
    entry of row p of the spread maximum column B equals, the entry is (r q − top) − log Σ exp (r c − top). -/
theorem block_logsoftmax {n k : ℕ} (y B : FVec Ideal ⟨2, ![n, k]⟩ .f32) (p : Fin n) (r : Fin k → EReal) (top : EReal)
    (hy : ∀ c, y (ix2 p c) = r c) (hB : ∀ c, B (ix2 p c) = top)
    (hr : (⟨2, ![n, k]⟩ : Shape).Reduces [1] ⟨1, ![n]⟩) (hc : (⟨1, ![n]⟩ : Shape).ShapeCasts ⟨2, ![n, 1]⟩)
    (hb : (⟨2, ![n, 1]⟩ : Shape).Broadcasts ⟨2, ![n, k]⟩) (hφ : FKind.Formats .f32)
    (hz : (0x00000000#32 : BitVec 32) = 0x00000000#32) (q : Fin k) :
    subf (subf y B) (broadcastTo ⟨2, ![n, k]⟩ (log (shapeCast ⟨2, ![n, 1]⟩
        (multiReduction .add [1] ⟨1, ![n]⟩ (exp (subf y B)) 0x00000000#32 hr hφ hz) hc)) hb) (ix2 p q)
      = (r q - top) - Ideal.log (∑ c : Fin k, Ideal.exp (r c - top)) := by
  have hlog : broadcastTo ⟨2, ![n, k]⟩ (log (shapeCast ⟨2, ![n, 1]⟩
        (multiReduction .add [1] ⟨1, ![n]⟩ (exp (subf y B)) 0x00000000#32 hr hφ hz) hc)) hb (ix2 p q)
      = Ideal.log (∑ c : Fin k, Ideal.exp (r c - top)) := by
    rw [Cert.Lib.RowOps.broadcastTo_a1_ab_apply]
    show Ideal.log (shapeCast ⟨2, ![n, 1]⟩ _ hc (ix2 p (0 : Fin 1))) = _
    rw [Cert.Lib.Gram.shapeCast_a_a1_apply, Cert.Lib.RowOps.laneSum_apply]
    refine congrArg Ideal.log (Finset.sum_congr rfl fun c _ => ?_)
    show Ideal.exp (y (ix2 p c) - B (ix2 p c)) = _
    rw [hy c, hB c]
  show (y (ix2 p q) - B (ix2 p q)) - _ = _
  rw [hy q, hB q, hlog]

/-- A block plus a bias row spread over its rows, read at (p, c). -/
theorem biasRow_apply {n k : ℕ} (x0 : FVec Ideal ⟨2, ![n, k]⟩ .f32) (x1 : FVec Ideal ⟨1, ![k]⟩ .f32)
    (h1 : (⟨2, ![n, k]⟩ : Shape).ShapeCasts ⟨2, ![n, k]⟩) (h2 : (⟨1, ![k]⟩ : Shape).ShapeCasts ⟨2, ![1, k]⟩)
    (h3 : (⟨2, ![1, k]⟩ : Shape).Broadcasts ⟨2, ![n, k]⟩) (p : Fin n) (c : Fin k) :
    addf (shapeCast ⟨2, ![n, k]⟩ x0 h1) (broadcastTo ⟨2, ![n, k]⟩ (shapeCast ⟨2, ![1, k]⟩ x1 h2) h3) (ix2 p c)
      = (x0 (ix2 p c) + x1 (ix1 c) : EReal) := by
  show (shapeCast ⟨2, ![n, k]⟩ x0 h1 (ix2 p c) : EReal) + broadcastTo ⟨2, ![n, k]⟩ _ h3 (ix2 p c) = _
  rw [shapeCast_self, broadcastTo_1b_ab_apply, shapeCast_a_1a_apply]

/-- The body's payload at (p, q): the log-softmax of the row p of the block plus the bias row. -/
theorem pay_apply (x0 : Vec Ideal S10000x40 .f32) (x1 : Vec Ideal S40 .f32) (p : Fin 10000) (q : Fin 40) :
    (k2_pay1 x0 x1 (ix2 p q) : EReal)
      = ((x0 (ix2 p q) + x1 (ix1 q))
          - (Finset.univ : Finset (Fin 40)).fold max (⊥ : EReal) (fun c => x0 (ix2 p c) + x1 (ix1 c)))
        - Ideal.log (∑ c : Fin 40, Ideal.exp ((x0 (ix2 p c) + x1 (ix1 c))
          - (Finset.univ : Finset (Fin 40)).fold max (⊥ : EReal) (fun c => x0 (ix2 p c) + x1 (ix1 c)))) := by
  unfold k2_pay1
  refine block_logsoftmax _ _ p (fun c => x0 (ix2 p c) + x1 (ix1 c)) _
    (fun c => biasRow_apply x0 x1 _ _ _ p c) (fun c => ?_) _ _ _ _ _ q
  rw [Cert.Lib.RowOps.broadcastTo_a1_ab_apply, Cert.Lib.Gram.shapeCast_a_a1_apply, Cert.Lib.RowMax.laneMax_apply, ofBits_negInf]
  exact congrArg (fun f => (Finset.univ : Finset (Fin 40)).fold max (⊥ : EReal) f)
    (funext fun c => biasRow_apply x0 x1 _ _ _ p c)

/-! ## From blocks to the array -/

theorem hz2 : (![0, 0] : Fin 2 → Nat) = fun _ => 0 := funext fun a => by fin_cases a <;> rfl
theorem hz1 : (![0] : Fin 1 → Nat) = fun _ => 0 := funext fun a => by fin_cases a; rfl

/-- The entry (r, q) of the log-softmax of the table A plus the bias row b, from a block whose row p is the
    table's row r and a bias block that is the bias row. -/
theorem row_eq (A : S100000x40.Idx → EReal) (b : S40.Idx → EReal) (x0 : Vec Ideal S10000x40 .f32) (x1 : Vec Ideal S40 .f32)
    (p : Fin 10000) (q : Fin 40) (r : Fin 100000)
    (h0 : ∀ c : Fin 40, (x0 (ix2 p c) : EReal) = A (ix2 r c)) (h1 : ∀ c : Fin 40, (x1 (ix1 c) : EReal) = b (ix1 c)) :
    (k2_pay1 x0 x1 (ix2 p q) : EReal) = Cert.Spec.logSoftmax (Cert.Spec.addRow A b) (ix2 r q) := by
  rw [pay_apply]
  simp only [h0, h1]
  rfl

/-- The index maps over the grid: point t reads and writes the block of rows 10000·t …, all 40 lanes; the bias
    window is the whole vector at every point. -/
theorem idx_facts : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 ∧ t.val < 10 :=
  (by decide +kernel : ∀ t : Fin grid2.N, _)

variable (V : (c : Dev nD) → (b : Ref sig .tc) → Buf (Elt Ideal) ((c : Thread nD τ).loc b))

/-- Row p of the table's block at point t is row 10000·t + p of the table. -/
theorem iblk2_0_apply (c : Dev nD) (t : Fin cfg2.N) (p : Fin 10000) (q : Fin 40) (r : Fin 100000)
    (hr : r.val = 10000 * t.val + p.val) :
    (iblk2 (F := Ideal) V c 0 t : S10000x40.Idx → EReal) (ix2 p q) = (V c main_v58 : S100000x40.Idx → EReal) (ix2 r q) := by
  unfold iblk2
  rw [View.read_apply]
  show (V c main_v58 : S100000x40.Idx → EReal) _ = _
  refine congrArg _ (funext fun a => Fin.ext ?_)
  match a with
  | ⟨0, _⟩ =>
    show win2_0.index t (0 : Fin 2) * 10000 + 1 * p.val = r.val
    rw [(idx_facts t).1, hr]; omega
  | ⟨1, _⟩ =>
    show win2_0.index t (1 : Fin 2) * 40 + 1 * q.val = q.val
    rw [(idx_facts t).2.1]; omega

/-- The bias block at every point is the bias vector. -/
theorem iblk2_1_apply (c : Dev nD) (t : Fin cfg2.N) (q : Fin 40) :
    (iblk2 (F := Ideal) V c 1 t : S40.Idx → EReal) (ix1 q) = (V c main_arg5 : S40.Idx → EReal) (ix1 q) := by
  unfold iblk2
  rw [View.read_apply]
  show (V c main_arg5 : S40.Idx → EReal) _ = _
  refine congrArg _ (funext fun a => Fin.ext ?_)
  match a with
  | ⟨0, _⟩ =>
    show win2_1.index t (0 : Fin 1) * 40 + 1 * q.val = q.val
    rw [(idx_facts t).2.2.1]; omega

/-- The output block at point t sits at rows 10000·t … of the output table. -/
theorem emb2 (t : Fin cfg2.N) (p : Fin 10000) (q : Fin 40) (r : Fin 100000) (hr : r.val = 10000 * t.val + p.val) :
    ((cfg2.win 2).blk t).view.emb (ix2 p q) = (ix2 r q : S100000x40.Idx) := by
  refine funext fun a => Fin.ext ?_
  match a with
  | ⟨0, _⟩ =>
    show win2_2.index t (0 : Fin 2) * 10000 + 1 * p.val = r.val
    rw [(idx_facts t).2.2.2.1, hr]; omega
  | ⟨1, _⟩ =>
    show win2_2.index t (1 : Fin 2) * 40 + 1 * q.val = q.val
    rw [(idx_facts t).2.2.2.2.1]; omega

/-- The table the region leaves: the row-wise log-softmax of the entry table plus the bias row. -/
abbrev G (c : Dev nD) : S100000x40.Idx → EReal :=
  Cert.Spec.logSoftmax (Cert.Spec.addRow (V c main_v58 : S100000x40.Idx → EReal) (V c main_arg5 : S40.Idx → EReal))

/-- What point t writes back is block t of that table. -/
theorem flushed_eq (c : Dev nD) (t : Fin cfg2.N) :
    (dat2 (F := Ideal) V c).flushed 2 t = ((cfg2.win 2).blk t).view.read (Elt Ideal) (G V c) := by
  show (cfg2.win 2).cut (grid2.coords t) ((dat2 (F := Ideal) V c).after 2 t) = _
  rw [after2_2]
  unfold out2_2
  rw [View.canon_unit_zero hz2]
  simp only [View.ld_unit_zero (S := S10000x40) hz2, View.ld_unit_zero (S := S40) hz1]
  refine funext fun (j : S10000x40.Idx) => ?_
  obtain ⟨p, q, rfl⟩ : ∃ (p : Fin 10000) (q : Fin 40), j = ix2 p q := ⟨j 0, j 1, eq_ix2 j⟩
  have ht : t.val < 10 := (idx_facts t).2.2.2.2.2
  have hp : p.val < 10000 := p.isLt
  refine (row_eq (V c main_v58) (V c main_arg5) (iblk2 (F := Ideal) V c 0 t) (iblk2 (F := Ideal) V c 1 t) p q
    ⟨10000 * t.val + p.val, by omega⟩
    (fun c' => iblk2_0_apply V c t p c' _ rfl) (fun c' => iblk2_1_apply V c t c')).trans ?_
  exact congrArg (G V c) (emb2 t p q _ rfl).symm

/-- An index of the table is in point t's block iff each coordinate is in the block's range on its axis. -/
theorem mem_blk (t : Fin cfg2.N) (i : S100000x40.Idx) :
    i ∈ ((cfg2.win 2).blk t).view.set ↔ ∀ a : Fin 2, win2_2.index t a * S10000x40.size a ≤ (i a).val
      ∧ (i a).val < win2_2.index t a * S10000x40.size a + S10000x40.size a := by
  show i ∈ ((View.whole main_v59).slice (win2_2.rect t)).set ↔ _
  rw [View.set_slice_whole, Rect.mem_set_unit]
  exact Iff.rfl

/-- Row r of the table is in the block of point r / 10000. -/
theorem cover (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  have hN : grid2.N = 10 := N_2
  have hlt : (i 0).val / 10000 < grid2.N := by rw [hN]; omega
  refine ⟨⟨(i 0).val / 10000, hlt⟩, flush2_2 _, ?_⟩
  rw [mem_blk]
  obtain ⟨-, -, -, e0, e1, -⟩ := idx_facts ⟨(i 0).val / 10000, hlt⟩
  intro a
  match a with
  | ⟨0, _⟩ =>
    show win2_2.index ⟨(i 0).val / 10000, hlt⟩ (0 : Fin 2) * 10000 ≤ (i 0).val
      ∧ (i 0).val < win2_2.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win2_2.index ⟨(i 0).val / 10000, hlt⟩ (1 : Fin 2) * 40 ≤ (i 1).val
      ∧ (i 1).val < win2_2.index ⟨(i 0).val / 10000, hlt⟩ (1 : Fin 2) * 40 + 40
    rw [e1]; omega

/-- The third region's output table after the region: the log-softmax of its entry table plus the bias row. -/
theorem region2 (c : Dev nD) :
    (dat2 (F := Ideal) V c).arrAt 2 cfg2.N
      = Cert.Spec.logSoftmax (Cert.Spec.addRow (V c main_v58 : S100000x40.Idx → EReal) (V c main_arg5 : S40.Idx → EReal)) :=
  (dat2 (F := Ideal) V c).arrAt_eq_of_cover 2 (G V c) (fun t _ => flushed_eq V c t) cover

end Cert.KernelIdeal.RegionValue
-- ==== Proof.RefGraph.lean ====
/-
  The reference program's run, stretch by stretch: what the buffers that later stretches read hold after each of the ten
  consecutive stretches of its host operations. The graph (source and target positions, a column of each, the
  symmetric-normalisation weight of every edge) is spelt as in the kernel program's graph; the two layers are a
  message-passing step as the host spells it (rows looked up, scaled by the weights, added in at the targets), a matrix
  product and a bias row, the first followed by the rectifier. The argument arrays are never written.
-/
import proofs.«152553_j71683004171209_2_alg».proof.Proof.RefRunPatched
import Idealize.ShloMosaic.Lib.StableHlo.Run
import Idealize.ShloMosaic.PureOps.Ideal

set_option maxRecDepth 16384

noncomputable section

namespace Cert.ReferenceIdeal.RefValue

open Cert.ReferenceIdeal Idealize.ShloMosaic Idealize.ShloMosaic.TcCoe Idealize.SL.Sem Idealize.ShloMosaic.StableHlo
open Facts₀ Facts
open Cert.ReferenceIdeal.ValueP (ops opsS0 opsS1 opsS2 opsS3 opsS4 opsS5 opsS6 opsS7 opsS8 opsS9 ops_split run_raw)

/-- Row `k` of the edge list followed by the node numbers (one self-loop per node). -/
def endVec (k : Fin 2 → Nat) (hk : S2x800000.Slices k S1x800000) (ei : IVec S2x800000 32) : IVec S900000 32 :=
  concatenate S900000 0 [⟨S800000, shapeCast S800000 (extractStridedSlice S1x800000 k ei hk) shapeCasts_S1x800000_S800000⟩,
    ⟨S100000, iotaInDim S100000 32 0⟩] concatenates_S800000_S100000_S900000_d0

/-- The edges' source positions. -/
def srcVec (ei : IVec S2x800000 32) : IVec S900000 32 := endVec ![0, 0] slices_S2x800000_S1x800000_0_0 ei
/-- The edges' target positions. -/
def tgtVec (ei : IVec S2x800000 32) : IVec S900000 32 := endVec ![1, 0] slices_S2x800000_S1x800000_1_0 ei

/-- A negative position counted from the end of the node range. -/
def wrapNeg (v : IVec S900000 32) : IVec S900000 32 :=
  select (cmpi .slt v (broadcastInDim S900000 ![] bcast_S_S900000 (constantI S_ 32 0#32)))
    (addi v (broadcastInDim S900000 ![] bcast_S_S900000 (constantI S_ 32 100000#32))) v

/-- A vector of positions kept as a column. -/
def col (v : IVec S900000 32) : IVec S900000x1 32 := broadcastInDim S900000x1 ![0] bcast_S900000_S900000x1_0 v

/-- The column the messages are added in at, and the column the rows are looked up at. -/
def scatCol (ei : IVec S2x800000 32) : IVec S900000x1 32 := col (tgtVec ei)
def gathCol (ei : IVec S2x800000 32) : IVec S900000x1 32 := col (wrapNeg (srcVec ei))

/-- The all-zero vector over the nodes. -/
def zeroN : FVec Ideal S100000 .f32 := broadcastInDim S100000 ![] bcast_S_S100000 (constant (F := Ideal) S_ .f32 0x00000000#32)

/-- Every node's in-degree: one added per edge at its target. -/
def degVec (ei : IVec S2x800000 32) : FVec Ideal S100000 .f32 :=
  Host.scatterAdd scatter_S100000_S900000x1_S900000_n_0_0_1 zeroN (col (tgtVec ei))
    (broadcastInDim S900000 ![] bcast_S_S900000 (constant (F := Ideal) S_ .f32 0x3F800000#32))

/-- The reciprocal square root of the in-degree where it is positive, zero elsewhere. -/
def dinvVec (ei : IVec S2x800000 32) : FVec Ideal S100000 .f32 :=
  select (cmpf (F := Ideal) .ogt (degVec ei) zeroN) (Host.rsqrt (degVec ei)) zeroN

/-- Every edge's weight. -/
def wgtVec (ei : IVec S2x800000 32) : FVec Ideal S900000 .f32 :=
  mulf (Host.gather gather_S100000_S900000x1_S900000_n_0_n_n_0_1_1 (dinvVec ei) (col (wrapNeg (srcVec ei))))
    (Host.gather gather_S100000_S900000x1_S900000_n_0_n_n_0_1_1 (dinvVec ei) (col (wrapNeg (tgtVec ei))))

/-- The selection of the reciprocal square roots by the positivity flags. -/
def dinvOf (flag : IVec S100000 1) (rs z : FVec Ideal S100000 .f32) : FVec Ideal S100000 .f32 := select flag rs z

/-- The weights from the per-node factors and the two position vectors. -/
def wgtOf (dinv : FVec Ideal S100000 .f32) (s t : IVec S900000 32) : FVec Ideal S900000 .f32 :=
  mulf (Host.gather gather_S100000_S900000x1_S900000_n_0_n_n_0_1_1 dinv (col (wrapNeg s)))
    (Host.gather gather_S100000_S900000x1_S900000_n_0_n_n_0_1_1 dinv (col (wrapNeg t)))

/-- The in-degree from the target positions. -/
def degOfT (t : IVec S900000 32) : FVec Ideal S100000 .f32 :=
  Host.scatterAdd scatter_S100000_S900000x1_S900000_n_0_0_1 zeroN (col t)
    (broadcastInDim S900000 ![] bcast_S_S900000 (constant (F := Ideal) S_ .f32 0x3F800000#32))

/-! ## The run, stretch by stretch -/

/-- Two lines folded one after the other are their concatenation folded as one. -/
theorem after_append {τ' : Topo} {sig' : RefSig} {Val : EltTy → Type} (a b : List (HloOp τ' sig' Val)) (V : Valuation τ' sig' Val) :
    StableHlo.after (a ++ b) V = StableHlo.after b (StableHlo.after a V) := by
  induction a generalizing V with
  | nil => rfl
  | cons op l ih => exact ih (op.result V)

variable (m : (ℓ : Loc nD τ sig) → Buf (Elt Ideal) ℓ)

/-- The buffers' contents at the launch and after each of the ten stretches. -/
def R0 (c : Dev nD) : Valuation τ sig (Elt Ideal) := launchContents m c
def R1 (c : Dev nD) : Valuation τ sig (Elt Ideal) := StableHlo.after opsS0 (R0 m c)
def R2 (c : Dev nD) : Valuation τ sig (Elt Ideal) := StableHlo.after opsS1 (R1 m c)
def R3 (c : Dev nD) : Valuation τ sig (Elt Ideal) := StableHlo.after opsS2 (R2 m c)
def R4 (c : Dev nD) : Valuation τ sig (Elt Ideal) := StableHlo.after opsS3 (R3 m c)
def R5 (c : Dev nD) : Valuation τ sig (Elt Ideal) := StableHlo.after opsS4 (R4 m c)
def R6 (c : Dev nD) : Valuation τ sig (Elt Ideal) := StableHlo.after opsS5 (R5 m c)
def R7 (c : Dev nD) : Valuation τ sig (Elt Ideal) := StableHlo.after opsS6 (R6 m c)
def R8 (c : Dev nD) : Valuation τ sig (Elt Ideal) := StableHlo.after opsS7 (R7 m c)
def R9 (c : Dev nD) : Valuation τ sig (Elt Ideal) := StableHlo.after opsS8 (R8 m c)
def R10 (c : Dev nD) : Valuation τ sig (Elt Ideal) := StableHlo.after opsS9 (R9 m c)

/-- The whole line folded over the launch contents is the tenth stage. -/
theorem after_ops (c : Dev nD) : StableHlo.after ops (launchContents m c) = R10 m c := by
  rw [ops_split]
  simp only [after_append]
  rfl

/-! ### After the first stretch: the position vectors, the in-degree's flag and reciprocal square root, the zero vector -/

set_option maxHeartbeats 4000000 in
theorem R1_src (c : Dev nD) : R1 m c (Proc.devRef .tc main_v3) = srcVec (m ((c.tc : Thread nD τ).loc main_arg1)) := by
  show StableHlo.after opsS0 (launchContents m c) (Proc.devRef .tc main_v3) = _
  after_results_simp <;> rfl
set_option maxHeartbeats 4000000 in
theorem R1_tgt (c : Dev nD) : R1 m c (Proc.devRef .tc main_v6) = tgtVec (m ((c.tc : Thread nD τ).loc main_arg1)) := by
  show StableHlo.after opsS0 (launchContents m c) (Proc.devRef .tc main_v6) = _
  after_results_simp <;> rfl
set_option maxHeartbeats 4000000 in
theorem R1_flag (c : Dev nD) : R1 m c (Proc.devRef .tc main_v12) = cmpf (F := Ideal) .ogt (degVec (m ((c.tc : Thread nD τ).loc main_arg1))) zeroN := by
  show StableHlo.after opsS0 (launchContents m c) (Proc.devRef .tc main_v12) = _
  after_results_simp <;> rfl
set_option maxHeartbeats 4000000 in
theorem R1_rsqrt (c : Dev nD) : R1 m c (Proc.devRef .tc main_v13) = Host.rsqrt (degVec (m ((c.tc : Thread nD τ).loc main_arg1))) := by
  show StableHlo.after opsS0 (launchContents m c) (Proc.devRef .tc main_v13) = _
  after_results_simp <;> rfl
set_option maxHeartbeats 4000000 in
theorem R1_zero (c : Dev nD) : R1 m c (Proc.devRef .tc main_v14) = zeroN := by
  show StableHlo.after opsS0 (launchContents m c) (Proc.devRef .tc main_v14) = _
  after_results_simp <;> rfl
set_option maxHeartbeats 4000000 in
/-- The first stretch writes no argument array. -/
theorem R1_arg (c : Dev nD) (b : Ref sig .tc) (hb : b = main_arg0 ∨ b = main_arg1 ∨ b = main_arg2 ∨ b = main_arg3 ∨ b = main_arg4 ∨ b = main_arg5) :
    R1 m c (Proc.devRef .tc b) = m ((c.tc : Thread nD τ).loc b) := by
  show StableHlo.after opsS0 (launchContents m c) (Proc.devRef .tc b) = _
  rcases hb with rfl | rfl | rfl | rfl | rfl | rfl <;> (after_results_simp <;> rfl)

/-! ### The selection, then the two lookups and the weights -/

set_option maxHeartbeats 4000000 in
theorem R2_dinv_raw (c : Dev nD) : R2 m c (Proc.devRef .tc main_v15) = dinvOf (R1 m c (Proc.devRef .tc main_v12)) (R1 m c (Proc.devRef .tc main_v13)) (R1 m c (Proc.devRef .tc main_v14)) := by
  show StableHlo.after opsS1 (R1 m c) (Proc.devRef .tc main_v15) = _
  generalize R1 m c = W'
  after_results_simp <;> rfl
set_option maxHeartbeats 4000000 in
theorem R2_keep (c : Dev nD) (b : Ref sig .tc) (hb : b = main_arg0 ∨ b = main_arg1 ∨ b = main_arg2 ∨ b = main_arg3 ∨ b = main_arg4 ∨ b = main_arg5 ∨ b = main_v3 ∨ b = main_v6) :
    R2 m c (Proc.devRef .tc b) = R1 m c (Proc.devRef .tc b) := by
  show StableHlo.after opsS1 (R1 m c) (Proc.devRef .tc b) = _
  generalize R1 m c = W'
  rcases hb with rfl | rfl | rfl | rfl | rfl | rfl | rfl | rfl <;> (after_results_simp <;> rfl)
set_option maxHeartbeats 4000000 in
theorem R3_wgt_raw (c : Dev nD) : R3 m c (Proc.devRef .tc main_v30) = wgtOf (R2 m c (Proc.devRef .tc main_v15)) (R2 m c (Proc.devRef .tc main_v3)) (R2 m c (Proc.devRef .tc main_v6)) := by
  show StableHlo.after opsS2 (R2 m c) (Proc.devRef .tc main_v30) = _
  generalize R2 m c = W'
  after_results_simp <;> rfl
set_option maxHeartbeats 4000000 in
theorem R3_keep (c : Dev nD) (b : Ref sig .tc) (hb : b = main_arg0 ∨ b = main_arg1 ∨ b = main_arg2 ∨ b = main_arg3 ∨ b = main_arg4 ∨ b = main_arg5 ∨ b = main_v3 ∨ b = main_v6) :
    R3 m c (Proc.devRef .tc b) = R2 m c (Proc.devRef .tc b) := by
  show StableHlo.after opsS2 (R2 m c) (Proc.devRef .tc b) = _
  generalize R2 m c = W'
  rcases hb with rfl | rfl | rfl | rfl | rfl | rfl | rfl | rfl <;> (after_results_simp <;> rfl)

/-- After the third stretch the weights' buffer holds the weights. -/
theorem R3_wgt (c : Dev nD) : R3 m c (Proc.devRef .tc main_v30) = wgtVec (m ((c.tc : Thread nD τ).loc main_arg1)) := by
  rw [R3_wgt_raw, R2_dinv_raw, R2_keep m c main_v3 (by simp), R2_keep m c main_v6 (by simp), R1_flag, R1_rsqrt, R1_zero, R1_src, R1_tgt]
  rfl
theorem R3_src (c : Dev nD) : R3 m c (Proc.devRef .tc main_v3) = srcVec (m ((c.tc : Thread nD τ).loc main_arg1)) :=
  (R3_keep m c main_v3 (by simp)).trans ((R2_keep m c main_v3 (by simp)).trans (R1_src m c))
theorem R3_tgt (c : Dev nD) : R3 m c (Proc.devRef .tc main_v6) = tgtVec (m ((c.tc : Thread nD τ).loc main_arg1)) :=
  (R3_keep m c main_v6 (by simp)).trans ((R2_keep m c main_v6 (by simp)).trans (R1_tgt m c))

/-! ### The first layer: one step on the input table, the product with the first matrix, the bias; the rectifier -/

/-- One step as the host spells it, on a 128-column table, over the buffers it reads. -/
def pass128 (t : IVec S900000 32) (p : FVec Ideal S100000x128 .f32) (s : IVec S900000 32) (w : FVec Ideal S900000 .f32) : FVec Ideal S100000x128 .f32 :=
  Host.scatterAdd scatter_S100000x128_S900000x1_S900000x128_1_0_0_1
    (broadcastInDim S100000x128 ![] bcast_S_S100000x128 (constant (F := Ideal) S_ .f32 0x00000000#32)) (col t)
    (mulf (Host.gather gather_S100000x128_S900000x1_S900000x128_1_0_n_n_0_1_1128 p (col (wrapNeg s)))
      (broadcastInDim S900000x128 ![0, 1] bcast_S900000x1_S900000x128_0_1 (broadcastInDim S900000x1 ![0] bcast_S900000_S900000x1_0 w)))

/-- One step as the host spells it, on a 64-column table, over the buffers it reads. -/
def pass64 (t : IVec S900000 32) (p : FVec Ideal S100000x64 .f32) (s : IVec S900000 32) (w : FVec Ideal S900000 .f32) : FVec Ideal S100000x64 .f32 :=
  Host.scatterAdd scatter_S100000x64_S900000x1_S900000x64_1_0_0_1
    (broadcastInDim S100000x64 ![] bcast_S_S100000x64 (constant (F := Ideal) S_ .f32 0x00000000#32)) (col t)
    (mulf (Host.gather gather_S100000x64_S900000x1_S900000x64_1_0_n_n_0_1_164 p (col (wrapNeg s)))
      (broadcastInDim S900000x64 ![0, 1] bcast_S900000x1_S900000x64_0_1 (broadcastInDim S900000x1 ![0] bcast_S900000_S900000x1_0 w)))

/-- The first layer before the rectifier: the step, the product, the bias row. -/
def layer1 (t : IVec S900000 32) (p : FVec Ideal S100000x128 .f32) (s : IVec S900000 32) (w : FVec Ideal S900000 .f32)
    (W : FVec Ideal S128x64 .f32) (b : FVec Ideal S64 .f32) : FVec Ideal S100000x64 .f32 :=
  addf (Host.dotGeneral dot_S100000x128_S128x64_S100000x64_1_0_0_1_n_n none (pass128 t p s w) W)
    (broadcastInDim S100000x64 ![0, 1] bcast_S1x64_S100000x64_0_1 (broadcastInDim S1x64 ![1] bcast_S64_S1x64_1 b))

/-- The second layer before the log-softmax: the step, the product, the bias row. -/
def layer2 (t : IVec S900000 32) (p : FVec Ideal S100000x64 .f32) (s : IVec S900000 32) (w : FVec Ideal S900000 .f32)
    (W : FVec Ideal S64x40 .f32) (b : FVec Ideal S40 .f32) : FVec Ideal S100000x40 .f32 :=
  addf (Host.dotGeneral dot_S100000x64_S64x40_S100000x40_1_0_0_1_n_n none (pass64 t p s w) W)
    (broadcastInDim S100000x40 ![0, 1] bcast_S1x40_S100000x40_0_1 (broadcastInDim S1x40 ![1] bcast_S40_S1x40_1 b))

/-- The rectifier as the host spells it. -/
def reluH (t : FVec Ideal S100000x64 .f32) : FVec Ideal S100000x64 .f32 :=
  maximumf t (broadcastInDim S100000x64 ![] bcast_S_S100000x64 (constant (F := Ideal) S_ .f32 0x00000000#32))

set_option maxHeartbeats 4000000 in
theorem R4_v47_raw (c : Dev nD) : R4 m c (Proc.devRef .tc main_v47) = layer1 (R3 m c (Proc.devRef .tc main_v6)) (R3 m c (Proc.devRef .tc main_arg0)) (R3 m c (Proc.devRef .tc main_v3))
      (R3 m c (Proc.devRef .tc main_v30)) (R3 m c (Proc.devRef .tc main_arg2)) (R3 m c (Proc.devRef .tc main_arg3)) := by
  show StableHlo.after opsS3 (R3 m c) (Proc.devRef .tc main_v47) = _
  generalize R3 m c = W'
  after_results_simp <;> rfl
set_option maxHeartbeats 4000000 in
theorem R4_keep (c : Dev nD) (b : Ref sig .tc) (hb : b = main_arg0 ∨ b = main_arg1 ∨ b = main_arg2 ∨ b = main_arg3 ∨ b = main_arg4 ∨ b = main_arg5 ∨ b = main_v3 ∨ b = main_v6) :
    R4 m c (Proc.devRef .tc b) = R3 m c (Proc.devRef .tc b) := by
  show StableHlo.after opsS3 (R3 m c) (Proc.devRef .tc b) = _
  generalize R3 m c = W'
  rcases hb with rfl | rfl | rfl | rfl | rfl | rfl | rfl | rfl <;> (after_results_simp <;> rfl)
set_option maxHeartbeats 4000000 in
theorem R5_v48_raw (c : Dev nD) : R5 m c (Proc.devRef .tc main_v48) = reluH (R4 m c (Proc.devRef .tc main_v47)) := by
  show StableHlo.after opsS4 (R4 m c) (Proc.devRef .tc main_v48) = _
  generalize R4 m c = W'
  after_results_simp <;> rfl
set_option maxHeartbeats 4000000 in
theorem R5_keep (c : Dev nD) (b : Ref sig .tc) (hb : b = main_arg0 ∨ b = main_arg1 ∨ b = main_arg2 ∨ b = main_arg3 ∨ b = main_arg4 ∨ b = main_arg5 ∨ b = main_v3 ∨ b = main_v6) :
    R5 m c (Proc.devRef .tc b) = R4 m c (Proc.devRef .tc b) := by
  show StableHlo.after opsS4 (R4 m c) (Proc.devRef .tc b) = _
  generalize R4 m c = W'
  rcases hb with rfl | rfl | rfl | rfl | rfl | rfl | rfl | rfl <;> (after_results_simp <;> rfl)

/-! ### The weights again, on other buffers -/

set_option maxHeartbeats 4000000 in
theorem R6_flag (c : Dev nD) : R6 m c (Proc.devRef .tc main_v54) = cmpf (F := Ideal) .ogt (degOfT (R5 m c (Proc.devRef .tc main_v6))) zeroN := by
  show StableHlo.after opsS5 (R5 m c) (Proc.devRef .tc main_v54) = _
  generalize R5 m c = W'
  after_results_simp <;> rfl
set_option maxHeartbeats 4000000 in
theorem R6_rsqrt (c : Dev nD) : R6 m c (Proc.devRef .tc main_v55) = Host.rsqrt (degOfT (R5 m c (Proc.devRef .tc main_v6))) := by
  show StableHlo.after opsS5 (R5 m c) (Proc.devRef .tc main_v55) = _
  generalize R5 m c = W'
  after_results_simp <;> rfl
set_option maxHeartbeats 4000000 in
theorem R6_zero (c : Dev nD) : R6 m c (Proc.devRef .tc main_v56) = zeroN := by
  show StableHlo.after opsS5 (R5 m c) (Proc.devRef .tc main_v56) = _
  generalize R5 m c = W'
  after_results_simp <;> rfl
set_option maxHeartbeats 4000000 in
theorem R6_keep (c : Dev nD) (b : Ref sig .tc) (hb : b = main_arg0 ∨ b = main_arg1 ∨ b = main_arg2 ∨ b = main_arg3 ∨ b = main_arg4 ∨ b = main_arg5 ∨ b = main_v3 ∨ b = main_v6 ∨ b = main_v48) :
    R6 m c (Proc.devRef .tc b) = R5 m c (Proc.devRef .tc b) := by
  show StableHlo.after opsS5 (R5 m c) (Proc.devRef .tc b) = _
  generalize R5 m c = W'
  rcases hb with rfl | rfl | rfl | rfl | rfl | rfl | rfl | rfl | rfl <;> (after_results_simp <;> rfl)
set_option maxHeartbeats 4000000 in
theorem R7_dinv_raw (c : Dev nD) : R7 m c (Proc.devRef .tc main_v57) = dinvOf (R6 m c (Proc.devRef .tc main_v54)) (R6 m c (Proc.devRef .tc main_v55)) (R6 m c (Proc.devRef .tc main_v56)) := by
  show StableHlo.after opsS6 (R6 m c) (Proc.devRef .tc main_v57) = _
  generalize R6 m c = W'
  after_results_simp <;> rfl
set_option maxHeartbeats 4000000 in
theorem R7_keep (c : Dev nD) (b : Ref sig .tc) (hb : b = main_arg0 ∨ b = main_arg1 ∨ b = main_arg2 ∨ b = main_arg3 ∨ b = main_arg4 ∨ b = main_arg5 ∨ b = main_v3 ∨ b = main_v6 ∨ b = main_v48) :
    R7 m c (Proc.devRef .tc b) = R6 m c (Proc.devRef .tc b) := by
  show StableHlo.after opsS6 (R6 m c) (Proc.devRef .tc b) = _
  generalize R6 m c = W'
  rcases hb with rfl | rfl | rfl | rfl | rfl | rfl | rfl | rfl | rfl <;> (after_results_simp <;> rfl)
set_option maxHeartbeats 4000000 in
theorem R8_wgt_raw (c : Dev nD) : R8 m c (Proc.devRef .tc main_v72) = wgtOf (R7 m c (Proc.devRef .tc main_v57)) (R7 m c (Proc.devRef .tc main_v3)) (R7 m c (Proc.devRef .tc main_v6)) := by
  show StableHlo.after opsS7 (R7 m c) (Proc.devRef .tc main_v72) = _
  generalize R7 m c = W'
  after_results_simp <;> rfl
set_option maxHeartbeats 4000000 in
theorem R8_keep (c : Dev nD) (b : Ref sig .tc) (hb : b = main_arg0 ∨ b = main_arg1 ∨ b = main_arg2 ∨ b = main_arg3 ∨ b = main_arg4 ∨ b = main_arg5 ∨ b = main_v3 ∨ b = main_v6 ∨ b = main_v48) :
    R8 m c (Proc.devRef .tc b) = R7 m c (Proc.devRef .tc b) := by
  show StableHlo.after opsS7 (R7 m c) (Proc.devRef .tc b) = _
  generalize R7 m c = W'
  rcases hb with rfl | rfl | rfl | rfl | rfl | rfl | rfl | rfl | rfl <;> (after_results_simp <;> rfl)

/-! ### The second layer -/

set_option maxHeartbeats 4000000 in
theorem R9_v89_raw (c : Dev nD) : R9 m c (Proc.devRef .tc main_v89) = layer2 (R8 m c (Proc.devRef .tc main_v6)) (R8 m c (Proc.devRef .tc main_v48)) (R8 m c (Proc.devRef .tc main_v3))
      (R8 m c (Proc.devRef .tc main_v72)) (R8 m c (Proc.devRef .tc main_arg4)) (R8 m c (Proc.devRef .tc main_arg5)) := by
  show StableHlo.after opsS8 (R8 m c) (Proc.devRef .tc main_v89) = _
  generalize R8 m c = W'
  after_results_simp <;> rfl
set_option maxHeartbeats 4000000 in
theorem R9_keep (c : Dev nD) (b : Ref sig .tc) (hb : b = main_arg0 ∨ b = main_arg1 ∨ b = main_arg2 ∨ b = main_arg3 ∨ b = main_arg4 ∨ b = main_arg5) :
    R9 m c (Proc.devRef .tc b) = R8 m c (Proc.devRef .tc b) := by
  show StableHlo.after opsS8 (R8 m c) (Proc.devRef .tc b) = _
  generalize R8 m c = W'
  rcases hb with rfl | rfl | rfl | rfl | rfl | rfl <;> (after_results_simp <;> rfl)
set_option maxHeartbeats 4000000 in
theorem R10_keep (c : Dev nD) (b : Ref sig .tc) (hb : b = main_arg0 ∨ b = main_arg1 ∨ b = main_arg2 ∨ b = main_arg3 ∨ b = main_arg4 ∨ b = main_arg5) :
    R10 m c (Proc.devRef .tc b) = R9 m c (Proc.devRef .tc b) := by
  show StableHlo.after opsS9 (R9 m c) (Proc.devRef .tc b) = _
  generalize R9 m c = W'
  rcases hb with rfl | rfl | rfl | rfl | rfl | rfl <;> (after_results_simp <;> rfl)

end Cert.ReferenceIdeal.RefValue

end
-- ==== Proof.LibHostRowMax.lean ====
/-
  The host's maximum along the lanes of a matrix, read at a row, for any sizes.

  A one-operand reduce whose body is the maximum, taken along the second axis of an `n × k` array from an initial
  scalar, gives one number per row: at row `r` it is the fold of `max` from the initial value over that row's `k`
  entries (in any order: `max` commutes and associates on the extended reals).
-/
import Idealize.ShloMosaic.Lib.Pipeline.Value
import Idealize.ShloMosaic.Lib.ValueIdx
import Idealize.ShloMosaic.PureOps.Ideal.Laws

noncomputable section

namespace Cert.Lib.HostRowMax

open Idealize.ShloMosaic Idealize.ShloMosaic.ValueIdx

/-- The host's max-reduce along the lanes of an `n × k` array from the scalar `init` reads, at row `r`, the fold of
    `max` from `init`'s one entry over the row's entries. -/
theorem hostLaneMax_apply {n k : ℕ} {u : Shape} (x : FVec Ideal ⟨2, ![n, k]⟩ .f32) (init : FVec Ideal u .f32)
    (h' : (⟨2, ![n, k]⟩ : Shape).ReducesTo [1] ⟨1, ![n]⟩) (h : (⟨2, ![n, k]⟩ : Shape).Reduces [1] ⟨1, ![n]⟩)
    (hu : 0 < u.numel) (r : Fin n) :
    Host.reduce FloatOps.maximumf x init h' hu (ix1 r)
      = (Finset.univ : Finset (Fin k)).fold max (init (Shape.Idx.first hu)) (fun c => x (ix2 r c)) := by
  rw [Host.reduce_eq_fold_single FloatOps.maximumf x init h' h hu]
  refine congrArg (fun f => (Finset.univ : Finset (Fin k)).fold max (init (Shape.Idx.first hu)) f) (funext fun c => ?_)
  exact congrArg x (funext fun ax => Fin.ext (by
    match ax with
    | ⟨0, _⟩ => rfl
    | ⟨1, _⟩ => rfl))

end Cert.Lib.HostRowMax

end
-- ==== Proof.LibColumnForms.lean ====
/-
  Three readings, at an entry, of operations that move between a column, a row and a vector, for any sizes.

  An `a × 1` column re-laid as a `1 × a` row, or flattened to a length-`a` vector, moves no entry: position `i` of the
  row or of the vector is entry `(i, 0)` of the column. A host sum along the lanes of an `n × k` array, started from
  an initial scalar, is at row `r` that scalar plus the sum of the row's `k` entries.
-/
import Idealize.ShloMosaic.Lib.Pipeline.Value
import Idealize.ShloMosaic.Lib.ValueIdx
import Idealize.ShloMosaic.PureOps.Ideal.Laws

noncomputable section

open scoped BigOperators

namespace Cert.Lib.ColumnForms

open Idealize.ShloMosaic Idealize.ShloMosaic.ValueIdx

variable {α : Type}

/-- An `a × 1` column re-laid as a `1 × a` row reads, at `(u, i)`, the column at `(i, 0)`. -/
theorem shapeCast_a1_1a_apply {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) := by
  refine shapeCast_apply x h (ix2 u i) (ix2 i (0 : Fin 1)) ?_
  rw [Shape.rowMajor_val_two, Shape.rowMajor_val_two]
  show i.val * 1 + 0 = u.val * a + i.val
  have hu : u.val = 0 := by omega
  rw [hu, Nat.zero_mul, Nat.zero_add, Nat.mul_one, Nat.add_zero]

/-- An `a × 1` column flattened to a length-`a` vector reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) := by
  refine shapeCast_apply x h (ix1 i) (ix2 i (0 : Fin 1)) ?_
  rw [Shape.rowMajor_val_two, Shape.rowMajor_val_one]
  show i.val * 1 + 0 = i.val
  rw [Nat.mul_one, Nat.add_zero]

/-- A host sum along the lanes of an `n × k` array from an initial scalar reads, at row `r`, the scalar plus the sum of
    that row's entries. The caller supplies the index-lifting form of the shape fact (decided at its literal shapes). -/
theorem hostRowSum_apply {n k : ℕ} (x : FVec Ideal ⟨2, ![n, k]⟩ .f32) (v : FVec Ideal ⟨0, ![]⟩ .f32)
    (h' : (⟨2, ![n, k]⟩ : Shape).ReducesTo [1] ⟨1, ![n]⟩) (h0 : 0 < (⟨0, ![]⟩ : Shape).numel)
    (h : (⟨2, ![n, k]⟩ : Shape).Reduces [1] ⟨1, ![n]⟩) (r : Fin n) :
    Host.reduceAdd x v h' h0 (ix1 r) = v (Shape.Idx.first h0) + ∑ c : Fin k, x (ix2 r c) := by
  simp only [Host.reduceAdd, Ideal.hostReduceAdd_def]
  rw [Ideal.hostReduceAdd_single h' h]
  refine congrArg (_ + ·) (Finset.sum_congr rfl fun c _ => ?_)
  exact congrArg x (funext fun a => Fin.ext (by match a with | ⟨0, _⟩ => rfl | ⟨1, _⟩ => rfl))

end Cert.Lib.ColumnForms

end
-- ==== Proof.LibHostLayer.lean ====
/-
  Three host spellings read as functions of tables over the extended reals, for any sizes.

  * A bias vector laid out as a `1 × C` row, spread down the `N` rows and added to an `N × C` table is the table with
    the vector added to every row.
  * The maximum of a table with the zero scalar spread over it is the rectifier, entry by entry.
  * The row-wise log-softmax as a host program spells it — the row maximum from `-∞` (and one more maximum against
    `-∞`), kept as a column and spread along the rows, subtracted; the exponential; the row sum from zero, kept as a
    column; its logarithm, spread along the rows, subtracted — is `(a − top) − log Σ exp (a − top)` with `top` the
    row's largest entry.
-/
import Idealize.ShloMosaic.PureOps.Ideal
import Idealize.ShloMosaic.PureOps.Ideal.Laws
import proofs.«152553_j71683004171209_2_alg».proof.Proof.Spec
import proofs.«152553_j71683004171209_2_alg».proof.Proof.LibHostForms
import proofs.«152553_j71683004171209_2_alg».proof.Proof.LibHostRowMax
import proofs.«152553_j71683004171209_2_alg».proof.Proof.LibRowMax
import proofs.«152553_j71683004171209_2_alg».proof.Proof.LibColumnForms

noncomputable section

open scoped BigOperators

namespace Cert.Lib.HostLayer

open Idealize.ShloMosaic Idealize.ShloMosaic.ValueIdx
open Cert.Lib.HostForms Cert.Lib.HostRowMax Cert.Lib.RowMax Cert.Lib.ColumnForms

variable {N C : ℕ}

/-- A bias vector kept as a row, spread down the rows and added to a table adds the vector to every row. -/
theorem host_bias_eq
    (h1 : (⟨1, ![C]⟩ : Shape).BroadcastsInDim ⟨2, ![1, C]⟩ (![1] : Fin 1 → Fin (⟨2, ![1, C]⟩ : Shape).rank))
    (h2 : (⟨2, ![1, C]⟩ : Shape).BroadcastsInDim ⟨2, ![N, C]⟩ (![0, 1] : Fin 2 → Fin (⟨2, ![N, C]⟩ : Shape).rank))
    (A : FVec Ideal ⟨2, ![N, C]⟩ .f32) (b : FVec Ideal ⟨1, ![C]⟩ .f32) :
    addf A (broadcastInDim ⟨2, ![N, C]⟩ ![0, 1] h2 (broadcastInDim ⟨2, ![1, C]⟩ ![1] h1 b)) = Cert.Spec.addRow A b := by
  funext i
  obtain ⟨r, q, rfl⟩ : ∃ (r : Fin N) (q : Fin C), i = ix2 r q := ⟨i 0, i 1, eq_ix2 i⟩
  show A (ix2 r q) + broadcastInDim ⟨2, ![N, C]⟩ ![0, 1] h2 (broadcastInDim ⟨2, ![1, C]⟩ ![1] h1 b) (ix2 r q)
    = A (ix2 r q) + b (ix1 q)
  rw [bcast_row_chain_apply]

/-- The maximum of a table with the zero scalar spread over it is the rectifier. -/
theorem host_relu_eq
    (h0 : (⟨0, ![]⟩ : Shape).BroadcastsInDim ⟨2, ![N, C]⟩ (![] : Fin 0 → Fin (⟨2, ![N, C]⟩ : Shape).rank))
    (A : FVec Ideal ⟨2, ![N, C]⟩ .f32) :
    maximumf A (broadcastInDim ⟨2, ![N, C]⟩ ![] h0 (constant (F := Ideal) ⟨0, ![]⟩ .f32 0x00000000#32))
      = Cert.Spec.relu0 A := by
  funext i
  show max (A i) (broadcastInDim ⟨2, ![N, C]⟩ ![] h0 (constant (F := Ideal) ⟨0, ![]⟩ .f32 0x00000000#32) i) = max (A i) 0
  rw [bcast_scalar_apply]
  show max (A i) (Ideal.ofBits .f32 0x00000000#32) = _
  rw [Ideal.ofBits_zero_f32]

/-- The row-wise log-softmax as a host program spells it. -/
def hostLogSoftmax
    (hred : (⟨2, ![N, C]⟩ : Shape).ReducesTo [1] ⟨1, ![N]⟩) (hS : 0 < (⟨0, ![]⟩ : Shape).numel)
    (hbN : (⟨0, ![]⟩ : Shape).BroadcastsInDim ⟨1, ![N]⟩ (![] : Fin 0 → Fin (⟨1, ![N]⟩ : Shape).rank))
    (h1 : (⟨1, ![N]⟩ : Shape).BroadcastsInDim ⟨2, ![N, 1]⟩ (![0] : Fin 1 → Fin (⟨2, ![N, 1]⟩ : Shape).rank))
    (h2 : (⟨2, ![N, 1]⟩ : Shape).BroadcastsInDim ⟨2, ![N, C]⟩ (![0, 1] : Fin 2 → Fin (⟨2, ![N, C]⟩ : Shape).rank))
    (x : FVec Ideal ⟨2, ![N, C]⟩ .f32) : FVec Ideal ⟨2, ![N, C]⟩ .f32 :=
  subf
    (subf x (broadcastInDim ⟨2, ![N, C]⟩ ![0, 1] h2 (broadcastInDim ⟨2, ![N, 1]⟩ ![0] h1
      (maximumf (broadcastInDim ⟨1, ![N]⟩ ![] hbN (constant (F := Ideal) ⟨0, ![]⟩ .f32 0xFF800000#32))
        (Host.reduce FloatOps.maximumf x (constant (F := Ideal) ⟨0, ![]⟩ .f32 0xFF800000#32) hred hS)))))
    (broadcastInDim ⟨2, ![N, C]⟩ ![0, 1] h2 (Host.log (broadcastInDim ⟨2, ![N, 1]⟩ ![0] h1
      (Host.reduceAdd
        (Host.exp (subf x (broadcastInDim ⟨2, ![N, C]⟩ ![0, 1] h2 (broadcastInDim ⟨2, ![N, 1]⟩ ![0] h1
          (maximumf (broadcastInDim ⟨1, ![N]⟩ ![] hbN (constant (F := Ideal) ⟨0, ![]⟩ .f32 0xFF800000#32))
            (Host.reduce FloatOps.maximumf x (constant (F := Ideal) ⟨0, ![]⟩ .f32 0xFF800000#32) hred hS))))))
        (constant (F := Ideal) ⟨0, ![]⟩ .f32 0x00000000#32) hred hS))))

/-- The host's row maximum from `-∞`, with one more maximum against `-∞`, is the row's largest entry. -/
theorem hostTop_apply
    (hred : (⟨2, ![N, C]⟩ : Shape).ReducesTo [1] ⟨1, ![N]⟩) (hS : 0 < (⟨0, ![]⟩ : Shape).numel)
    (hbN : (⟨0, ![]⟩ : Shape).BroadcastsInDim ⟨1, ![N]⟩ (![] : Fin 0 → Fin (⟨1, ![N]⟩ : Shape).rank))
    (hR : (⟨2, ![N, C]⟩ : Shape).Reduces [1] ⟨1, ![N]⟩)
    (x : FVec Ideal ⟨2, ![N, C]⟩ .f32) (r : Fin N) :
    maximumf (broadcastInDim ⟨1, ![N]⟩ ![] hbN (constant (F := Ideal) ⟨0, ![]⟩ .f32 0xFF800000#32))
        (Host.reduce FloatOps.maximumf x (constant (F := Ideal) ⟨0, ![]⟩ .f32 0xFF800000#32) hred hS) (ix1 r)
      = Cert.Spec.rowTop x r := by
  show max (broadcastInDim ⟨1, ![N]⟩ ![] hbN (constant (F := Ideal) ⟨0, ![]⟩ .f32 0xFF800000#32) (ix1 r))
      (Host.reduce FloatOps.maximumf x (constant (F := Ideal) ⟨0, ![]⟩ .f32 0xFF800000#32) hred hS (ix1 r)) = _
  rw [bcast_scalar_apply, hostLaneMax_apply x _ hred hR hS r]
  show max (Ideal.ofBits .f32 0xFF800000#32)
      ((Finset.univ : Finset (Fin C)).fold max (Ideal.ofBits .f32 0xFF800000#32) (fun c => x (ix2 r c))) = _
  rw [max_negInf]
  have h : Ideal.ofBits .f32 0xFF800000#32 = (⊥ : EReal) := by simp [Ideal.ofBits, Ideal.ieee]
  rw [h]
  rfl

/-- A table minus a vector kept as a column and spread along the rows reads, at `(r, c)`, the entry minus the vector
    at `r`. -/
theorem shift_apply
    (h1 : (⟨1, ![N]⟩ : Shape).BroadcastsInDim ⟨2, ![N, 1]⟩ (![0] : Fin 1 → Fin (⟨2, ![N, 1]⟩ : Shape).rank))
    (h2 : (⟨2, ![N, 1]⟩ : Shape).BroadcastsInDim ⟨2, ![N, C]⟩ (![0, 1] : Fin 2 → Fin (⟨2, ![N, C]⟩ : Shape).rank))
    (x : FVec Ideal ⟨2, ![N, C]⟩ .f32) (t : FVec Ideal ⟨1, ![N]⟩ .f32) (r : Fin N) (c : Fin C) :
    subf x (broadcastInDim ⟨2, ![N, C]⟩ ![0, 1] h2 (broadcastInDim ⟨2, ![N, 1]⟩ ![0] h1 t)) (ix2 r c)
      = x (ix2 r c) - t (ix1 r) := by
  show x (ix2 r c) - broadcastInDim ⟨2, ![N, C]⟩ ![0, 1] h2 (broadcastInDim ⟨2, ![N, 1]⟩ ![0] h1 t) (ix2 r c) = _
  rw [bcast_col_chain_apply]

/-- The logarithm of a vector kept as a column, spread along the rows, reads at `(r, q)` the logarithm of the vector
    at `r`. -/
theorem logCol_apply
    (h1 : (⟨1, ![N]⟩ : Shape).BroadcastsInDim ⟨2, ![N, 1]⟩ (![0] : Fin 1 → Fin (⟨2, ![N, 1]⟩ : Shape).rank))
    (h2 : (⟨2, ![N, 1]⟩ : Shape).BroadcastsInDim ⟨2, ![N, C]⟩ (![0, 1] : Fin 2 → Fin (⟨2, ![N, C]⟩ : Shape).rank))
    (s : FVec Ideal ⟨1, ![N]⟩ .f32) (r : Fin N) (q : Fin C) :
    broadcastInDim ⟨2, ![N, C]⟩ ![0, 1] h2 (Host.log (broadcastInDim ⟨2, ![N, 1]⟩ ![0] h1 s)) (ix2 r q)
      = Ideal.log (s (ix1 r)) := by
  rw [bcast_col_spread_apply, hostLog_apply, bcast_vec_col_apply]

/-- The host's row sum, from the zero word, of the exponential of a table reads at row `r` the sum of the exponentials
    of the row's entries. -/
theorem sumExp_apply
    (hred : (⟨2, ![N, C]⟩ : Shape).ReducesTo [1] ⟨1, ![N]⟩) (hS : 0 < (⟨0, ![]⟩ : Shape).numel)
    (hR : (⟨2, ![N, C]⟩ : Shape).Reduces [1] ⟨1, ![N]⟩)
    (y : FVec Ideal ⟨2, ![N, C]⟩ .f32) (r : Fin N) :
    Host.reduceAdd (Host.exp y) (constant (F := Ideal) ⟨0, ![]⟩ .f32 0x00000000#32) hred hS (ix1 r)
      = ∑ c : Fin C, Ideal.exp (y (ix2 r c)) := by
  rw [hostRowSum_apply _ _ hred hS hR r, zero_word_add _ rfl]
  exact Finset.sum_congr rfl fun c _ => hostExp_apply y (ix2 r c)

/-- The host's spelling of the row-wise log-softmax is the row-wise log-softmax. -/
theorem hostLogSoftmax_eq
    (hred : (⟨2, ![N, C]⟩ : Shape).ReducesTo [1] ⟨1, ![N]⟩) (hS : 0 < (⟨0, ![]⟩ : Shape).numel)
    (hbN : (⟨0, ![]⟩ : Shape).BroadcastsInDim ⟨1, ![N]⟩ (![] : Fin 0 → Fin (⟨1, ![N]⟩ : Shape).rank))
    (h1 : (⟨1, ![N]⟩ : Shape).BroadcastsInDim ⟨2, ![N, 1]⟩ (![0] : Fin 1 → Fin (⟨2, ![N, 1]⟩ : Shape).rank))
    (h2 : (⟨2, ![N, 1]⟩ : Shape).BroadcastsInDim ⟨2, ![N, C]⟩ (![0, 1] : Fin 2 → Fin (⟨2, ![N, C]⟩ : Shape).rank))
    (hR : (⟨2, ![N, C]⟩ : Shape).Reduces [1] ⟨1, ![N]⟩)
    (x : FVec Ideal ⟨2, ![N, C]⟩ .f32) :
    hostLogSoftmax hred hS hbN h1 h2 x = Cert.Spec.logSoftmax x := by
  funext i
  obtain ⟨r, q, rfl⟩ : ∃ (r : Fin N) (q : Fin C), i = ix2 r q := ⟨i 0, i 1, eq_ix2 i⟩
  have hsh : ∀ c : Fin C,
      subf x (broadcastInDim ⟨2, ![N, C]⟩ ![0, 1] h2 (broadcastInDim ⟨2, ![N, 1]⟩ ![0] h1
        (maximumf (broadcastInDim ⟨1, ![N]⟩ ![] hbN (constant (F := Ideal) ⟨0, ![]⟩ .f32 0xFF800000#32))
          (Host.reduce FloatOps.maximumf x (constant (F := Ideal) ⟨0, ![]⟩ .f32 0xFF800000#32) hred hS)))) (ix2 r c)
        = x (ix2 r c) - Cert.Spec.rowTop x r := fun c =>
    (shift_apply h1 h2 x _ r c).trans (congrArg (x (ix2 r c) - ·) (hostTop_apply hred hS hbN hR x r))
  unfold hostLogSoftmax
  show _ = (x (ix2 r q) - Cert.Spec.rowTop x r)
    - Ideal.log (∑ c : Fin C, Ideal.exp (x (ix2 r c) - Cert.Spec.rowTop x r))
  refine (subf_apply _ _ (ix2 r q)).trans ?_
  refine congrArg₂ (fun a b : EReal => a - b) (hsh q) ?_
  refine (logCol_apply h1 h2 _ r q).trans (congrArg Ideal.log ?_)
  refine (sumExp_apply hred hS hR _ r).trans (Finset.sum_congr rfl fun c _ => congrArg Ideal.exp (hsh c))

end Cert.Lib.HostLayer

end
-- ==== Proof.RefArgs.lean ====
/-
  The reference program never writes its arguments: no operation of its list has an argument's buffer as a result, so
  the fold of the operations over the launch contents, read at an argument, is the launch contents there.
-/
import proofs.«152553_j71683004171209_2_alg».proof.Proof.RefRunPatched
import Idealize.ShloMosaic.Lib.StableHlo.Run
import Idealize.ShloMosaic.PureOps.Ideal

noncomputable section

namespace Cert.ReferenceIdeal.RefArgs

open Cert.ReferenceIdeal Idealize.ShloMosaic Idealize.ShloMosaic.TcCoe Idealize.SL.Sem

variable {F : FTy → Type} [FloatOps F]

/-- Argument 0 ends as launched. -/
theorem after_arg0 (m : (ℓ : Loc nD τ sig) → Buf (Elt F) ℓ) (c : Dev nD) :
    StableHlo.after (ValueP.ops (F := F)) (StableHlo.launchContents m c) (Proc.devRef .tc main_arg0)
      = m ((c.tc : Thread nD τ).loc main_arg0) :=
  (StableHlo.after_of_forall_not_mem (b := Proc.devRef .tc main_arg0) _ _ (List.forall_iff_forall_mem.mp (by
    simp only [ValueP.ops, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))).trans rfl

/-- Argument 1 ends as launched. -/
theorem after_arg1 (m : (ℓ : Loc nD τ sig) → Buf (Elt F) ℓ) (c : Dev nD) :
    StableHlo.after (ValueP.ops (F := F)) (StableHlo.launchContents m c) (Proc.devRef .tc main_arg1)
      = m ((c.tc : Thread nD τ).loc main_arg1) :=
  (StableHlo.after_of_forall_not_mem (b := Proc.devRef .tc main_arg1) _ _ (List.forall_iff_forall_mem.mp (by
    simp only [ValueP.ops, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))).trans rfl

/-- Argument 2 ends as launched. -/
theorem after_arg2 (m : (ℓ : Loc nD τ sig) → Buf (Elt F) ℓ) (c : Dev nD) :
    StableHlo.after (ValueP.ops (F := F)) (StableHlo.launchContents m c) (Proc.devRef .tc main_arg2)
      = m ((c.tc : Thread nD τ).loc main_arg2) :=
  (StableHlo.after_of_forall_not_mem (b := Proc.devRef .tc main_arg2) _ _ (List.forall_iff_forall_mem.mp (by
    simp only [ValueP.ops, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))).trans rfl

/-- Argument 3 ends as launched. -/
theorem after_arg3 (m : (ℓ : Loc nD τ sig) → Buf (Elt F) ℓ) (c : Dev nD) :
    StableHlo.after (ValueP.ops (F := F)) (StableHlo.launchContents m c) (Proc.devRef .tc main_arg3)
      = m ((c.tc : Thread nD τ).loc main_arg3) :=
  (StableHlo.after_of_forall_not_mem (b := Proc.devRef .tc main_arg3) _ _ (List.forall_iff_forall_mem.mp (by
    simp only [ValueP.ops, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))).trans rfl

/-- Argument 4 ends as launched. -/
theorem after_arg4 (m : (ℓ : Loc nD τ sig) → Buf (Elt F) ℓ) (c : Dev nD) :
    StableHlo.after (ValueP.ops (F := F)) (StableHlo.launchContents m c) (Proc.devRef .tc main_arg4)
      = m ((c.tc : Thread nD τ).loc main_arg4) :=
  (StableHlo.after_of_forall_not_mem (b := Proc.devRef .tc main_arg4) _ _ (List.forall_iff_forall_mem.mp (by
    simp only [ValueP.ops, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))).trans rfl

/-- Argument 5 ends as launched. -/
theorem after_arg5 (m : (ℓ : Loc nD τ sig) → Buf (Elt F) ℓ) (c : Dev nD) :
    StableHlo.after (ValueP.ops (F := F)) (StableHlo.launchContents m c) (Proc.devRef .tc main_arg5)
      = m ((c.tc : Thread nD τ).loc main_arg5) :=
  (StableHlo.after_of_forall_not_mem (b := Proc.devRef .tc main_arg5) _ _ (List.forall_iff_forall_mem.mp (by
    simp only [ValueP.ops, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))).trans rfl

end Cert.ReferenceIdeal.RefArgs

end
-- ==== Proof.RefValue.lean ====
/-
  The reference program's result array as ONE function of its argument arrays: the two-layer network that passes
  messages first and multiplies by a layer's matrix second. Each layer's host stretch is a message-passing step (rows
  looked up, scaled by the edge weights, added in at the targets), a matrix product and a bias row; the first is
  followed by the rectifier, the second by the row-wise log-softmax. The weights are computed twice, on different
  buffers, from the same position vectors, so both layers pass messages with the same weights.
-/
import proofs.«152553_j71683004171209_2_alg».proof.Proof.RefGraph
import proofs.«152553_j71683004171209_2_alg».proof.Proof.Spec
import proofs.«152553_j71683004171209_2_alg».proof.Proof.LibEdgePass
import proofs.«152553_j71683004171209_2_alg».proof.Proof.LibHostLayer
import proofs.«152553_j71683004171209_2_alg».proof.Proof.RefArgs

set_option maxRecDepth 16384

noncomputable section

namespace Cert.ReferenceIdeal.RefValue

open Cert.ReferenceIdeal Idealize.ShloMosaic Idealize.ShloMosaic.TcCoe Idealize.SL.Sem Idealize.ShloMosaic.StableHlo
open Idealize.ShloMosaic.ValueIdx
open Facts₀ Facts
open Cert.ReferenceIdeal.ValueP (ops opsS0 opsS1 opsS2 opsS3 opsS4 opsS5 opsS6 opsS7 opsS8 opsS9 ops_split run_raw)
open Cert.Spec Cert.Lib.EdgePass Cert.Lib.HostLayer

theorem hN : 0 < 100000 := by decide

/-- The zero word is the real zero. -/
theorem zero_const : (constant (F := Ideal) S_ .f32 0x00000000#32 : S_.Idx → EReal) ix0 = 0 := by
  show Ideal.ofBits .f32 0x00000000#32 = 0
  exact Ideal.ofBits_zero_f32

/-- One message-passing step as the host stretches spell it, over any table of `C` columns. -/
theorem pass_eq {C : Nat}
    (gwf : GatherDims.WF ⟨2, ![100000, C]⟩ ⟨2, ![900000, 1]⟩ ⟨2, ![900000, C]⟩ [1] [0] [] [0] [] 1 ![1, C])
    (swf : ScatterDims.WF ⟨2, ![100000, C]⟩ ⟨2, ![900000, 1]⟩ ⟨2, ![900000, C]⟩ [1] [0] [0] 1)
    (h0 : (⟨0, ![]⟩ : Shape).BroadcastsInDim ⟨2, ![100000, C]⟩ (![] : Fin 0 → Fin (⟨2, ![100000, C]⟩ : Shape).rank))
    (h2 : (⟨2, ![900000, 1]⟩ : Shape).BroadcastsInDim ⟨2, ![900000, C]⟩ (![0, 1] : Fin 2 → Fin (⟨2, ![900000, C]⟩ : Shape).rank))
    (sc gc : IVec ⟨2, ![900000, 1]⟩ 32) (wgt : FVec Ideal ⟨1, ![900000]⟩ .f32) (p : FVec Ideal ⟨2, ![100000, C]⟩ .f32) :
    Host.scatterAdd (Cert.Lib.ScatterAddRows.rowsScatter 100000 900000 C swf)
        (broadcastInDim ⟨2, ![100000, C]⟩ ![] h0 (constant (F := Ideal) S_ .f32 0x00000000#32)) sc
        (mulf (Host.gather (Cert.Lib.TakeRows.rowsDims 100000 900000 C gwf) p gc)
          (broadcastInDim ⟨2, ![900000, C]⟩ ![0, 1] h2 (broadcastInDim ⟨2, ![900000, 1]⟩ ![0] bcast_S900000_S900000x1_0 wgt)))
      = propagate hN sc gc wgt 0 p :=
  (edge_pass_eq hN gwf swf h0 bcast_S900000_S900000x1_0 h2 _ sc gc wgt p).trans (by rw [zero_const])

/-- The two products' dimension numbers are the plain ones. -/
theorem dot1_plain : dot_S100000x128_S128x64_S100000x64_1_0_0_1_n_n = DotDims.plain 100000 128 64 := rfl
theorem dot2_plain : dot_S100000x64_S64x40_S100000x40_1_0_0_1_n_n = DotDims.plain 100000 64 40 := rfl

/-- The first layer before the rectifier: a step on the table, the product with the matrix, the bias row. -/
theorem layer1_eq (t : IVec S900000 32) (p : FVec Ideal S100000x128 .f32) (s : IVec S900000 32) (w : FVec Ideal S900000 .f32)
    (W : FVec Ideal S128x64 .f32) (b : FVec Ideal S64 .f32) :
    (layer1 t p s w W b : S100000x64.Idx → EReal) = addRow (mm (propagate hN (col t) (col (wrapNeg s)) w 0 p) W) b := by
  unfold layer1
  refine (host_bias_eq bcast_S64_S1x64_1 bcast_S1x64_S100000x64_0_1 _ b).trans ?_
  refine congrArg (fun z => addRow z b) ?_
  refine (dot_eq_mm _ dot1_plain none _ W).trans ?_
  refine congrArg (fun z => mm z W) ?_
  exact pass_eq gather_S100000x128_S900000x1_S900000x128_1_0_n_n_0_1_1128_wf scatter_S100000x128_S900000x1_S900000x128_1_0_0_1_wf
    bcast_S_S100000x128 bcast_S900000x1_S900000x128_0_1 _ _ _ _

/-- The second layer before the log-softmax: a step on the table, the product with the matrix, the bias row. -/
theorem layer2_eq (t : IVec S900000 32) (p : FVec Ideal S100000x64 .f32) (s : IVec S900000 32) (w : FVec Ideal S900000 .f32)
    (W : FVec Ideal S64x40 .f32) (b : FVec Ideal S40 .f32) :
    (layer2 t p s w W b : S100000x40.Idx → EReal) = addRow (mm (propagate hN (col t) (col (wrapNeg s)) w 0 p) W) b := by
  unfold layer2
  refine (host_bias_eq bcast_S40_S1x40_1 bcast_S1x40_S100000x40_0_1 _ b).trans ?_
  refine congrArg (fun z => addRow z b) ?_
  refine (dot_eq_mm _ dot2_plain none _ W).trans ?_
  refine congrArg (fun z => mm z W) ?_
  exact pass_eq gather_S100000x64_S900000x1_S900000x64_1_0_n_n_0_1_164_wf scatter_S100000x64_S900000x1_S900000x64_1_0_0_1_wf
    bcast_S_S100000x64 bcast_S900000x1_S900000x64_0_1 _ _ _ _

/-- The rectifier as the host spells it is the rectifier. -/
theorem reluH_eq (t : FVec Ideal S100000x64 .f32) : (reluH t : S100000x64.Idx → EReal) = relu0 t :=
  host_relu_eq bcast_S_S100000x64 t

/-- Contents moved to a typed reference's buffer and back are the contents. -/
theorem ofBuf_toBuf {sig' : RefSig} {T : BufTy} {Val : EltTy → Type} (x : TRef sig' T) (v : T.Contents Val) :
    x.ofBuf (x.toBuf v) = v := by
  obtain ⟨r, rfl, h1, h2⟩ := x
  rfl

variable (m : (ℓ : Loc nD τ sig) → Buf (Elt Ideal) ℓ)

section Walk
variable (c : Dev nD)

/-! ### The argument arrays and the position vectors at the stretches that read them -/

theorem R3_arg (b : Ref sig .tc) (hb : b = main_arg0 ∨ b = main_arg1 ∨ b = main_arg2 ∨ b = main_arg3 ∨ b = main_arg4 ∨ b = main_arg5) :
    R3 m c (Proc.devRef .tc b) = m ((c.tc : Thread nD τ).loc b) :=
  (R3_keep m c b (by tauto)).trans ((R2_keep m c b (by tauto)).trans (R1_arg m c b hb))

theorem R8_keep5 (b : Ref sig .tc) (hb : b = main_arg0 ∨ b = main_arg1 ∨ b = main_arg2 ∨ b = main_arg3 ∨ b = main_arg4 ∨ b = main_arg5 ∨ b = main_v3 ∨ b = main_v6) :
    R8 m c (Proc.devRef .tc b) = R3 m c (Proc.devRef .tc b) :=
  (R8_keep m c b (by tauto)).trans ((R7_keep m c b (by tauto)).trans ((R6_keep m c b (by tauto)).trans
    ((R5_keep m c b hb).trans (R4_keep m c b hb))))

theorem R8_keep48 : R8 m c (Proc.devRef .tc main_v48) = R5 m c (Proc.devRef .tc main_v48) :=
  (R8_keep m c main_v48 (by simp)).trans ((R7_keep m c main_v48 (by simp)).trans (R6_keep m c main_v48 (by simp)))

/-! ### The first layer -/

theorem e48 : (R5 m c (Proc.devRef .tc main_v48) : S100000x64.Idx → EReal) = relu0 (addRow (mm (propagate hN (scatCol (m ((c.tc : Thread nD τ).loc main_arg1))) (gathCol (m ((c.tc : Thread nD τ).loc main_arg1))) (wgtVec (m ((c.tc : Thread nD τ).loc main_arg1))) 0 (m ((c.tc : Thread nD τ).loc main_arg0))) (m ((c.tc : Thread nD τ).loc main_arg2))) (m ((c.tc : Thread nD τ).loc main_arg3))) := by
  rw [R5_v48_raw, R4_v47_raw, R3_tgt, R3_src, R3_wgt, R3_arg m c main_arg0 (by simp), R3_arg m c main_arg2 (by simp), R3_arg m c main_arg3 (by simp)]
  exact (reluH_eq _).trans (congrArg relu0 (layer1_eq _ _ _ _ _ _))

/-! ### The weights again -/

theorem R8_wgt : R8 m c (Proc.devRef .tc main_v72) = wgtVec (m ((c.tc : Thread nD τ).loc main_arg1)) := by
  have h6 : R5 m c (Proc.devRef .tc main_v6) = tgtVec (m ((c.tc : Thread nD τ).loc main_arg1)) :=
    ((R5_keep m c main_v6 (by simp)).trans (R4_keep m c main_v6 (by simp))).trans (R3_tgt m c)
  have k3 : R7 m c (Proc.devRef .tc main_v3) = srcVec (m ((c.tc : Thread nD τ).loc main_arg1)) :=
    (R7_keep m c main_v3 (by simp)).trans ((R6_keep m c main_v3 (by simp)).trans
      (((R5_keep m c main_v3 (by simp)).trans (R4_keep m c main_v3 (by simp))).trans (R3_src m c)))
  have k6 : R7 m c (Proc.devRef .tc main_v6) = tgtVec (m ((c.tc : Thread nD τ).loc main_arg1)) :=
    (R7_keep m c main_v6 (by simp)).trans ((R6_keep m c main_v6 (by simp)).trans h6)
  rw [R8_wgt_raw, R7_dinv_raw, k3, k6, R6_flag, R6_rsqrt, R6_zero, h6]
  rfl

/-! ### The second layer -/

theorem e89 : (R9 m c (Proc.devRef .tc main_v89) : S100000x40.Idx → EReal) = addRow (mm (propagate hN (scatCol (m ((c.tc : Thread nD τ).loc main_arg1))) (gathCol (m ((c.tc : Thread nD τ).loc main_arg1))) (wgtVec (m ((c.tc : Thread nD τ).loc main_arg1))) 0 (relu0 (addRow (mm (propagate hN (scatCol (m ((c.tc : Thread nD τ).loc main_arg1))) (gathCol (m ((c.tc : Thread nD τ).loc main_arg1))) (wgtVec (m ((c.tc : Thread nD τ).loc main_arg1))) 0 (m ((c.tc : Thread nD τ).loc main_arg0))) (m ((c.tc : Thread nD τ).loc main_arg2))) (m ((c.tc : Thread nD τ).loc main_arg3))))) (m ((c.tc : Thread nD τ).loc main_arg4))) (m ((c.tc : Thread nD τ).loc main_arg5)) := by
  rw [R9_v89_raw, R8_keep5 m c main_v6 (by simp), R8_keep5 m c main_v3 (by simp), R8_keep5 m c main_arg4 (by simp),
    R8_keep5 m c main_arg5 (by simp), R8_keep48, R8_wgt, e48, R3_tgt, R3_src, R3_arg m c main_arg4 (by simp), R3_arg m c main_arg5 (by simp)]
  exact layer2_eq _ _ _ _ _ _

/-! ### The log-softmax -/

set_option maxHeartbeats 4000000 in
theorem R10_v90_raw : R10 m c (Proc.devRef .tc main_v90)
    = hostLogSoftmax reducesTo_S100000x40_S100000_d1 h_S_ bcast_S_S100000 bcast_S100000_S100000x1_0 bcast_S100000x1_S100000x40_0_1
        (R9 m c (Proc.devRef .tc main_v89)) := by
  show StableHlo.after opsS9 (R9 m c) (Proc.devRef .tc main_v90) = _
  generalize R9 m c = W'
  after_results_simp
  simp only [ofBuf_toBuf]
  rfl

end Walk

/-- THE REFERENCE'S VALUE: after the run the result array is the network that passes messages first. -/
theorem ref_value (c : Dev nD) :
    (StableHlo.after (ops (F := Ideal)) (launchContents m c) (Proc.devRef .tc main_v90) : S100000x40.Idx → EReal)
      = netPassFirst hN (scatCol (m ((c.tc : Thread nD τ).loc main_arg1))) (gathCol (m ((c.tc : Thread nD τ).loc main_arg1))) (wgtVec (m ((c.tc : Thread nD τ).loc main_arg1)))
          (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) := by
  rw [after_ops, R10_v90_raw, e89]
  exact hostLogSoftmax_eq _ _ _ _ _ (by decide) _

/-- THE REFERENCE'S RUN: every weakly fair execution terminates with the result array at the network that passes
    messages first and every argument array as launched. -/
theorem ref_run (ρ : Dev nD → PrngReg) :
    θ_run defs (onTc (τ := τ) (main (F := Ideal))) ⟨m, fun _ => 0, ρ⟩ fun r => ∀ c : Dev nD,
      (r.2.mem ((c.tc : Thread nD τ).loc main_v90) : S100000x40.Idx → EReal)
          = netPassFirst hN (scatCol (m ((c.tc : Thread nD τ).loc main_arg1))) (gathCol (m ((c.tc : Thread nD τ).loc main_arg1))) (wgtVec (m ((c.tc : Thread nD τ).loc main_arg1)))
              (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨(h c main_v90).trans (ref_value m c),
     (h c main_arg0).trans (Cert.ReferenceIdeal.RefArgs.after_arg0 m c),
     (h c main_arg1).trans (Cert.ReferenceIdeal.RefArgs.after_arg1 m c),
     (h c main_arg2).trans (Cert.ReferenceIdeal.RefArgs.after_arg2 m c),
     (h c main_arg3).trans (Cert.ReferenceIdeal.RefArgs.after_arg3 m c),
     (h c main_arg4).trans (Cert.ReferenceIdeal.RefArgs.after_arg4 m c),
     (h c main_arg5).trans (Cert.ReferenceIdeal.RefArgs.after_arg5 m c)⟩) (run_raw m ρ)

end Cert.ReferenceIdeal.RefValue

end
-- ==== Proof.LibEdgeLinear.lean ====
/-
  A step of weighted message passing is linear, so on real data it commutes with a matrix product, for any sizes.

  Over the extended reals sums and products are not a ring (`⊤ + ⊥`, `0 · ⊤`), so the law is stated for tables all of
  whose entries are real numbers. On such tables a step from `0` and a matrix product are the coercions of the same
  expressions over the reals (`propagate_coe`, `mm_coe`), hence again real-entried (`propagate_real`, `mm_real`; also
  a bias row added and the rectifier: `addRow_real`, `relu0_real`), and the law
      step (A · B) = (step A) · B                                                         (`propagate_mm`)
  is the exchange of two finite sums over the reals (`sum_ite_mul_comm`).
-/
import Idealize.ShloMosaic.Lib.ValueIdx
import Idealize.ShloMosaic.PureOps.Ideal
import proofs.«152553_j71683004171209_2_alg».proof.Proof.Spec

noncomputable section

open scoped BigOperators

namespace Cert.Lib.EdgeLinear

open Idealize.ShloMosaic Idealize.ShloMosaic.ValueIdx Cert.Lib.EdgePass

/-! ## Coercions of finite sums -/

/-- A finite sum of coerced reals is the coercion of the real sum. -/
theorem coe_sum {ι : Type} (s : Finset ι) (f : ι → ℝ) :
    (∑ i ∈ s, (f i : EReal)) = ((∑ i ∈ s, f i : ℝ) : EReal) := by
  classical
  refine Finset.induction_on s (by simp) fun a s ha ih => ?_
  rw [Finset.sum_insert ha, Finset.sum_insert ha, ih, EReal.coe_add]

/-- A choice between a coerced real and `0` is the coercion of the choice. -/
theorem coe_ite (c : Prop) [Decidable c] (a : ℝ) :
    (if c then (a : EReal) else 0) = ((if c then a else 0 : ℝ) : EReal) := by
  by_cases h : c
  · rw [if_pos h, if_pos h]
  · rw [if_neg h, if_neg h]; rfl

/-- The same under a choice with `0`, term by term. -/
theorem coe_sum_ite {ι : Type} (s : Finset ι) (c : ι → Prop) [DecidablePred c] (f : ι → ℝ) :
    (∑ i ∈ s, if c i then (f i : EReal) else 0) = ((∑ i ∈ s, if c i then f i else 0 : ℝ) : EReal) := by
  rw [← coe_sum]
  exact Finset.sum_congr rfl fun i _ => coe_ite (c i) (f i)

/-! ## The step and the product over the reals -/

/-- One step from `0` over the reals. -/
def propR {N E C w : Nat} (hN : 0 < N) (src dst : IVec ⟨2, ![E, 1]⟩ w) (ω : (⟨1, ![E]⟩ : Shape).Idx → ℝ)
    (a : (⟨2, ![N, C]⟩ : Shape).Idx → ℝ) : (⟨2, ![N, C]⟩ : Shape).Idx → ℝ :=
  fun i => ∑ e : Fin E, if (src (ix2 e ⟨0, Nat.one_pos⟩)).toInt = ((i 0).val : Int)
    then a (ix2 (rowOf N hN (dst (ix2 e ⟨0, Nat.one_pos⟩))) (i 1)) * ω (ix1 e) else 0

/-- The matrix product over the reals. -/
def mmR {M K N : Nat} (a : (⟨2, ![M, K]⟩ : Shape).Idx → ℝ) (b : (⟨2, ![K, N]⟩ : Shape).Idx → ℝ) :
    (⟨2, ![M, N]⟩ : Shape).Idx → ℝ :=
  fun i => ∑ c : Fin K, a (ix2 (i 0) c) * b (ix2 c (i 1))

/-- A step from `0` on coerced reals is the coercion of the real step. -/
theorem propagate_coe {N E C w : Nat} (hN : 0 < N) (src dst : IVec ⟨2, ![E, 1]⟩ w)
    (ω : (⟨1, ![E]⟩ : Shape).Idx → ℝ) (a : (⟨2, ![N, C]⟩ : Shape).Idx → ℝ) (i : (⟨2, ![N, C]⟩ : Shape).Idx) :
    propagate hN src dst (fun e => (ω e : EReal)) 0 (fun j => (a j : EReal)) i = ((propR hN src dst ω a i : ℝ) : EReal) := by
  unfold propagate propR
  rw [zero_add, ← coe_sum]
  refine Finset.sum_congr rfl fun e _ => ?_
  by_cases h : (src (ix2 e ⟨0, Nat.one_pos⟩)).toInt = ((i 0).val : Int)
  · rw [if_pos h, if_pos h]; exact (EReal.coe_mul _ _).symm
  · rw [if_neg h, if_neg h]; rfl

/-- A product of coerced reals is the coercion of the real product. -/
theorem mm_coe {M K N : Nat} (a : (⟨2, ![M, K]⟩ : Shape).Idx → ℝ) (b : (⟨2, ![K, N]⟩ : Shape).Idx → ℝ)
    (i : (⟨2, ![M, N]⟩ : Shape).Idx) :
    mm (fun j => (a j : EReal)) (fun j => (b j : EReal)) i = ((mmR a b i : ℝ) : EReal) := by
  unfold mm mmR
  rw [← coe_sum]
  exact Finset.sum_congr rfl fun c _ => (EReal.coe_mul _ _).symm

/-! ## Real entries stay real -/

/-- A step from `0` on a real-entried table with real weights is real-entried. -/
theorem propagate_real {N E C w : Nat} (hN : 0 < N) (src dst : IVec ⟨2, ![E, 1]⟩ w)
    (wgt : (⟨1, ![E]⟩ : Shape).Idx → EReal) (p : (⟨2, ![N, C]⟩ : Shape).Idx → EReal)
    (hp : ∀ i, ∃ r : ℝ, p i = (r : EReal)) (hw : ∀ i, ∃ r : ℝ, wgt i = (r : EReal)) :
    ∀ i, ∃ r : ℝ, propagate hN src dst wgt 0 p i = (r : EReal) := by
  choose a ha using hp
  choose ω hω using hw
  obtain rfl : p = fun j => (a j : EReal) := funext ha
  obtain rfl : wgt = fun e => (ω e : EReal) := funext hω
  exact fun i => ⟨_, propagate_coe hN src dst ω a i⟩

/-- A product of real-entried tables is real-entried. -/
theorem mm_real {M K N : Nat} (A : (⟨2, ![M, K]⟩ : Shape).Idx → EReal) (B : (⟨2, ![K, N]⟩ : Shape).Idx → EReal)
    (hA : ∀ i, ∃ r : ℝ, A i = (r : EReal)) (hB : ∀ i, ∃ r : ℝ, B i = (r : EReal)) :
    ∀ i, ∃ r : ℝ, mm A B i = (r : EReal) := by
  choose a ha using hA
  choose b hb using hB
  obtain rfl : A = fun j => (a j : EReal) := funext ha
  obtain rfl : B = fun j => (b j : EReal) := funext hb
  exact fun i => ⟨_, mm_coe a b i⟩

/-- A real bias row added to a real-entried table gives a real-entried table. -/
theorem addRow_real {N C : Nat} (A : (⟨2, ![N, C]⟩ : Shape).Idx → EReal) (b : (⟨1, ![C]⟩ : Shape).Idx → EReal)
    (hA : ∀ i, ∃ r : ℝ, A i = (r : EReal)) (hb : ∀ i, ∃ r : ℝ, b i = (r : EReal)) :
    ∀ i, ∃ r : ℝ, Cert.Spec.addRow A b i = (r : EReal) := by
  intro i
  obtain ⟨a, ha⟩ := hA i
  obtain ⟨c, hc⟩ := hb (ix1 (i 1))
  refine ⟨a + c, ?_⟩
  show A i + b (ix1 (i 1)) = _
  rw [ha, hc, EReal.coe_add]

/-- The rectifier of a real-entried table is real-entried. -/
theorem relu0_real {N C : Nat} (A : (⟨2, ![N, C]⟩ : Shape).Idx → EReal)
    (hA : ∀ i, ∃ r : ℝ, A i = (r : EReal)) :
    ∀ i, ∃ r : ℝ, Cert.Spec.relu0 A i = (r : EReal) := by
  intro i
  obtain ⟨a, ha⟩ := hA i
  show ∃ r : ℝ, max (A i) 0 = (r : EReal)
  rw [ha]
  rcases le_total (a : EReal) 0 with h | h
  · exact ⟨0, by rw [max_eq_right h]; rfl⟩
  · exact ⟨a, by rw [max_eq_left h]⟩

/-! ## The law -/

/-- The exchange of sums behind the law: a chosen-or-zero sum over edges of an inner product, scaled, is the inner
    product of the chosen-or-zero sums. -/
theorem sum_ite_mul_comm {E K : Nat} (c : Fin E → Prop) [DecidablePred c] (f : Fin E → Fin K → ℝ) (g : Fin K → ℝ)
    (ω : Fin E → ℝ) :
    (∑ e : Fin E, if c e then (∑ k : Fin K, f e k * g k) * ω e else 0)
      = ∑ k : Fin K, (∑ e : Fin E, if c e then f e k * ω e else 0) * g k := by
  have hR : (∑ k : Fin K, (∑ e : Fin E, if c e then f e k * ω e else 0) * g k)
      = ∑ k : Fin K, ∑ e : Fin E, if c e then f e k * g k * ω e else 0 := by
    refine Finset.sum_congr rfl fun k _ => ?_
    rw [Finset.sum_mul]
    refine Finset.sum_congr rfl fun e _ => ?_
    by_cases h : c e
    · rw [if_pos h, if_pos h]; ring
    · rw [if_neg h, if_neg h, zero_mul]
  rw [hR, Finset.sum_comm]
  refine Finset.sum_congr rfl fun e _ => ?_
  by_cases h : c e
  · rw [if_pos h, Finset.sum_mul]
    exact Finset.sum_congr rfl fun k _ => (if_pos h).symm
  · rw [if_neg h]
    exact (Finset.sum_eq_zero fun k _ => if_neg h).symm

/-- The law over the reals. -/
theorem propR_mmR {N E K C w : Nat} (hN : 0 < N) (src dst : IVec ⟨2, ![E, 1]⟩ w) (ω : (⟨1, ![E]⟩ : Shape).Idx → ℝ)
    (a : (⟨2, ![N, K]⟩ : Shape).Idx → ℝ) (b : (⟨2, ![K, C]⟩ : Shape).Idx → ℝ) :
    propR hN src dst ω (mmR a b) = mmR (propR hN src dst ω a) b := by
  funext i
  exact sum_ite_mul_comm (fun e : Fin E => (src (ix2 e ⟨0, Nat.one_pos⟩)).toInt = ((i 0).val : Int))
    (fun e k => a (ix2 (rowOf N hN (dst (ix2 e ⟨0, Nat.one_pos⟩))) k)) (fun k => b (ix2 k (i 1))) (fun e => ω (ix1 e))

/-- THE LAW: on real-entried tables with real weights, a step from `0` applied to a product is the product of the step. -/
theorem propagate_mm {N E K C w : Nat} (hN : 0 < N) (src dst : IVec ⟨2, ![E, 1]⟩ w)
    (wgt : (⟨1, ![E]⟩ : Shape).Idx → EReal) (A : (⟨2, ![N, K]⟩ : Shape).Idx → EReal)
    (B : (⟨2, ![K, C]⟩ : Shape).Idx → EReal)
    (hA : ∀ i, ∃ r : ℝ, A i = (r : EReal)) (hB : ∀ i, ∃ r : ℝ, B i = (r : EReal))
    (hw : ∀ i, ∃ r : ℝ, wgt i = (r : EReal)) :
    propagate hN src dst wgt 0 (mm A B) = mm (propagate hN src dst wgt 0 A) B := by
  choose a ha using hA
  choose b hb using hB
  choose ω hω using hw
  obtain rfl : A = fun j => (a j : EReal) := funext ha
  obtain rfl : B = fun j => (b j : EReal) := funext hb
  obtain rfl : wgt = fun e => (ω e : EReal) := funext hω
  have h1 : mm (fun j => (a j : EReal)) (fun j => (b j : EReal)) = fun j => ((mmR a b j : ℝ) : EReal) :=
    funext (mm_coe a b)
  have h2 : propagate hN src dst (fun e => (ω e : EReal)) 0 (fun j => (a j : EReal))
      = fun j => ((propR hN src dst ω a j : ℝ) : EReal) := funext (propagate_coe hN src dst ω a)
  funext i
  rw [h1, h2, propagate_coe, mm_coe, propR_mmR]

end Cert.Lib.EdgeLinear

end
-- ==== Proof.SpecEq.lean ====
/-
  The two orders of the two-layer network agree on real data.

  A message-passing step from `0` commutes with a matrix product on real-entried tables (the step is linear). Applied
  once in the first layer (to the input table and the first weight matrix) and once in the second (to the rectified
  first layer, which is again real-entried, and the second weight matrix), it turns "multiply first, pass messages
  second" into "pass messages first, multiply second". The closing bias row and the row-wise log-softmax are the same
  on both sides.
-/
import Idealize.ShloMosaic.Lib.ValueIdx
import Idealize.ShloMosaic.PureOps.Ideal
import proofs.«152553_j71683004171209_2_alg».proof.Proof.Spec
import proofs.«152553_j71683004171209_2_alg».proof.Proof.LibEdgeLinear

noncomputable section

open scoped BigOperators

namespace Cert.Spec

open Idealize.ShloMosaic Idealize.ShloMosaic.ValueIdx Cert.Lib.EdgePass Cert.Lib.EdgeLinear

/-- On real inputs, real weight matrices, a real first bias and real edge weights, multiplying first and passing
    messages second gives the same table as passing messages first and multiplying second. -/
theorem netMulFirst_eq_netPassFirst {N E K H C w : Nat} (hN : 0 < N) (src dst : IVec ⟨2, ![E, 1]⟩ w)
    (wgt : (⟨1, ![E]⟩ : Shape).Idx → EReal)
    (x : (⟨2, ![N, K]⟩ : Shape).Idx → EReal) (W1 : (⟨2, ![K, H]⟩ : Shape).Idx → EReal)
    (b1 : (⟨1, ![H]⟩ : Shape).Idx → EReal)
    (W2 : (⟨2, ![H, C]⟩ : Shape).Idx → EReal) (b2 : (⟨1, ![C]⟩ : Shape).Idx → EReal)
    (hx : ∀ i, ∃ r : ℝ, x i = (r : EReal)) (hW1 : ∀ i, ∃ r : ℝ, W1 i = (r : EReal))
    (hb1 : ∀ i, ∃ r : ℝ, b1 i = (r : EReal)) (hW2 : ∀ i, ∃ r : ℝ, W2 i = (r : EReal))
    (hwgt : ∀ i, ∃ r : ℝ, wgt i = (r : EReal)) :
    netMulFirst hN src dst wgt x W1 b1 W2 b2 = netPassFirst hN src dst wgt x W1 b1 W2 b2 := by
  -- first layer: the step commutes with the product by the first weight matrix
  have h1 : propagate hN src dst wgt 0 (mm x W1) = mm (propagate hN src dst wgt 0 x) W1 :=
    propagate_mm hN src dst wgt x W1 hx hW1 hwgt
  -- the rectified first layer is real-entried
  have hr : ∀ i, ∃ r : ℝ, relu0 (addRow (mm (propagate hN src dst wgt 0 x) W1) b1) i = (r : EReal) :=
    relu0_real _ (addRow_real _ _ (mm_real _ _ (propagate_real hN src dst wgt x hx hwgt) hW1) hb1)
  -- second layer: the step commutes with the product by the second weight matrix
  have h2 : propagate hN src dst wgt 0 (mm (relu0 (addRow (mm (propagate hN src dst wgt 0 x) W1) b1)) W2)
      = mm (propagate hN src dst wgt 0 (relu0 (addRow (mm (propagate hN src dst wgt 0 x) W1) b1))) W2 :=
    propagate_mm hN src dst wgt _ W2 hr hW2 hwgt
  unfold netMulFirst netPassFirst
  exact (congrArg (fun t => logSoftmax (addRow (propagate hN src dst wgt 0 (mm (relu0 (addRow t b1)) W2)) b2)) h1).trans
    (congrArg (fun t => logSoftmax (addRow t b2)) h2)

end Cert.Spec

end
-- ==== Proof.Finite.lean ====
/-
  From the finiteness precondition to "every float input entry is a real number".
  The precondition is the conjunction, over the five float arguments, of all (|a| < +∞);
  each conjunct gives, entry by entry, that the entry is neither of the two infinities.
-/
import proofs.«152553_j71683004171209_2_alg».proof.Defs
import proofs.«152553_j71683004171209_2_alg».proof.Proof.Gen.Pre_finite_inputs
import Idealize.ShloMosaic.Lib.ReduceAll
import Idealize.ShloMosaic.Lib.ValueIdx
import Idealize.ShloMosaic.PureOps.Ideal

noncomputable section

namespace Cert.Proof.Finite

open Idealize.ShloMosaic Idealize.SL.Sem

/-- The word 0x7F800000 denotes +∞. -/
theorem ofBits_posInf : Ideal.ofBits .f32 0x7F800000#32 = (⊤ : EReal) := by
  simp [Ideal.ofBits, Ideal.ieee]

/-- An extended real whose absolute value is below +∞ is a real number. -/
theorem real_of_abs_lt_top (x : EReal)
    (h : Ideal.cmp .olt (max x (-x)) (Ideal.ofBits .f32 0x7F800000#32) = 1#1) : ∃ r : ℝ, x = (r : EReal) := by
  rw [ofBits_posInf] at h
  induction x using EReal.rec with
  | bot => exact absurd h (by simp [Ideal.cmp])
  | coe r => exact ⟨r, rfl⟩
  | top => exact absurd h (by simp [Ideal.cmp])

instance : Subsingleton (⟨0, ![]⟩ : Shape).Idx := ⟨fun a b => funext fun d => d.elim0⟩

/-- The generic step: if all (|a| < +∞) came out 1 then every entry of a is a real number. -/
theorem real_of_all {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (h0 : 0 < (⟨0, ![]⟩ : Shape).numel)
    (h : Host.reduce IntOp.andi
          (cmpf .olt (Host.absf a) (broadcastInDim s ![] hb (constant (F := Ideal) ⟨0, ![]⟩ .f32 0x7F800000#32)))
          (constantI ⟨0, ![]⟩ 1 1#1) hr h0 ValueIdx.ix0 = 1#1) :
    ∀ i, ∃ r : ℝ, (a i : EReal) = (r : EReal) := by
  intro i
  have hi := Host.reduce_andi_all _ _ hr h0 ValueIdx.ix0 h i
  exact real_of_abs_lt_top (a i) hi

variable [Cert.KernelIdeal.Facts] [Cert.Pre_finite_inputs.Facts]

theorem real_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0) :
        Cert.KernelIdeal.S100000x128.Idx → EReal) i = (r : EReal)) ∧
    (∀ i, ∃ r : ℝ, (m ((c.tc : Thread Cert.KernelIdeal.nD Cert.KernelIdeal.τ).loc Cert.KernelIdeal.main_arg2) :
        Cert.KernelIdeal.S128x64.Idx → EReal) i = (r : EReal)) ∧
    (∀ i, ∃ r : ℝ, (m ((c.tc : Thread Cert.KernelIdeal.nD Cert.KernelIdeal.τ).loc Cert.KernelIdeal.main_arg3) :
        Cert.KernelIdeal.S64.Idx → EReal) i = (r : EReal)) ∧
    (∀ i, ∃ r : ℝ, (m ((c.tc : Thread Cert.KernelIdeal.nD Cert.KernelIdeal.τ).loc Cert.KernelIdeal.main_arg4) :
        Cert.KernelIdeal.S64x40.Idx → EReal) i = (r : EReal)) ∧
    (∀ i, ∃ r : ℝ, (m ((c.tc : Thread Cert.KernelIdeal.nD Cert.KernelIdeal.τ).loc Cert.KernelIdeal.main_arg5) :
        Cert.KernelIdeal.S40.Idx → EReal) i = (r : EReal)) := by
  have h0 := congrFun (h c) ValueIdx.ix0
  dsimp only [Cert.Pre_finite_inputs.fn, Cert.Pre_finite_inputs.fn_part1] at h0
  obtain ⟨h18, h5⟩ := IntOp.andi_eq_one.1 h0
  obtain ⟨h13, h4⟩ := IntOp.andi_eq_one.1 h18
  obtain ⟨h8, h3⟩ := IntOp.andi_eq_one.1 h13
  obtain ⟨h0', h2⟩ := IntOp.andi_eq_one.1 h8
  exact ⟨real_of_all _ _ _ _ h0', real_of_all _ _ _ _ h2, real_of_all _ _ _ _ h3,
    real_of_all _ _ _ _ h4, real_of_all _ _ _ _ h5⟩

end Cert.Proof.Finite
-- ==== Proof.lean ====
/-
  The certificate of a two-layer graph network with symmetric-normalised message passing and a row-wise log-softmax.

  Both programs build the same graph from the edge list (the given edges followed by one self-loop per node) and the same
  edge weights (the product of the reciprocal square roots of the end nodes' in-degrees). One layer is a message-passing
  step `P` (row `r` collects, over the edges with target `r`, the source's row times the edge's weight) and a dense matrix.
  The kernel program multiplies by the matrix first, in a pipelined matrix product over blocks of 10000 rows, and passes
  messages second; the reference passes messages first and multiplies second. `P` is linear, so on real data
  `P (X · W) = (P X) · W`: exchange the two finite sums. The law needs every quantity to be a real number — on the extended
  reals a product with an infinite weight does not distribute over a sum —, and that is where the precondition (every float
  input finite) and the realness of the weights (an in-degree is a count; its reciprocal square root is taken only where
  the count is positive) are used. After the second layer both programs add a bias row and take the row-wise log-softmax
  `(a − top) − log Σ exp (a − top)`; the reference's extra maximum of the row top with `-∞` changes nothing.

  The kernel program's value is read off its run region by region: each region's output array is one function of the arrays
  the region finds, and each host stretch between two regions is one message-passing step. The reference's value is read
  off the fold of its host operations, stretch by stretch.
-/
import proofs.«152553_j71683004171209_2_alg».proof.Defs
import proofs.«152553_j71683004171209_2_alg».proof.Proof.Gen.Kernel
import proofs.«152553_j71683004171209_2_alg».proof.Proof.Gen.Kernel.Frame
import proofs.«152553_j71683004171209_2_alg».proof.Proof.Gen.KernelIdeal
import proofs.«152553_j71683004171209_2_alg».proof.Proof.Gen.KernelIdeal.Frame
import proofs.«152553_j71683004171209_2_alg».proof.Proof.Gen.ReferenceIdeal
import proofs.«152553_j71683004171209_2_alg».proof.Proof.Gen.Pre_finite_inputs
import proofs.«152553_j71683004171209_2_alg».proof.Proof.RunNamed
import proofs.«152553_j71683004171209_2_alg».proof.Proof.KValue
import proofs.«152553_j71683004171209_2_alg».proof.Proof.KWeights
import proofs.«152553_j71683004171209_2_alg».proof.Proof.Region0
import proofs.«152553_j71683004171209_2_alg».proof.Proof.Region1
import proofs.«152553_j71683004171209_2_alg».proof.Proof.Region2
import proofs.«152553_j71683004171209_2_alg».proof.Proof.RefValue
import proofs.«152553_j71683004171209_2_alg».proof.Proof.SpecEq
import proofs.«152553_j71683004171209_2_alg».proof.Proof.Finite
import Idealize.ShloMosaic.Adequacy
import Idealize.ShloMosaic.Init

noncomputable section

namespace Cert.Proof

open Idealize.ShloMosaic Idealize.ShloMosaic.TcCoe Idealize.SL.Sem

/-- The kernel program's run: the result array ends at the multiply-first network of the argument arrays. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v59)
          = Cert.Spec.netMulFirst Cert.KernelIdeal.KValue.hN
              (Cert.KernelIdeal.Graph.scatCol (m ((c.tc : Thread Cert.KernelIdeal.nD Cert.KernelIdeal.τ).loc Cert.KernelIdeal.main_arg1)))
              (Cert.KernelIdeal.Graph.gathCol (m ((c.tc : Thread Cert.KernelIdeal.nD Cert.KernelIdeal.τ).loc Cert.KernelIdeal.main_arg1)))
              (Cert.KernelIdeal.Graph.wgtVec (m ((c.tc : Thread Cert.KernelIdeal.nD Cert.KernelIdeal.τ).loc Cert.KernelIdeal.main_arg1)))
              (m ((c.tc : Thread Cert.KernelIdeal.nD Cert.KernelIdeal.τ).loc Cert.KernelIdeal.main_arg0))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run (Cert.KernelIdeal.defs (F := Ideal)) _ _).mono
    (fun r h c => ⟨(h c).1.trans (Cert.KernelIdeal.KValue.value m ρ Cert.KernelIdeal.RegionValue.region0
        Cert.KernelIdeal.RegionValue.region1 Cert.KernelIdeal.RegionValue.region2 c), (h c).2⟩)
    (Cert.KernelIdeal.RunNamed.run_named (F := Ideal) m ρ)

theorem frame_p : Cert.frame_Kernel (hKernel := Cert.Kernel.Gen.facts) (hPre_finite_inputs := Cert.Pre_finite_inputs.Gen.facts) :=
  fun m ρ _ => Cert.Kernel.Gen.frame m ρ
theorem frame_pi : Cert.frame_KernelIdeal (hKernelIdeal := Cert.KernelIdeal.Gen.facts) (hPre_finite_inputs := Cert.Pre_finite_inputs.Gen.facts) :=
  fun m ρ _ => Cert.KernelIdeal.Gen.frame m ρ
/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.ReferenceIdeal.RefValue.ref_run m ρ)

/-- Run from memories agreeing on the arguments, the two programs end with the same result array: the kernel program's
    at the multiply-first network, the reference's at the pass-first network, of the same real data over the same graph with
    the same real weights. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, kernel_run m ρ, ?_⟩
  refine (θ_run (Cert.ReferenceIdeal.defs (F := Ideal)) _ _).mono (fun _ h c => ⟨(h c).1.trans ?_, (h c).2⟩)
    (Cert.ReferenceIdeal.RefValue.ref_run m' ρ')
  obtain ⟨h0, h1, h2, h3, h4, h5⟩ := hagree c
  obtain ⟨hx, hW1, hb1, hW2, -⟩ := Cert.Proof.Finite.real_of_pre m hpre c
  rw [h0, h1, h2, h3, h4, h5]
  exact (Cert.Spec.netMulFirst_eq_netPassFirst Cert.KernelIdeal.KValue.hN _ _ _ _ _ _ _ _ hx hW1 hb1 hW2
    (Cert.KernelIdeal.Graph.wgt_real _)).symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
